-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1024x3072 : Shape := ⟨2, ![1024, 3072]⟩
abbrev S1x3072 : Shape := ⟨2, ![1, 3072]⟩
abbrev S4096x3072 : Shape := ⟨2, ![4096, 3072]⟩
abbrev S1x1024 : Shape := ⟨2, ![1, 1024]⟩
abbrev S2x2048x3x16x64 : Shape := ⟨5, ![2, 2048, 3, 16, 64]⟩
abbrev S1x256x1x16x64 : Shape := ⟨5, ![1, 256, 1, 16, 64]⟩
abbrev S1x2048x1x16x64 : Shape := ⟨5, ![1, 2048, 1, 16, 64]⟩
abbrev S1x256x1024 : Shape := ⟨3, ![1, 256, 1024]⟩
abbrev S1x256x1x1x64 : Shape := ⟨5, ![1, 256, 1, 1, 64]⟩
abbrev S256x64 : Shape := ⟨2, ![256, 64]⟩
abbrev S1x2048x1x1x64 : Shape := ⟨5, ![1, 2048, 1, 1, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x256x64 : Shape := ⟨3, ![1, 256, 64]⟩

abbrev nBuf : Space → Nat
  | .hbm => 19
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S1024x3072, .f32⟩
  | .hbm, ⟨7, _⟩ => ⟨S4096x1024, .bf16⟩
  | .hbm, ⟨8, _⟩ => ⟨S1024x3072, .bf16⟩
  | .hbm, ⟨9, _⟩ => ⟨S1x3072, .f32⟩
  | .hbm, ⟨10, _⟩ => ⟨S4096x3072, .bf16⟩
  | .hbm, ⟨11, _⟩ => ⟨S2x2048x3x16x64, .bf16⟩
  | .hbm, ⟨12, _⟩ => ⟨S2x2048x1024, .bf16⟩
  | .hbm, ⟨13, _⟩ => ⟨S4096x1024, .bf16⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S4096x1024, .f32⟩
  | .hbm, ⟨18, _⟩ => ⟨S2x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x256x1x16x64, .bf16⟩
  | .local _ .vmem, ⟨9, _⟩ => ⟨S1x256x1x16x64, .bf16⟩
  | .local _ .vmem, ⟨10, _⟩ => ⟨S1x2048x1x16x64, .bf16⟩
  | .local _ .vmem, ⟨11, _⟩ => ⟨S1x2048x1x16x64, .bf16⟩
  | .local _ .vmem, ⟨12, _⟩ => ⟨S1x2048x1x16x64, .bf16⟩
  | .local _ .vmem, ⟨13, _⟩ => ⟨S1x2048x1x16x64, .bf16⟩
  | .local _ .vmem, ⟨14, _⟩ => ⟨S1x256x1024, .bf16⟩
  | .local _ .vmem, ⟨15, _⟩ => ⟨S1x256x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 8], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![arg0.toNat, c0_i32.toNat, c1_i32.toNat, c0_i32_0.toNat, c0_i32_1.toNat]

def cc1_transform_2 (i : grid1.Coords) : Fin 5 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![arg0.toNat, c0_i32.toNat, c2_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1x16x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1x16x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1x16x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x2048x1024_S4096x1024 : S2x2048x1024.ShapeCasts S4096x1024
  transposes_S3072x1024_S1024x3072_1_0 : S3072x1024.Transposes [1, 0] S1024x3072
  bitsLt_bf16_f32 : FTy.bits .bf16 < FTy.bits .f32
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S4096x3072_S2x2048x3x16x64 : S4096x3072.ShapeCasts S2x2048x3x16x64
  inb_S1x256x1x16x64_S1x256x1x1x64_0_0_0_0_0 : ∀ a, (![0, 0, 0, 0, 0] : Fin 5 → Nat) a + S1x256x1x1x64.size a ≤ S1x256x1x16x64.size a
  h_S1x256x1x1x64 : 0 < S1x256x1x1x64.numel
  shapeCasts_S1x256x1x1x64_S256x64 : S1x256x1x1x64.ShapeCasts S256x64
  inb_S1x2048x1x16x64_S1x2048x1x1x64_0_0_0_0_0 : ∀ a, (![0, 0, 0, 0, 0] : Fin 5 → Nat) a + S1x2048x1x1x64.size a ≤ S1x2048x1x16x64.size a
  h_S1x2048x1x1x64 : 0 < S1x2048x1x1x64.numel
  shapeCasts_S1x2048x1x1x64_S2048x64 : S1x2048x1x1x64.ShapeCasts S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  inb_S1x256x1024_S1x256x64_0_0_0 : ∀ a, (![0, 0, 0] : Fin 3 → Nat) a + S1x256x64.size a ≤ S1x256x1024.size a
  h_S1x256x64 : 0 < S1x256x64.numel
  shapeCasts_S1x256x64_S256x64 : S1x256x64.ShapeCasts S256x64
  shapeCasts_S256x64_S1x256x64 : S256x64.ShapeCasts S1x256x64
  packedbf16_S1x256x1024_S1x256x64_0_0_0 : (Rect.unit (s := S1x256x1024) ![0, 0, 0] S1x256x64.size inb_S1x256x1024_S1x256x64_0_0_0).PackedRows (EltTy.packing .bf16)
  inb_S1x256x1x16x64_S1x256x1x1x64_0_0_0_1_0 : ∀ a, (![0, 0, 0, 1, 0] : Fin 5 → Nat) a + S1x256x1x1x64.size a ≤ S1x256x1x16x64.size a
  inb_S1x2048x1x16x64_S1x2048x1x1x64_0_0_0_1_0 : ∀ a, (![0, 0, 0, 1, 0] : Fin 5 → Nat) a + S1x2048x1x1x64.size a ≤ S1x2048x1x16x64.size a
  inb_S1x256x1024_S1x256x64_0_0_64 : ∀ a, (![0, 0, 64] : Fin 3 → Nat) a + S1x256x64.size a ≤ S1x256x1024.size a
  packedbf16_S1x256x1024_S1x256x64_0_0_64 : (Rect.unit (s := S1x256x1024) ![0, 0, 64] S1x256x64.size inb_S1x256x1024_S1x256x64_0_0_64).PackedRows (EltTy.packing .bf16)
  inb_S1x256x1x16x64_S1x256x1x1x64_0_0_0_2_0 : ∀ a, (![0, 0, 0, 2, 0] : Fin 5 → Nat) a + S1x256x1x1x64.size a ≤ S1x256x1x16x64.size a
  inb_S1x2048x1x16x64_S1x2048x1x1x64_0_0_0_2_0 : ∀ a, (![0, 0, 0, 2, 0] : Fin 5 → Nat) a + S1x2048x1x1x64.size a ≤ S1x2048x1x16x64.size a
  inb_S1x256x1024_S1x256x64_0_0_128 : ∀ a, (![0, 0, 128] : Fin 3 → Nat) a + S1x256x64.size a ≤ S1x256x1024.size a
  packedbf16_S1x256x1024_S1x256x64_0_0_128 : (Rect.unit (s := S1x256x1024) ![0, 0, 128] S1x256x64.size inb_S1x256x1024_S1x256x64_0_0_128).PackedRows (EltTy.packing .bf16)
  inb_S1x256x1x16x64_S1x256x1x1x64_0_0_0_3_0 : ∀ a, (![0, 0, 0, 3, 0] : Fin 5 → Nat) a + S1x256x1x1x64.size a ≤ S1x256x1x16x64.size a
  inb_S1x2048x1x16x64_S1x2048x1x1x64_0_0_0_3_0 : ∀ a, (![0, 0, 0, 3, 0] : Fin 5 → Nat) a + S1x2048x1x1x64.size a ≤ S1x2048x1x16x64.size a
  inb_S1x256x1024_S1x256x64_0_0_192 : ∀ a, (![0, 0, 192] : Fin 3 → Nat) a + S1x256x64.size a ≤ S1x256x1024.size a
  packedbf16_S1x256x1024_S1x256x64_0_0_192 : (Rect.unit (s := S1x256x1024) ![0, 0, 192] S1x256x64.size inb_S1x256x1024_S1x256x64_0_0_192).PackedRows (EltTy.packing .bf16)
  inb_S1x256x1x16x64_S1x256x1x1x64_0_0_0_4_0 : ∀ a, (![0, 0, 0, 4, 0] : Fin 5 → Nat) a + S1x256x1x1x64.size a ≤ S1x256x1x16x64.size a
  inb_S1x2048x1x16x64_S1x2048x1x1x64_0_0_0_4_0 : ∀ a, (![0, 0, 0, 4, 0] : Fin 5 → Nat) a + S1x2048x1x1x64.size a ≤ S1x2048x1x16x64.size a
  inb_S1x256x1024_S1x256x64_0_0_256 : ∀ a, (![0, 0, 256] : Fin 3 → Nat) a + S1x256x64.size a ≤ S1x256x1024.size a
  packedbf16_S1x256x1024_S1x256x64_0_0_256 : (Rect.unit (s := S1x256x1024) ![0, 0, 256] S1x256x64.size inb_S1x256x1024_S1x256x64_0_0_256).PackedRows (EltTy.packing .bf16)
  inb_S1x256x1x16x64_S1x256x1x1x64_0_0_0_5_0 : ∀ a, (![0, 0, 0, 5, 0] : Fin 5 → Nat) a + S1x256x1x1x64.size a ≤ S1x256x1x16x64.size a
  inb_S1x2048x1x16x64_S1x2048x1x1x64_0_0_0_5_0 : ∀ a, (![0, 0, 0, 5, 0] : Fin 5 → Nat) a + S1x2048x1x1x64.size a ≤ S1x2048x1x16x64.size a
  inb_S1x256x1024_S1x256x64_0_0_320 : ∀ a, (![0, 0, 320] : Fin 3 → Nat) a + S1x256x64.size a ≤ S1x256x1024.size a
  packedbf16_S1x256x1024_S1x256x64_0_0_320 : (Rect.unit (s := S1x256x1024) ![0, 0, 320] S1x256x64.size inb_S1x256x1024_S1x256x64_0_0_320).PackedRows (EltTy.packing .bf16)
  inb_S1x256x1x16x64_S1x256x1x1x64_0_0_0_6_0 : ∀ a, (![0, 0, 0, 6, 0] : Fin 5 → Nat) a + S1x256x1x1x64.size a ≤ S1x256x1x16x64.size a
  inb_S1x2048x1x16x64_S1x2048x1x1x64_0_0_0_6_0 : ∀ a, (![0, 0, 0, 6, 0] : Fin 5 → Nat) a + S1x2048x1x1x64.size a ≤ S1x2048x1x16x64.size a
  inb_S1x256x1024_S1x256x64_0_0_384 : ∀ a, (![0, 0, 384] : Fin 3 → Nat) a + S1x256x64.size a ≤ S1x256x1024.size a
  packedbf16_S1x256x1024_S1x256x64_0_0_384 : (Rect.unit (s := S1x256x1024) ![0, 0, 384] S1x256x64.size inb_S1x256x1024_S1x256x64_0_0_384).PackedRows (EltTy.packing .bf16)
  inb_S1x256x1x16x64_S1x256x1x1x64_0_0_0_7_0 : ∀ a, (![0, 0, 0, 7, 0] : Fin 5 → Nat) a + S1x256x1x1x64.size a ≤ S1x256x1x16x64.size a
  inb_S1x2048x1x16x64_S1x2048x1x1x64_0_0_0_7_0 : ∀ a, (![0, 0, 0, 7, 0] : Fin 5 → Nat) a + S1x2048x1x1x64.size a ≤ S1x2048x1x16x64.size a
  inb_S1x256x1024_S1x256x64_0_0_448 : ∀ a, (![0, 0, 448] : Fin 3 → Nat) a + S1x256x64.size a ≤ S1x256x1024.size a
  packedbf16_S1x256x1024_S1x256x64_0_0_448 : (Rect.unit (s := S1x256x1024) ![0, 0, 448] S1x256x64.size inb_S1x256x1024_S1x256x64_0_0_448).PackedRows (EltTy.packing .bf16)
  inb_S1x256x1x16x64_S1x256x1x1x64_0_0_0_8_0 : ∀ a, (![0, 0, 0, 8, 0] : Fin 5 → Nat) a + S1x256x1x1x64.size a ≤ S1x256x1x16x64.size a
  inb_S1x2048x1x16x64_S1x2048x1x1x64_0_0_0_8_0 : ∀ a, (![0, 0, 0, 8, 0] : Fin 5 → Nat) a + S1x2048x1x1x64.size a ≤ S1x2048x1x16x64.size a
  inb_S1x256x1024_S1x256x64_0_0_512 : ∀ a, (![0, 0, 512] : Fin 3 → Nat) a + S1x256x64.size a ≤ S1x256x1024.size a
  packedbf16_S1x256x1024_S1x256x64_0_0_512 : (Rect.unit (s := S1x256x1024) ![0, 0, 512] S1x256x64.size inb_S1x256x1024_S1x256x64_0_0_512).PackedRows (EltTy.packing .bf16)
  inb_S1x256x1x16x64_S1x256x1x1x64_0_0_0_9_0 : ∀ a, (![0, 0, 0, 9, 0] : Fin 5 → Nat) a + S1x256x1x1x64.size a ≤ S1x256x1x16x64.size a
  inb_S1x2048x1x16x64_S1x2048x1x1x64_0_0_0_9_0 : ∀ a, (![0, 0, 0, 9, 0] : Fin 5 → Nat) a + S1x2048x1x1x64.size a ≤ S1x2048x1x16x64.size a
  inb_S1x256x1024_S1x256x64_0_0_576 : ∀ a, (![0, 0, 576] : Fin 3 → Nat) a + S1x256x64.size a ≤ S1x256x1024.size a
  packedbf16_S1x256x1024_S1x256x64_0_0_576 : (Rect.unit (s := S1x256x1024) ![0, 0, 576] S1x256x64.size inb_S1x256x1024_S1x256x64_0_0_576).PackedRows (EltTy.packing .bf16)
  inb_S1x256x1x16x64_S1x256x1x1x64_0_0_0_10_0 : ∀ a, (![0, 0, 0, 10, 0] : Fin 5 → Nat) a + S1x256x1x1x64.size a ≤ S1x256x1x16x64.size a
  inb_S1x2048x1x16x64_S1x2048x1x1x64_0_0_0_10_0 : ∀ a, (![0, 0, 0, 10, 0] : Fin 5 → Nat) a + S1x2048x1x1x64.size a ≤ S1x2048x1x16x64.size a
  inb_S1x256x1024_S1x256x64_0_0_640 : ∀ a, (![0, 0, 640] : Fin 3 → Nat) a + S1x256x64.size a ≤ S1x256x1024.size a
  packedbf16_S1x256x1024_S1x256x64_0_0_640 : (Rect.unit (s := S1x256x1024) ![0, 0, 640] S1x256x64.size inb_S1x256x1024_S1x256x64_0_0_640).PackedRows (EltTy.packing .bf16)
  inb_S1x256x1x16x64_S1x256x1x1x64_0_0_0_11_0 : ∀ a, (![0, 0, 0, 11, 0] : Fin 5 → Nat) a + S1x256x1x1x64.size a ≤ S1x256x1x16x64.size a
  inb_S1x2048x1x16x64_S1x2048x1x1x64_0_0_0_11_0 : ∀ a, (![0, 0, 0, 11, 0] : Fin 5 → Nat) a + S1x2048x1x1x64.size a ≤ S1x2048x1x16x64.size a
  inb_S1x256x1024_S1x256x64_0_0_704 : ∀ a, (![0, 0, 704] : Fin 3 → Nat) a + S1x256x64.size a ≤ S1x256x1024.size a
  packedbf16_S1x256x1024_S1x256x64_0_0_704 : (Rect.unit (s := S1x256x1024) ![0, 0, 704] S1x256x64.size inb_S1x256x1024_S1x256x64_0_0_704).PackedRows (EltTy.packing .bf16)
  inb_S1x256x1x16x64_S1x256x1x1x64_0_0_0_12_0 : ∀ a, (![0, 0, 0, 12, 0] : Fin 5 → Nat) a + S1x256x1x1x64.size a ≤ S1x256x1x16x64.size a
  inb_S1x2048x1x16x64_S1x2048x1x1x64_0_0_0_12_0 : ∀ a, (![0, 0, 0, 12, 0] : Fin 5 → Nat) a + S1x2048x1x1x64.size a ≤ S1x2048x1x16x64.size a
  inb_S1x256x1024_S1x256x64_0_0_768 : ∀ a, (![0, 0, 768] : Fin 3 → Nat) a + S1x256x64.size a ≤ S1x256x1024.size a
  packedbf16_S1x256x1024_S1x256x64_0_0_768 : (Rect.unit (s := S1x256x1024) ![0, 0, 768] S1x256x64.size inb_S1x256x1024_S1x256x64_0_0_768).PackedRows (EltTy.packing .bf16)
  inb_S1x256x1x16x64_S1x256x1x1x64_0_0_0_13_0 : ∀ a, (![0, 0, 0, 13, 0] : Fin 5 → Nat) a + S1x256x1x1x64.size a ≤ S1x256x1x16x64.size a
  inb_S1x2048x1x16x64_S1x2048x1x1x64_0_0_0_13_0 : ∀ a, (![0, 0, 0, 13, 0] : Fin 5 → Nat) a + S1x2048x1x1x64.size a ≤ S1x2048x1x16x64.size a
  inb_S1x256x1024_S1x256x64_0_0_832 : ∀ a, (![0, 0, 832] : Fin 3 → Nat) a + S1x256x64.size a ≤ S1x256x1024.size a
  packedbf16_S1x256x1024_S1x256x64_0_0_832 : (Rect.unit (s := S1x256x1024) ![0, 0, 832] S1x256x64.size inb_S1x256x1024_S1x256x64_0_0_832).PackedRows (EltTy.packing .bf16)
  inb_S1x256x1x16x64_S1x256x1x1x64_0_0_0_14_0 : ∀ a, (![0, 0, 0, 14, 0] : Fin 5 → Nat) a + S1x256x1x1x64.size a ≤ S1x256x1x16x64.size a
  inb_S1x2048x1x16x64_S1x2048x1x1x64_0_0_0_14_0 : ∀ a, (![0, 0, 0, 14, 0] : Fin 5 → Nat) a + S1x2048x1x1x64.size a ≤ S1x2048x1x16x64.size a
  inb_S1x256x1024_S1x256x64_0_0_896 : ∀ a, (![0, 0, 896] : Fin 3 → Nat) a + S1x256x64.size a ≤ S1x256x1024.size a
  packedbf16_S1x256x1024_S1x256x64_0_0_896 : (Rect.unit (s := S1x256x1024) ![0, 0, 896] S1x256x64.size inb_S1x256x1024_S1x256x64_0_0_896).PackedRows (EltTy.packing .bf16)
  inb_S1x256x1x16x64_S1x256x1x1x64_0_0_0_15_0 : ∀ a, (![0, 0, 0, 15, 0] : Fin 5 → Nat) a + S1x256x1x1x64.size a ≤ S1x256x1x16x64.size a
  inb_S1x2048x1x16x64_S1x2048x1x1x64_0_0_0_15_0 : ∀ a, (![0, 0, 0, 15, 0] : Fin 5 → Nat) a + S1x2048x1x1x64.size a ≤ S1x2048x1x16x64.size a
  inb_S1x256x1024_S1x256x64_0_0_960 : ∀ a, (![0, 0, 960] : Fin 3 → Nat) a + S1x256x64.size a ≤ S1x256x1024.size a
  packedbf16_S1x256x1024_S1x256x64_0_0_960 : (Rect.unit (s := S1x256x1024) ![0, 0, 960] S1x256x64.size inb_S1x256x1024_S1x256x64_0_0_960).PackedRows (EltTy.packing .bf16)
  transposes_S1024x1024_S1024x1024_1_0 : S1024x1024.Transposes [1, 0] S1024x1024
  shapeCasts_S1024_S1x1024 : S1024.ShapeCasts S1x1024
  shapeCasts_S4096x1024_S2x2048x1024 : S4096x1024.ShapeCasts S2x2048x1024
  dot_S1024x1024_S1024x1024_S1024x1024_1_0_0_1_n_n_wf : DotDims.WF S1024x1024 S1024x1024 S1024x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x3072.size a
  hwx0_3 : ∀ i : grid0.Coords, EltTy.bits .bf16 = 32 ∨ (Rect.block (s := S4096x3072) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1x16x64.size a ≤ S2x2048x3x16x64.size a
  hwx1_0 : ∀ i : grid1.Coords, EltTy.bits .bf16 = 32 ∨ (Rect.block (s := S2x2048x3x16x64) S1x256x1x16x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1x16x64.size a ≤ S2x2048x3x16x64.size a
  hwx1_1 : ∀ i : grid1.Coords, EltTy.bits .bf16 = 32 ∨ (Rect.block (s := S2x2048x3x16x64) S1x2048x1x16x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1x16x64.size a ≤ S2x2048x3x16x64.size a
  hwx1_2 : ∀ i : grid1.Coords, EltTy.bits .bf16 = 32 ∨ (Rect.block (s := S2x2048x3x16x64) S1x2048x1x16x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S2x2048x1024.size a
  hwx1_3 : ∀ i : grid1.Coords, EltTy.bits .bf16 = 32 ∨ (Rect.block (s := S2x2048x1024) S1x256x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x256x1x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x1x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048x1x16x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x3x16x64, .f32⟩
  | .hbm, ⟨10, _⟩ => ⟨S3x2x16x2048x64, .f32⟩
  | .hbm, ⟨11, _⟩ => ⟨S1x2x16x2048x64, .f32⟩
  | .hbm, ⟨12, _⟩ => ⟨S2x16x2048x64, .f32⟩
  | .hbm, ⟨13, _⟩ => ⟨S1x2x16x2048x64, .f32⟩
  | .hbm, ⟨14, _⟩ => ⟨S2x16x2048x64, .f32⟩
  | .hbm, ⟨15, _⟩ => ⟨S1x2x16x2048x64, .f32⟩
  | .hbm, ⟨16, _⟩ => ⟨S2x16x2048x64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048, .f32⟩
  | .hbm, ⟨26, _⟩ => ⟨S_, .f32⟩
  | .hbm, ⟨27, _⟩ => ⟨S2x16x2048, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S2x16x2048x1, .f32⟩
  | .hbm, ⟨36, _⟩ => ⟨S2x16x2048x2048, .f32⟩
  | .hbm, ⟨37, _⟩ => ⟨S2x16x2048x2048, .f32⟩
  | .hbm, ⟨38, _⟩ => ⟨S2x16x2048x64, .f32⟩
  | .hbm, ⟨39, _⟩ => ⟨S2x2048x16x64, .f32⟩
  | .hbm, ⟨40, _⟩ => ⟨S2x2048x1024, .f32⟩
  | .hbm, ⟨41, _⟩ => ⟨S2x2048x1024, .f32⟩
  | .hbm, ⟨42, _⟩ => ⟨S1x1x1024, .f32⟩
  | .hbm, ⟨43, _⟩ => ⟨S2x2048x1024, .f32⟩
  | .hbm, ⟨44, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x3x16x64 : S2x2048x3072.ShapeCasts S2x2048x3x16x64
  transposes_S2x2048x3x16x64_S3x2x16x2048x64_2_0_3_1_4 : S2x2048x3x16x64.Transposes [2, 0, 3, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.Bits.QkvProj.lean ====
/-
  The first projection call: each of the twelve grid points multiplies a 1024-row block of the flattened input
  by a 1024-column block of the transposed weight, adds the matching slice of the bias row, and stores the
  1024 x 1024 tile. What the tile holds after the body is one payload of the three blocks read; the body's
  triple, the per-core proof data and the per-point body obligation follow, at any entry contents `V`.
-/
import proofs.«132017_j67611375174105_2_alg».proof.Proof.Gen.Kernel.Launch
import proofs.«132017_j67611375174105_2_alg».proof.Proof.Gen.Kernel.Skeleton
import proofs.«132017_j67611375174105_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.QkvProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or carried over. -/
theorem before_in0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or carried over. -/
theorem before_in1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or carried over. -/
theorem before_in2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole tile, as a rectangle of the staging buffer. -/
abbrev whole : Rect S1024x1024 := Rect.unit (s := S1024x1024) ![0, 0] S1024x1024.size inb_S1024x1024_S1024x1024_0_0
/-- The whole bias row. -/
abbrev wholeRow : Rect S1x1024 := Rect.unit (s := S1x1024) ![0, 0] S1x1024.size inb_S1x1024_S1x1024_0_0

/-- The output tile after the body: its one store, over the three blocks read. -/
def tile (x0 : Vec F S1024x1024 .bf16) (x1 : Vec F S1024x1024 .bf16) (x2 : Vec F S1x1024 .f32) : Vec F S1024x1024 .bf16 :=
  View.canon [⟨whole, k0_pay1 (View.ld x0 whole) (View.ld x1 whole) (View.ld x2 wholeRow)⟩]

/-- The one store covers the tile. -/
theorem tile_cover (p0 : Vec F S1024x1024 .bf16) (y : S1024x1024.Idx) :
    ∃ pc ∈ ([⟨whole, p0⟩] : List (View.Piece (Elt F) S1024x1024 .bf16)), y ∈ pc.1.set :=
  View.cover_of_tiled [⟨whole, p0⟩] S1024x1024.size (by rfl) y

set_option maxHeartbeats 1000000 in
/-- The body on whole staging buffers: the inputs stay, the output ends at `tile` of the inputs. -/
theorem sound_kernel (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .bf16) (harg5 : arg5.IsWhole)
    (x0 : Vec F S1024x1024 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tile x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _)

/-- The call's proof data on core `c`: the arrays as found; after the body each input's buffer still at its block
    and the output's at `tile` of the three blocks; the invariant is the untouched scoped rest and the generator
    register; full shares; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => tile (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = tile (blk V c 0 t) (blk V c 1 t) (blk V c 2 t) := by dsimp only [dat]

theorem before_0 (c : Dev nD) (t : Fin cfg0.N) (d) : (dat V c).before 0 t d = blk V c 0 t :=
  before_in0_of V (dat V c) (A_eq V c 0) (after_0 V c) t d
theorem before_1 (c : Dev nD) (t : Fin cfg0.N) (d) : (dat V c).before 1 t d = blk V c 1 t :=
  before_in1_of V (dat V c) (A_eq V c 1) (after_1 V c) t d
theorem before_2 (c : Dev nD) (t : Fin cfg0.N) (d) : (dat V c).before 2 t d = blk V c 2 t :=
  before_in2_of V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact sound_body V c t

end Cert.Kernel.QkvProj

end
-- ==== Proof.Bits.Attn.lean ====
/-
  The attention call: at each of the sixteen grid points (batch, query tile) the body walks the sixteen heads; for
  head h it reads the head's 256 x 64 query slice and 2048 x 64 key and value slices, forms the scaled scores, their
  row maxima, the exponentials, the row sums and the value-weighted sums divided by the row sums, and stores the
  256 x 64 result into columns 64h .. 64h+63 of the 256 x 1024 output tile. The tile after the body is the canon of
  those sixteen stores; the body's triple, the per-core proof data and the per-point obligation follow, at any entry
  contents `V`. The three input windows read one array.
-/
import proofs.«132017_j67611375174105_2_alg».proof.Proof.Gen.Kernel.Launch
import proofs.«132017_j67611375174105_2_alg».proof.Proof.Gen.Kernel.Skeleton
import proofs.«132017_j67611375174105_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or carried over. -/
theorem before_in0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or carried over. -/
theorem before_in1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or carried over. -/
theorem before_in2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! The rectangles of the body's loads (per head: a query slice, a key or value slice) and stores (per head: 64 columns). -/
abbrev qR0 : Rect S1x256x1x16x64 := Rect.unit (s := S1x256x1x16x64) ![0, 0, 0, 0, 0] S1x256x1x1x64.size inb_S1x256x1x16x64_S1x256x1x1x64_0_0_0_0_0
abbrev kR0 : Rect S1x2048x1x16x64 := Rect.unit (s := S1x2048x1x16x64) ![0, 0, 0, 0, 0] S1x2048x1x1x64.size inb_S1x2048x1x16x64_S1x2048x1x1x64_0_0_0_0_0
abbrev oR0 : Rect S1x256x1024 := Rect.unit (s := S1x256x1024) ![0, 0, 0] S1x256x64.size inb_S1x256x1024_S1x256x64_0_0_0
abbrev qR1 : Rect S1x256x1x16x64 := Rect.unit (s := S1x256x1x16x64) ![0, 0, 0, 1, 0] S1x256x1x1x64.size inb_S1x256x1x16x64_S1x256x1x1x64_0_0_0_1_0
abbrev kR1 : Rect S1x2048x1x16x64 := Rect.unit (s := S1x2048x1x16x64) ![0, 0, 0, 1, 0] S1x2048x1x1x64.size inb_S1x2048x1x16x64_S1x2048x1x1x64_0_0_0_1_0
abbrev oR1 : Rect S1x256x1024 := Rect.unit (s := S1x256x1024) ![0, 0, 64] S1x256x64.size inb_S1x256x1024_S1x256x64_0_0_64
abbrev qR2 : Rect S1x256x1x16x64 := Rect.unit (s := S1x256x1x16x64) ![0, 0, 0, 2, 0] S1x256x1x1x64.size inb_S1x256x1x16x64_S1x256x1x1x64_0_0_0_2_0
abbrev kR2 : Rect S1x2048x1x16x64 := Rect.unit (s := S1x2048x1x16x64) ![0, 0, 0, 2, 0] S1x2048x1x1x64.size inb_S1x2048x1x16x64_S1x2048x1x1x64_0_0_0_2_0
abbrev oR2 : Rect S1x256x1024 := Rect.unit (s := S1x256x1024) ![0, 0, 128] S1x256x64.size inb_S1x256x1024_S1x256x64_0_0_128
abbrev qR3 : Rect S1x256x1x16x64 := Rect.unit (s := S1x256x1x16x64) ![0, 0, 0, 3, 0] S1x256x1x1x64.size inb_S1x256x1x16x64_S1x256x1x1x64_0_0_0_3_0
abbrev kR3 : Rect S1x2048x1x16x64 := Rect.unit (s := S1x2048x1x16x64) ![0, 0, 0, 3, 0] S1x2048x1x1x64.size inb_S1x2048x1x16x64_S1x2048x1x1x64_0_0_0_3_0
abbrev oR3 : Rect S1x256x1024 := Rect.unit (s := S1x256x1024) ![0, 0, 192] S1x256x64.size inb_S1x256x1024_S1x256x64_0_0_192
abbrev qR4 : Rect S1x256x1x16x64 := Rect.unit (s := S1x256x1x16x64) ![0, 0, 0, 4, 0] S1x256x1x1x64.size inb_S1x256x1x16x64_S1x256x1x1x64_0_0_0_4_0
abbrev kR4 : Rect S1x2048x1x16x64 := Rect.unit (s := S1x2048x1x16x64) ![0, 0, 0, 4, 0] S1x2048x1x1x64.size inb_S1x2048x1x16x64_S1x2048x1x1x64_0_0_0_4_0
abbrev oR4 : Rect S1x256x1024 := Rect.unit (s := S1x256x1024) ![0, 0, 256] S1x256x64.size inb_S1x256x1024_S1x256x64_0_0_256
abbrev qR5 : Rect S1x256x1x16x64 := Rect.unit (s := S1x256x1x16x64) ![0, 0, 0, 5, 0] S1x256x1x1x64.size inb_S1x256x1x16x64_S1x256x1x1x64_0_0_0_5_0
abbrev kR5 : Rect S1x2048x1x16x64 := Rect.unit (s := S1x2048x1x16x64) ![0, 0, 0, 5, 0] S1x2048x1x1x64.size inb_S1x2048x1x16x64_S1x2048x1x1x64_0_0_0_5_0
abbrev oR5 : Rect S1x256x1024 := Rect.unit (s := S1x256x1024) ![0, 0, 320] S1x256x64.size inb_S1x256x1024_S1x256x64_0_0_320
abbrev qR6 : Rect S1x256x1x16x64 := Rect.unit (s := S1x256x1x16x64) ![0, 0, 0, 6, 0] S1x256x1x1x64.size inb_S1x256x1x16x64_S1x256x1x1x64_0_0_0_6_0
abbrev kR6 : Rect S1x2048x1x16x64 := Rect.unit (s := S1x2048x1x16x64) ![0, 0, 0, 6, 0] S1x2048x1x1x64.size inb_S1x2048x1x16x64_S1x2048x1x1x64_0_0_0_6_0
abbrev oR6 : Rect S1x256x1024 := Rect.unit (s := S1x256x1024) ![0, 0, 384] S1x256x64.size inb_S1x256x1024_S1x256x64_0_0_384
abbrev qR7 : Rect S1x256x1x16x64 := Rect.unit (s := S1x256x1x16x64) ![0, 0, 0, 7, 0] S1x256x1x1x64.size inb_S1x256x1x16x64_S1x256x1x1x64_0_0_0_7_0
abbrev kR7 : Rect S1x2048x1x16x64 := Rect.unit (s := S1x2048x1x16x64) ![0, 0, 0, 7, 0] S1x2048x1x1x64.size inb_S1x2048x1x16x64_S1x2048x1x1x64_0_0_0_7_0
abbrev oR7 : Rect S1x256x1024 := Rect.unit (s := S1x256x1024) ![0, 0, 448] S1x256x64.size inb_S1x256x1024_S1x256x64_0_0_448
abbrev qR8 : Rect S1x256x1x16x64 := Rect.unit (s := S1x256x1x16x64) ![0, 0, 0, 8, 0] S1x256x1x1x64.size inb_S1x256x1x16x64_S1x256x1x1x64_0_0_0_8_0
abbrev kR8 : Rect S1x2048x1x16x64 := Rect.unit (s := S1x2048x1x16x64) ![0, 0, 0, 8, 0] S1x2048x1x1x64.size inb_S1x2048x1x16x64_S1x2048x1x1x64_0_0_0_8_0
abbrev oR8 : Rect S1x256x1024 := Rect.unit (s := S1x256x1024) ![0, 0, 512] S1x256x64.size inb_S1x256x1024_S1x256x64_0_0_512
abbrev qR9 : Rect S1x256x1x16x64 := Rect.unit (s := S1x256x1x16x64) ![0, 0, 0, 9, 0] S1x256x1x1x64.size inb_S1x256x1x16x64_S1x256x1x1x64_0_0_0_9_0
abbrev kR9 : Rect S1x2048x1x16x64 := Rect.unit (s := S1x2048x1x16x64) ![0, 0, 0, 9, 0] S1x2048x1x1x64.size inb_S1x2048x1x16x64_S1x2048x1x1x64_0_0_0_9_0
abbrev oR9 : Rect S1x256x1024 := Rect.unit (s := S1x256x1024) ![0, 0, 576] S1x256x64.size inb_S1x256x1024_S1x256x64_0_0_576
abbrev qR10 : Rect S1x256x1x16x64 := Rect.unit (s := S1x256x1x16x64) ![0, 0, 0, 10, 0] S1x256x1x1x64.size inb_S1x256x1x16x64_S1x256x1x1x64_0_0_0_10_0
abbrev kR10 : Rect S1x2048x1x16x64 := Rect.unit (s := S1x2048x1x16x64) ![0, 0, 0, 10, 0] S1x2048x1x1x64.size inb_S1x2048x1x16x64_S1x2048x1x1x64_0_0_0_10_0
abbrev oR10 : Rect S1x256x1024 := Rect.unit (s := S1x256x1024) ![0, 0, 640] S1x256x64.size inb_S1x256x1024_S1x256x64_0_0_640
abbrev qR11 : Rect S1x256x1x16x64 := Rect.unit (s := S1x256x1x16x64) ![0, 0, 0, 11, 0] S1x256x1x1x64.size inb_S1x256x1x16x64_S1x256x1x1x64_0_0_0_11_0
abbrev kR11 : Rect S1x2048x1x16x64 := Rect.unit (s := S1x2048x1x16x64) ![0, 0, 0, 11, 0] S1x2048x1x1x64.size inb_S1x2048x1x16x64_S1x2048x1x1x64_0_0_0_11_0
abbrev oR11 : Rect S1x256x1024 := Rect.unit (s := S1x256x1024) ![0, 0, 704] S1x256x64.size inb_S1x256x1024_S1x256x64_0_0_704
abbrev qR12 : Rect S1x256x1x16x64 := Rect.unit (s := S1x256x1x16x64) ![0, 0, 0, 12, 0] S1x256x1x1x64.size inb_S1x256x1x16x64_S1x256x1x1x64_0_0_0_12_0
abbrev kR12 : Rect S1x2048x1x16x64 := Rect.unit (s := S1x2048x1x16x64) ![0, 0, 0, 12, 0] S1x2048x1x1x64.size inb_S1x2048x1x16x64_S1x2048x1x1x64_0_0_0_12_0
abbrev oR12 : Rect S1x256x1024 := Rect.unit (s := S1x256x1024) ![0, 0, 768] S1x256x64.size inb_S1x256x1024_S1x256x64_0_0_768
abbrev qR13 : Rect S1x256x1x16x64 := Rect.unit (s := S1x256x1x16x64) ![0, 0, 0, 13, 0] S1x256x1x1x64.size inb_S1x256x1x16x64_S1x256x1x1x64_0_0_0_13_0
abbrev kR13 : Rect S1x2048x1x16x64 := Rect.unit (s := S1x2048x1x16x64) ![0, 0, 0, 13, 0] S1x2048x1x1x64.size inb_S1x2048x1x16x64_S1x2048x1x1x64_0_0_0_13_0
abbrev oR13 : Rect S1x256x1024 := Rect.unit (s := S1x256x1024) ![0, 0, 832] S1x256x64.size inb_S1x256x1024_S1x256x64_0_0_832
abbrev qR14 : Rect S1x256x1x16x64 := Rect.unit (s := S1x256x1x16x64) ![0, 0, 0, 14, 0] S1x256x1x1x64.size inb_S1x256x1x16x64_S1x256x1x1x64_0_0_0_14_0
abbrev kR14 : Rect S1x2048x1x16x64 := Rect.unit (s := S1x2048x1x16x64) ![0, 0, 0, 14, 0] S1x2048x1x1x64.size inb_S1x2048x1x16x64_S1x2048x1x1x64_0_0_0_14_0
abbrev oR14 : Rect S1x256x1024 := Rect.unit (s := S1x256x1024) ![0, 0, 896] S1x256x64.size inb_S1x256x1024_S1x256x64_0_0_896
abbrev qR15 : Rect S1x256x1x16x64 := Rect.unit (s := S1x256x1x16x64) ![0, 0, 0, 15, 0] S1x256x1x1x64.size inb_S1x256x1x16x64_S1x256x1x1x64_0_0_0_15_0
abbrev kR15 : Rect S1x2048x1x16x64 := Rect.unit (s := S1x2048x1x16x64) ![0, 0, 0, 15, 0] S1x2048x1x1x64.size inb_S1x2048x1x16x64_S1x2048x1x1x64_0_0_0_15_0
abbrev oR15 : Rect S1x256x1024 := Rect.unit (s := S1x256x1024) ![0, 0, 960] S1x256x64.size inb_S1x256x1024_S1x256x64_0_0_960

/-- Head 0's 256 x 64 output piece, as the body composes it from that head's query, key and value slices. -/
def head0 (x0 : Vec F S1x256x1x16x64 .bf16) (x1 x2 : Vec F S1x2048x1x16x64 .bf16) : FVec F S1x256x64 .bf16 :=
  k1_pay2 (View.ld x0 (qR0)) (View.ld x1 (kR0)) (View.ld x2 (kR0))
/-- Head 1's 256 x 64 output piece, as the body composes it from that head's query, key and value slices. -/
def head1 (x0 : Vec F S1x256x1x16x64 .bf16) (x1 x2 : Vec F S1x2048x1x16x64 .bf16) : FVec F S1x256x64 .bf16 :=
  k1_pay4 (k1_pay3 (View.ld x0 (qR1))) (View.ld x1 (kR1)) (View.ld x2 (kR1))
/-- Head 2's 256 x 64 output piece, as the body composes it from that head's query, key and value slices. -/
def head2 (x0 : Vec F S1x256x1x16x64 .bf16) (x1 x2 : Vec F S1x2048x1x16x64 .bf16) : FVec F S1x256x64 .bf16 :=
  k1_pay8 (k1_pay5 (View.ld x0 (qR2))) (k1_pay6 (View.ld x1 (kR2))) (k1_pay7 (View.ld x2 (kR2))) (constant S256x2048 .f32 0x00000000#32)
/-- Head 3's 256 x 64 output piece, as the body composes it from that head's query, key and value slices. -/
def head3 (x0 : Vec F S1x256x1x16x64 .bf16) (x1 x2 : Vec F S1x2048x1x16x64 .bf16) : FVec F S1x256x64 .bf16 :=
  k1_pay12 (k1_pay9 (View.ld x2 (kR3))) (k1_pay10 (View.ld x0 (qR3)) (View.ld x1 (kR3))) (k1_pay11 (View.ld x0 (qR3)) (View.ld x1 (kR3)))
/-- Head 4's 256 x 64 output piece, as the body composes it from that head's query, key and value slices. -/
def head4 (x0 : Vec F S1x256x1x16x64 .bf16) (x1 x2 : Vec F S1x2048x1x16x64 .bf16) : FVec F S1x256x64 .bf16 :=
  k1_pay14 (k1_pay13 (View.ld x0 (qR4)) (View.ld x1 (kR4)) (View.ld x2 (kR4)))
/-- Head 5's 256 x 64 output piece, as the body composes it from that head's query, key and value slices. -/
def head5 (x0 : Vec F S1x256x1x16x64 .bf16) (x1 x2 : Vec F S1x2048x1x16x64 .bf16) : FVec F S1x256x64 .bf16 :=
  k1_pay15 (View.ld x0 (qR5)) (View.ld x1 (kR5)) (View.ld x2 (kR5))
/-- Head 6's 256 x 64 output piece, as the body composes it from that head's query, key and value slices. -/
def head6 (x0 : Vec F S1x256x1x16x64 .bf16) (x1 x2 : Vec F S1x2048x1x16x64 .bf16) : FVec F S1x256x64 .bf16 :=
  k1_pay17 (k1_pay16 (View.ld x0 (qR6))) (View.ld x1 (kR6)) (View.ld x2 (kR6))
/-- Head 7's 256 x 64 output piece, as the body composes it from that head's query, key and value slices. -/
def head7 (x0 : Vec F S1x256x1x16x64 .bf16) (x1 x2 : Vec F S1x2048x1x16x64 .bf16) : FVec F S1x256x64 .bf16 :=
  k1_pay21 (k1_pay18 (View.ld x0 (qR7))) (k1_pay19 (View.ld x1 (kR7))) (k1_pay20 (View.ld x2 (kR7))) (constant S256x2048 .f32 0x00000000#32)
/-- Head 8's 256 x 64 output piece, as the body composes it from that head's query, key and value slices. -/
def head8 (x0 : Vec F S1x256x1x16x64 .bf16) (x1 x2 : Vec F S1x2048x1x16x64 .bf16) : FVec F S1x256x64 .bf16 :=
  k1_pay25 (k1_pay22 (View.ld x2 (kR8))) (k1_pay23 (View.ld x0 (qR8)) (View.ld x1 (kR8))) (k1_pay24 (View.ld x0 (qR8)) (View.ld x1 (kR8)))
/-- Head 9's 256 x 64 output piece, as the body composes it from that head's query, key and value slices. -/
def head9 (x0 : Vec F S1x256x1x16x64 .bf16) (x1 x2 : Vec F S1x2048x1x16x64 .bf16) : FVec F S1x256x64 .bf16 :=
  k1_pay27 (k1_pay26 (View.ld x0 (qR9)) (View.ld x1 (kR9)) (View.ld x2 (kR9)))
/-- Head 10's 256 x 64 output piece, as the body composes it from that head's query, key and value slices. -/
def head10 (x0 : Vec F S1x256x1x16x64 .bf16) (x1 x2 : Vec F S1x2048x1x16x64 .bf16) : FVec F S1x256x64 .bf16 :=
  k1_pay28 (View.ld x0 (qR10)) (View.ld x1 (kR10)) (View.ld x2 (kR10))
/-- Head 11's 256 x 64 output piece, as the body composes it from that head's query, key and value slices. -/
def head11 (x0 : Vec F S1x256x1x16x64 .bf16) (x1 x2 : Vec F S1x2048x1x16x64 .bf16) : FVec F S1x256x64 .bf16 :=
  k1_pay30 (k1_pay29 (View.ld x0 (qR11))) (View.ld x1 (kR11)) (View.ld x2 (kR11))
/-- Head 12's 256 x 64 output piece, as the body composes it from that head's query, key and value slices. -/
def head12 (x0 : Vec F S1x256x1x16x64 .bf16) (x1 x2 : Vec F S1x2048x1x16x64 .bf16) : FVec F S1x256x64 .bf16 :=
  k1_pay34 (k1_pay31 (View.ld x0 (qR12))) (k1_pay32 (View.ld x1 (kR12))) (k1_pay33 (View.ld x2 (kR12))) (constant S256x2048 .f32 0x00000000#32)
/-- Head 13's 256 x 64 output piece, as the body composes it from that head's query, key and value slices. -/
def head13 (x0 : Vec F S1x256x1x16x64 .bf16) (x1 x2 : Vec F S1x2048x1x16x64 .bf16) : FVec F S1x256x64 .bf16 :=
  k1_pay38 (k1_pay35 (View.ld x2 (kR13))) (k1_pay36 (View.ld x0 (qR13)) (View.ld x1 (kR13))) (k1_pay37 (View.ld x0 (qR13)) (View.ld x1 (kR13)))
/-- Head 14's 256 x 64 output piece, as the body composes it from that head's query, key and value slices. -/
def head14 (x0 : Vec F S1x256x1x16x64 .bf16) (x1 x2 : Vec F S1x2048x1x16x64 .bf16) : FVec F S1x256x64 .bf16 :=
  k1_pay40 (k1_pay39 (View.ld x0 (qR14)) (View.ld x1 (kR14)) (View.ld x2 (kR14)))
/-- Head 15's 256 x 64 output piece, as the body composes it from that head's query, key and value slices. -/
def head15 (x0 : Vec F S1x256x1x16x64 .bf16) (x1 x2 : Vec F S1x2048x1x16x64 .bf16) : FVec F S1x256x64 .bf16 :=
  k1_pay1 (k1_pay41 (View.ld x0 (qR15)) (View.ld x1 (kR15)) (View.ld x2 (kR15)))

/-- The output tile after the body: the sixteen stores, last first. -/
def tile (x0 : Vec F S1x256x1x16x64 .bf16) (x1 x2 : Vec F S1x2048x1x16x64 .bf16) : Vec F S1x256x1024 .bf16 :=
  View.canon [⟨oR15, head15 x0 x1 x2⟩, ⟨oR14, head14 x0 x1 x2⟩, ⟨oR13, head13 x0 x1 x2⟩, ⟨oR12, head12 x0 x1 x2⟩, ⟨oR11, head11 x0 x1 x2⟩, ⟨oR10, head10 x0 x1 x2⟩, ⟨oR9, head9 x0 x1 x2⟩, ⟨oR8, head8 x0 x1 x2⟩, ⟨oR7, head7 x0 x1 x2⟩, ⟨oR6, head6 x0 x1 x2⟩, ⟨oR5, head5 x0 x1 x2⟩, ⟨oR4, head4 x0 x1 x2⟩, ⟨oR3, head3 x0 x1 x2⟩, ⟨oR2, head2 x0 x1 x2⟩, ⟨oR1, head1 x0 x1 x2⟩, ⟨oR0, head0 x0 x1 x2⟩]

/-- The sixteen column bands tile the buffer, so they cover it. -/
theorem tile_cover (p0 p1 p2 p3 p4 p5 p6 p7 p8 p9 p10 p11 p12 p13 p14 p15 : Vec F S1x256x64 .bf16) (y : S1x256x1024.Idx) :
    ∃ pc ∈ ([⟨oR15, p15⟩, ⟨oR14, p14⟩, ⟨oR13, p13⟩, ⟨oR12, p12⟩, ⟨oR11, p11⟩, ⟨oR10, p10⟩, ⟨oR9, p9⟩, ⟨oR8, p8⟩, ⟨oR7, p7⟩, ⟨oR6, p6⟩, ⟨oR5, p5⟩, ⟨oR4, p4⟩, ⟨oR3, p3⟩, ⟨oR2, p2⟩, ⟨oR1, p1⟩, ⟨oR0, p0⟩] : List (View.Piece (Elt F) S1x256x1024 .bf16)), y ∈ pc.1.set :=
  View.cover_of_tiled [⟨oR15, p15⟩, ⟨oR14, p14⟩, ⟨oR13, p13⟩, ⟨oR12, p12⟩, ⟨oR11, p11⟩, ⟨oR10, p10⟩, ⟨oR9, p9⟩, ⟨oR8, p8⟩, ⟨oR7, p7⟩, ⟨oR6, p6⟩, ⟨oR5, p5⟩, ⟨oR4, p4⟩, ⟨oR3, p3⟩, ⟨oR2, p2⟩, ⟨oR1, p1⟩, ⟨oR0, p0⟩] S1x256x64.size (by rfl) y

set_option maxHeartbeats 4000000 in
/-- The body on whole staging buffers: the inputs stay, the output ends at `tile` of the inputs. -/
theorem sound_kernel (c : Dev nD) (E : Set ℕ) (i : grid1.Coords)
    (arg2 : Memref sig .tc .vmem S1x256x1x16x64 .bf16) (harg2 : arg2.IsWhole) (arg3 : Memref sig .tc .vmem S1x2048x1x16x64 .bf16) (harg3 : arg3.IsWhole)
    (arg4 : Memref sig .tc .vmem S1x2048x1x16x64 .bf16) (harg4 : arg4.IsWhole) (arg5 : Memref sig .tc .vmem S1x256x1024 .bf16) (harg5 : arg5.IsWhole)
    (x0 : Vec F S1x256x1x16x64 .bf16) (x1 x2 : Vec F S1x2048x1x16x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tile x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _ _ _ _ _ _ _ _ _ _ _ _ _ _ _ _)

/-- The call's proof data on core `c`: the arrays as found; after the body each input's buffer still at its block
    and the output's at `tile` of the three blocks; the invariant is the untouched scoped rest and the generator
    register; nothing owed. The three input windows read one array, so each holds a third-order share of it:
    `sh 0`, `sh 1`, `sh 2` below, which together make the full share. -/
def dat (sh : Fin 3 → PosShare TreeShare) (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => tile (blk V c 0 t) (blk V c 1 t) (blk V c 2 t)
  Φ _ := Pipeline.ΦA spec1 c
  q w := match w with
    | ⟨0, _⟩ => sh 0
    | ⟨1, _⟩ => sh 1
    | ⟨2, _⟩ => sh 2
    | ⟨3, _⟩ => fullShare
  owed _ := 0

variable (sh : Fin 3 → PosShare TreeShare)

theorem A_eq (c : Dev nD) (w : Fin cfg1.W) : (dat V sh c).A w = V c (Pipeline.arrRef spec1 w) := by
  dsimp only [dat]

theorem after_0 (c : Dev nD) (t : Fin cfg1.N) : (dat V sh c).after 0 t = blk V c 0 t := by dsimp only [dat]
theorem after_1 (c : Dev nD) (t : Fin cfg1.N) : (dat V sh c).after 1 t = blk V c 1 t := by dsimp only [dat]
theorem after_2 (c : Dev nD) (t : Fin cfg1.N) : (dat V sh c).after 2 t = blk V c 2 t := by dsimp only [dat]
theorem after_3 (c : Dev nD) (t : Fin cfg1.N) : (dat V sh c).after 3 t = tile (blk V c 0 t) (blk V c 1 t) (blk V c 2 t) := by dsimp only [dat]

theorem before_0 (c : Dev nD) (t : Fin cfg1.N) (d) : (dat V sh c).before 0 t d = blk V c 0 t :=
  before_in0_of V (dat V sh c) (A_eq V sh c 0) (after_0 V sh c) t d
theorem before_1 (c : Dev nD) (t : Fin cfg1.N) (d) : (dat V sh c).before 1 t d = blk V c 1 t :=
  before_in1_of V (dat V sh c) (A_eq V sh c 1) (after_1 V sh c) t d
theorem before_2 (c : Dev nD) (t : Fin cfg1.N) (d) : (dat V sh c).before 2 t d = blk V c 2 t :=
  before_in2_of V (dat V sh c) (A_eq V sh c 2) (after_2 V sh c) t d

/-- What the body is called with at point `t`, the windows one by one, -/
def bodyPre (c : Dev nD) (t : Fin cfg1.N) : sProp 𝕄 :=
  iprop((dat V sh c).Φ t.castSucc ∗ (dat V sh c).owesAt () t.castSucc
    ∗ (∃ d, owns (c : Thread nD τ) (st1_0 t) fullShare ((dat V sh c).before 0 t d))
    ∗ (∃ d, owns (c : Thread nD τ) (st1_1 t) fullShare ((dat V sh c).before 1 t d))
    ∗ (∃ d, owns (c : Thread nD τ) (st1_2 t) fullShare ((dat V sh c).before 2 t d))
    ∗ (∃ d, owns (c : Thread nD τ) (st1_3 t) fullShare ((dat V sh c).before 3 t d)))

/-- and what it returns. -/
def bodyPost (c : Dev nD) (t : Fin cfg1.N) : sProp 𝕄 :=
  iprop((dat V sh c).Φ t.succ ∗ (dat V sh c).owesAt () t.succ
    ∗ owns (c : Thread nD τ) (st1_0 t) fullShare ((dat V sh c).after 0 t)
    ∗ owns (c : Thread nD τ) (st1_1 t) fullShare ((dat V sh c).after 1 t)
    ∗ owns (c : Thread nD τ) (st1_2 t) fullShare ((dat V sh c).after 2 t)
    ∗ owns (c : Thread nD τ) (st1_3 t) fullShare ((dat V sh c).after 3 t))

/-- The body at any point: the inputs' buffers hold their blocks, so the body's triple applies; the invariant and the
    core's dues pass through unread. -/
theorem sound_body (c : Dev nD) (t : Fin cfg1.N) :
    bodyPre V sh c t ⊢ wp frame (wpE (defs₀ (F := F)) Variants.none c none) Set.univ (bodyAt1 t) (fun _ => bodyPost V sh c t) := by
  unfold bodyPre bodyPost bodyAt1
  simp only [before_0, before_1, before_2]
  rw [show (dat V sh c).Φ t.succ = (dat V sh c).Φ t.castSucc from rfl,
    show (dat V sh c).owesAt () t.succ = (dat V sh c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V sh c) (defs₀ (F := F)) Variants.none () Set.univ := fun t => by
  rw [bigSep_W1, bigSep_W1]
  exact sound_body V sh c t

end Cert.Kernel.Attn

end
-- ==== Proof.Bits.AttnArrays.lean ====
/-
  The attention call's three input windows (query tile, keys, values) read ONE array, the projected activations;
  its output window writes another. So at the call's entry the core's whole hold on the activations is dealt among
  the three windows — a left half, and the two halves of the right half — and at its exit the three parts, still at
  the entry contents (an input array is never written back), are put together again, beside the output array at
  what the sixteen write-backs left.
-/
import proofs.«132017_j67611375174105_2_alg».proof.Proof.Bits.Attn

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The three input windows' parts of the activations array's full share. -/
def sh : Fin 3 → PosShare TreeShare
  | ⟨0, _⟩ => fullShare.left
  | ⟨1, _⟩ => fullShare.right.left
  | ⟨2, _⟩ => fullShare.right.right

variable (V : (c : Dev nD) → (b : Ref sig .tc) → Buf (Elt F) ((c : Thread nD τ).loc b))

/-- The distinct buffers behind the four windows' arrays are two. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v6) ↦{fullShare} Vc main_v6) ∗ (((c : Thread nD τ).loc main_v7) ↦{fullShare} Vc main_v7)) := by
  unfold Pipeline.arrBufs
  rw [show (Finset.univ.image (Pipeline.arrRef spec1) : Finset (Ref sig .tc)) = insert main_v6 {main_v7} from by decide,
    bigSep_insert (by decide), bigSep_singleton]
  rfl

/-- The call's arrays, window by window: three parts of the activations, the whole output. -/
theorem arrays_eq (c : Dev nD) (Fa : (w : Fin cfg1.W) → Buf (Elt F) ((cfg1.win w).arr.view.loc (c : Thread nD τ))) :
    ((dat V sh c).arrays Fa : sProp 𝕄)
      = iprop((((c : Thread nD τ).loc main_v6) ↦{sh 0} Fa 0) ∗ (((c : Thread nD τ).loc main_v6) ↦{sh 1} Fa 1)
          ∗ (((c : Thread nD τ).loc main_v6) ↦{sh 2} Fa 2) ∗ (((c : Thread nD τ).loc main_v7) ↦{fullShare} Fa 3)) := by
  unfold Pipeline.Dat.arrays
  rw [bigSep_W1, (arr_whole1 0).set_eq_univ, (arr_whole1 3).set_eq_univ]
  rfl

/-- The activations' full hold is the three windows' parts, and back. -/
theorem deal (c : Dev nD) (f : Buf (Elt F) ((c : Thread nD τ).loc main_v6)) :
    ((((c : Thread nD τ).loc main_v6) ↦{fullShare} f) : sProp 𝕄)
      ⊣⊢ iprop((((c : Thread nD τ).loc main_v6) ↦{sh 0} f) ∗ (((c : Thread nD τ).loc main_v6) ↦{sh 1} f) ∗ (((c : Thread nD τ).loc main_v6) ↦{sh 2} f)) := by
  have e1 : ((((c : Thread nD τ).loc main_v6) ↦{fullShare} f) : sProp 𝕄)
      ⊣⊢ iprop((((c : Thread nD τ).loc main_v6) ↦{fullShare.left} f) ∗ (((c : Thread nD τ).loc main_v6) ↦{fullShare.right} f)) :=
    pointsTo_share (PosShare.mem_left_op_right fullShare)
  have e2 : ((((c : Thread nD τ).loc main_v6) ↦{fullShare.right} f) : sProp 𝕄)
      ⊣⊢ iprop((((c : Thread nD τ).loc main_v6) ↦{fullShare.right.left} f) ∗ (((c : Thread nD τ).loc main_v6) ↦{fullShare.right.right} f)) :=
    pointsTo_share (PosShare.mem_left_op_right fullShare.right)
  constructor
  · iintro H
    ihave H' := e1.1 $$ H
    icases H' with ⟨Ha, Hb⟩
    ihave Hb' := e2.1 $$ Hb
    icases Hb' with ⟨Hb, Hc⟩
    isplitl [Ha]; · iexact Ha
    isplitl [Hb]; · iexact Hb
    iexact Hc
  · iintro ⟨Ha, Hb, Hc⟩
    iapply e1.2
    isplitl [Ha]; · iexact Ha
    iapply e2.2
    isplitl [Hb]; · iexact Hb
    iexact Hc

/-- ENTRY: the core's unscoped buffers at contents `V c` are the call's arrays at the entry contents — the
    activations dealt in three — and the buffers no window touches. -/
theorem arrays_in (c : Dev nD) :
    (unscopedBufs c (V c) : sProp 𝕄) ⊢ iprop((dat V sh c).arrays (dat V sh c).A ∗ Pipeline.unscopedRest spec1 c (V c)) := by
  rw [Pipeline.unscopedBufs_split₀ cfgs 1 winFacts₀1.arr_unscoped c (V c)]
  rw [show (Pipeline.arrBufs (cfgs 1).spec c (V c) : sProp 𝕄) = Pipeline.arrBufs spec1 c (V c) from rfl, arrBufs_eq, arrays_eq]
  have hd := (deal c (V c main_v6)).1
  iintro ⟨⟨H6, H7⟩, Hr⟩
  ihave H6' := hd $$ H6
  icases H6' with ⟨Ha, Hb, Hc⟩
  isplitr [Hr]
  swap; · iexact Hr
  isplitl [Ha]; · iexact Ha
  isplitl [Hb]; · iexact Hb
  isplitl [Hc]; · iexact Hc
  iexact H7

/-- EXIT: the call's arrays after its last point — the three parts of the activations still at the entry contents,
    the output at what the write-backs left — and the untouched buffers are the core's unscoped buffers at any
    contents `V'` that has the output array there and agrees with `V c` elsewhere. -/
theorem arrays_out (c : Dev nD) (V' : (b : Ref sig .tc) → Buf (Elt F) ((c : Thread nD τ).loc b))
    (h7 : V' main_v7 = (dat V sh c).arrAt 3 cfg1.N) (hrest : ∀ b, b ≠ main_v7 → V' b = V c b) :
    iprop((dat V sh c).arrays ((dat V sh c).arrAt · cfg1.N) ∗ Pipeline.unscopedRest spec1 c (V c)) ⊢ (unscopedBufs c V' : sProp 𝕄) := by
  rw [Pipeline.unscopedBufs_split₀ cfgs 1 winFacts₀1.arr_unscoped c V']
  rw [show (Pipeline.arrBufs (cfgs 1).spec c V' : sProp 𝕄) = Pipeline.arrBufs spec1 c V' from rfl, arrBufs_eq, arrays_eq,
    (dat V sh c).arrAt_in 0 rfl, (dat V sh c).arrAt_in 1 rfl, (dat V sh c).arrAt_in 2 rfl, h7, hrest main_v6 (by decide)]
  have hr : (Pipeline.unscopedRest (Ix := Unit) (Name := ℕ) (U := UR sig nD τ) (Lvl := ℕ) (cfgs 1).spec c V' : sProp 𝕄)
      = Pipeline.unscopedRest spec1 c (V c) := by
    unfold Pipeline.unscopedRest
    exact bigSep_congr fun b hb => by
      rw [hrest b (fun e => (Finset.mem_sdiff.mp hb).2 (Finset.mem_image.mpr ⟨3, Finset.mem_univ _, e ▸ rfl⟩))]
  rw [hr]
  have hd := (deal c (V c main_v6)).2
  iintro ⟨⟨Ha, Hb, Hc, H7⟩, Hr⟩
  isplitr [Hr]
  swap; · iexact Hr
  isplitr [H7]
  swap; · iexact H7
  iapply hd
  isplitl [Ha]; · iexact Ha
  isplitl [Hb]; · iexact Hb
  iexact Hc

end Cert.Kernel.Attn

end
-- ==== Proof.Bits.OutProj.lean ====
/-
  The last projection call: each of the four grid points multiplies a 1024-row block of the flattened attention
  output by the whole transposed output weight, adds the bias row, and stores the 1024 x 1024 tile of the result.
  What the tile holds after the body is one payload of the three blocks read; the body's triple, the per-core
  proof data and the per-point body obligation follow, at any entry contents `V`.
-/
import proofs.«132017_j67611375174105_2_alg».proof.Proof.Gen.Kernel.Launch
import proofs.«132017_j67611375174105_2_alg».proof.Proof.Gen.Kernel.Skeleton
import proofs.«132017_j67611375174105_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.OutProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or carried over. -/
theorem before_in0_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or carried over. -/
theorem before_in1_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or carried over. -/
theorem before_in2_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole tile, as a rectangle of the staging buffer. -/
abbrev whole : Rect S1024x1024 := Rect.unit (s := S1024x1024) ![0, 0] S1024x1024.size inb_S1024x1024_S1024x1024_0_0
/-- The whole bias row. -/
abbrev wholeRow : Rect S1x1024 := Rect.unit (s := S1x1024) ![0, 0] S1x1024.size inb_S1x1024_S1x1024_0_0

/-- The output tile after the body: its one store, over the three blocks read. -/
def tile (x0 : Vec F S1024x1024 .bf16) (x1 : Vec F S1024x1024 .bf16) (x2 : Vec F S1x1024 .f32) : Vec F S1024x1024 .f32 :=
  View.canon [⟨whole, k2_pay1 (View.ld x0 whole) (View.ld x1 whole) (View.ld x2 wholeRow)⟩]

/-- The one store covers the tile. -/
theorem tile_cover (p0 : Vec F S1024x1024 .f32) (y : S1024x1024.Idx) :
    ∃ pc ∈ ([⟨whole, p0⟩] : List (View.Piece (Elt F) S1024x1024 .f32)), y ∈ pc.1.set :=
  View.cover_of_tiled [⟨whole, p0⟩] S1024x1024.size (by rfl) y

set_option maxHeartbeats 1000000 in
/-- The body on whole staging buffers: the inputs stay, the output ends at `tile` of the inputs. -/
theorem sound_kernel (c : Dev nD) (E : Set ℕ) (i : grid2.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .f32) (harg5 : arg5.IsWhole)
    (x0 : Vec F S1024x1024 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tile x0 x1 x2)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _)

/-- The call's proof data on core `c`: the arrays as found; after the body each input's buffer still at its block
    and the output's at `tile` of the three blocks; the invariant is the untouched scoped rest and the generator
    register; full shares; nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => tile (blk V c 0 t) (blk V c 1 t) (blk V c 2 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = tile (blk V c 0 t) (blk V c 1 t) (blk V c 2 t) := by dsimp only [dat]

theorem before_0 (c : Dev nD) (t : Fin cfg2.N) (d) : (dat V c).before 0 t d = blk V c 0 t :=
  before_in0_of V (dat V c) (A_eq V c 0) (after_0 V c) t d
theorem before_1 (c : Dev nD) (t : Fin cfg2.N) (d) : (dat V c).before 1 t d = blk V c 1 t :=
  before_in1_of V (dat V c) (A_eq V c 1) (after_1 V c) t d
theorem before_2 (c : Dev nD) (t : Fin cfg2.N) (d) : (dat V c).before 2 t d = blk V c 2 t :=
  before_in2_of V (dat V c) (A_eq V c 2) (after_2 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' buffers hold their blocks, so the body's triple applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W2, bigSep_W2]
  exact sound_body V c t

end Cert.Kernel.OutProj

end
-- ==== Proof.Bits.Run.lean ====
/-
  The whole program as a run: @main is a stretch of host operations (flatten the input, transpose and narrow the
  weights, lay the bias out as a row), the first projection call, a reshape of its result into heads, the attention
  call, a second stretch (flatten, transpose, narrow, bias row), the output projection call, and a last reshape. The
  contents of the core's buffers at each of the eight boundaries are a fold from the launch memory; every call is a
  segment entered at one boundary's contents and left at the next; the launch over the segments gives ONE run theorem
  whose post reads every unscoped buffer of the final memory at the last boundary's contents. Both the frame claim and
  the value of the result are read off it.
-/
import proofs.«132017_j67611375174105_2_alg».proof.Proof.Bits.QkvProj
import proofs.«132017_j67611375174105_2_alg».proof.Proof.Bits.AttnArrays
import proofs.«132017_j67611375174105_2_alg».proof.Proof.Bits.OutProj

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the eight boundaries -/

/-- At launch. -/
abbrev W0 : Dev nD → Valuation τ sig (Elt F) := fun c b => (s₀ m ρ).mem ((c : Dev nD), b)
/-- After the first host stretch: the first call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its output array at what the twelve write-backs left, the rest as entered. -/
def W2 (c : Dev nD) : Valuation τ sig (Elt F) :=
  Pipeline.withArrays spec0 c (W1 m ρ c) fun w => (QkvProj.dat (V1 m ρ) c).arrAt w cfg0.N
theorem W2_arr (c : Dev nD) (w : Fin cfg0.W) :
    W2 m ρ c (Proc.devRef .tc (Pipeline.arrRef spec0 w)) = (QkvProj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (QkvProj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape into heads: the attention call's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention call: its output array at what the sixteen write-backs left, the rest as entered. -/
def W4 (c : Dev nD) : Valuation τ sig (Elt F) :=
  Function.update (W3 m ρ c) (Proc.devRef .tc main_v7) ((Attn.dat (V3 m ρ) Attn.sh c).arrAt 3 cfg1.N)
theorem W4_out (c : Dev nD) : W4 m ρ c (Proc.devRef .tc main_v7) = (Attn.dat (V3 m ρ) Attn.sh c).arrAt 3 cfg1.N :=
  Function.update_self ..
theorem W4_of_ne (c : Dev nD) (b : Ref sig .tc) (hb : b ≠ main_v7) :
    W4 m ρ c (Proc.devRef .tc b) = W3 m ρ c (Proc.devRef .tc b) :=
  Function.update_of_ne (StableHlo.devRef_ne_of_ne hb) ..
abbrev V4 : (c : Dev nD) → (b : Ref sig .tc) → Buf (Elt F) ((c : Thread nD τ).loc b) := fun c b => W4 m ρ c b

/-- After the second host stretch: the output projection's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the output projection: its output array at what the four write-backs left, the rest as entered. -/
def W6 (c : Dev nD) : Valuation τ sig (Elt F) :=
  Pipeline.withArrays spec2 c (W5 m ρ c) fun w => (OutProj.dat (V5 m ρ) c).arrAt w cfg2.N
theorem W6_arr (c : Dev nD) (w : Fin cfg2.W) :
    W6 m ρ c (Proc.devRef .tc (Pipeline.arrRef spec2 w)) = (OutProj.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (OutProj.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last reshape: the return. -/
abbrev W7 : Dev nD → Valuation τ sig (Elt F) := fun c => StableHlo.after hostOps3 (W6 m ρ c)

/-! ## The proof data family and what rides beside the buffers -/

abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => QkvProj.dat (V1 m ρ) c
  | ⟨1, _⟩ => fun c => Attn.dat (V3 m ρ) Attn.sh c
  | ⟨2, _⟩ => fun c => OutProj.dat (V5 m ρ) c
abbrev 𝒱₀ : Variants := Variants.none
abbrev L : GSem nD τ sig → Finset Unit := fun _ => ∅
abbrev lv : GSem nD τ sig → Unit → ℕ := fun _ _ => 0
/-- Beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the core's dues apart. -/
abbrev Tₙ (c : Dev nD) : sProp 𝕄 := iprop(StableHlo.held (c : Thread nD τ) (Pipeline.ucRefs τ sig) (W7 m ρ c) ∗ ∃ r, prngReg c r)

/-! ## The calls as segments -/

set_option backward.isDefEq.respectTransparency.types false in
/-- Call 0 as a segment: entered with every unscoped buffer at `W1`, left with them at `W2`. Its arrays are
    split out of the unscoped buffers at entry and put back at the exit contents; the generator register goes into the
    call's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (QkvProj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call as a segment: entered with every unscoped buffer at `W3`, left with them at `W4`. Its three
    input windows read one array, so the entry deals that array's hold in three and the exit joins it again. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Attn.body_obligation (V3 m ρ) Attn.sh c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄) ⊢ iprop((pdats m ρ 1 c).arrays (pdats m ρ 1 c).A ∗ Pipeline.unscopedRest spec1 c (V3 m ρ c)) :=
      Attn.arrays_in (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c)) ⊢ (unscopedBufs c (V4 m ρ c) : sProp 𝕄) :=
      Attn.arrays_out (V3 m ρ) c (V4 m ρ c) (W4_out m ρ c) (fun b hb => W4_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `W5`, left with them at `W6`. Its arrays are
    split out of the unscoped buffers at entry and put back at the exit contents; the generator register goes into the
    call's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (OutProj.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub fresh0 (W0 m ρ)),
    .region (reg0 m ρ),
    .host (hseg hostOps1 hostOps1_sub fresh1 (W2 m ρ)),
    .region (reg1 m ρ),
    .host (hseg hostOps2 hostOps2_sub fresh2 (W4 m ρ)),
    .region (reg2 m ρ),
    .host (hseg hostOps3 hostOps3_sub fresh3 (W6 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitr [HO]
      swap; · iexact HO
      isplitl [Hh]; · iexact Hh
      iexact Hp⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments end as launched -/

/-- Argument 0 ends as launched: no host operation writes it and no call's output array is it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 1 ends as launched: no host operation writes it and no call's output array is it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 2 ends as launched: no host operation writes it and no call's output array is it. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 3 ends as launched: no host operation writes it and no call's output array is it. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 4 ends as launched: no host operation writes it and no call's output array is it. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- THE FRAME: every weakly fair execution of @main terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.Kernel.Run

end
-- ==== Proof.Ideal.QkvProj.lean ====
/-
  The first projection call: each of the twelve grid points multiplies a 1024-row block of the flattened input
  by a 1024-column block of the transposed weight, adds the matching slice of the bias row, and stores the
  1024 x 1024 tile. What the tile holds after the body is one payload of the three blocks read; the body's
  triple, the per-core proof data and the per-point body obligation follow, at any entry contents `V`.
-/
import proofs.«132017_j67611375174105_2_alg».proof.Proof.Gen.KernelIdeal.Launch
import proofs.«132017_j67611375174105_2_alg».proof.Proof.Gen.KernelIdeal.Skeleton
import proofs.«132017_j67611375174105_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.QkvProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or carried over. -/
theorem before_in0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or carried over. -/
theorem before_in1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or carried over. -/
theorem before_in2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole tile, as a rectangle of the staging buffer. -/
abbrev whole : Rect S1024x1024 := Rect.unit (s := S1024x1024) ![0, 0] S1024x1024.size inb_S1024x1024_S1024x1024_0_0
/-- The whole bias row. -/
abbrev wholeRow : Rect S1x1024 := Rect.unit (s := S1x1024) ![0, 0] S1x1024.size inb_S1x1024_S1x1024_0_0

/-- The output tile after the body: its one store, over the three blocks read. -/
def tile (x0 : Vec F S1024x1024 .bf16) (x1 : Vec F S1024x1024 .bf16) (x2 : Vec F S1x1024 .f32) : Vec F S1024x1024 .bf16 :=
  View.canon [⟨whole, k0_pay1 (View.ld x0 whole) (View.ld x1 whole) (View.ld x2 wholeRow)⟩]

/-- The one store covers the tile. -/
theorem tile_cover (p0 : Vec F S1024x1024 .bf16) (y : S1024x1024.Idx) :
    ∃ pc ∈ ([⟨whole, p0⟩] : List (View.Piece (Elt F) S1024x1024 .bf16)), y ∈ pc.1.set :=
  View.cover_of_tiled [⟨whole, p0⟩] S1024x1024.size (by rfl) y

set_option maxHeartbeats 1000000 in
/-- The body on whole staging buffers: the inputs stay, the output ends at `tile` of the inputs. -/
theorem sound_kernel (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .bf16) (harg5 : arg5.IsWhole)
    (x0 : Vec F S1024x1024 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tile x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _)

/-- The call's proof data on core `c`: the arrays as found; after the body each input's buffer still at its block
    and the output's at `tile` of the three blocks; the invariant is the untouched scoped rest and the generator
    register; full shares; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => tile (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = tile (blk V c 0 t) (blk V c 1 t) (blk V c 2 t) := by dsimp only [dat]

theorem before_0 (c : Dev nD) (t : Fin cfg0.N) (d) : (dat V c).before 0 t d = blk V c 0 t :=
  before_in0_of V (dat V c) (A_eq V c 0) (after_0 V c) t d
theorem before_1 (c : Dev nD) (t : Fin cfg0.N) (d) : (dat V c).before 1 t d = blk V c 1 t :=
  before_in1_of V (dat V c) (A_eq V c 1) (after_1 V c) t d
theorem before_2 (c : Dev nD) (t : Fin cfg0.N) (d) : (dat V c).before 2 t d = blk V c 2 t :=
  before_in2_of V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.QkvProj

end
-- ==== Proof.Ideal.Attn.lean ====
/-
  The attention call: at each of the sixteen grid points (batch, query tile) the body walks the sixteen heads; for
  head h it reads the head's 256 x 64 query slice and 2048 x 64 key and value slices, forms the scaled scores, their
  row maxima, the exponentials, the row sums and the value-weighted sums divided by the row sums, and stores the
  256 x 64 result into columns 64h .. 64h+63 of the 256 x 1024 output tile. The tile after the body is the canon of
  those sixteen stores; the body's triple, the per-core proof data and the per-point obligation follow, at any entry
  contents `V`. The three input windows read one array.
-/
import proofs.«132017_j67611375174105_2_alg».proof.Proof.Gen.KernelIdeal.Launch
import proofs.«132017_j67611375174105_2_alg».proof.Proof.Gen.KernelIdeal.Skeleton
import proofs.«132017_j67611375174105_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or carried over. -/
theorem before_in0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or carried over. -/
theorem before_in1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or carried over. -/
theorem before_in2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! The rectangles of the body's loads (per head: a query slice, a key or value slice) and stores (per head: 64 columns). -/
abbrev qR0 : Rect S1x256x1x16x64 := Rect.unit (s := S1x256x1x16x64) ![0, 0, 0, 0, 0] S1x256x1x1x64.size inb_S1x256x1x16x64_S1x256x1x1x64_0_0_0_0_0
abbrev kR0 : Rect S1x2048x1x16x64 := Rect.unit (s := S1x2048x1x16x64) ![0, 0, 0, 0, 0] S1x2048x1x1x64.size inb_S1x2048x1x16x64_S1x2048x1x1x64_0_0_0_0_0
abbrev oR0 : Rect S1x256x1024 := Rect.unit (s := S1x256x1024) ![0, 0, 0] S1x256x64.size inb_S1x256x1024_S1x256x64_0_0_0
abbrev qR1 : Rect S1x256x1x16x64 := Rect.unit (s := S1x256x1x16x64) ![0, 0, 0, 1, 0] S1x256x1x1x64.size inb_S1x256x1x16x64_S1x256x1x1x64_0_0_0_1_0
abbrev kR1 : Rect S1x2048x1x16x64 := Rect.unit (s := S1x2048x1x16x64) ![0, 0, 0, 1, 0] S1x2048x1x1x64.size inb_S1x2048x1x16x64_S1x2048x1x1x64_0_0_0_1_0
abbrev oR1 : Rect S1x256x1024 := Rect.unit (s := S1x256x1024) ![0, 0, 64] S1x256x64.size inb_S1x256x1024_S1x256x64_0_0_64
abbrev qR2 : Rect S1x256x1x16x64 := Rect.unit (s := S1x256x1x16x64) ![0, 0, 0, 2, 0] S1x256x1x1x64.size inb_S1x256x1x16x64_S1x256x1x1x64_0_0_0_2_0
abbrev kR2 : Rect S1x2048x1x16x64 := Rect.unit (s := S1x2048x1x16x64) ![0, 0, 0, 2, 0] S1x2048x1x1x64.size inb_S1x2048x1x16x64_S1x2048x1x1x64_0_0_0_2_0
abbrev oR2 : Rect S1x256x1024 := Rect.unit (s := S1x256x1024) ![0, 0, 128] S1x256x64.size inb_S1x256x1024_S1x256x64_0_0_128
abbrev qR3 : Rect S1x256x1x16x64 := Rect.unit (s := S1x256x1x16x64) ![0, 0, 0, 3, 0] S1x256x1x1x64.size inb_S1x256x1x16x64_S1x256x1x1x64_0_0_0_3_0
abbrev kR3 : Rect S1x2048x1x16x64 := Rect.unit (s := S1x2048x1x16x64) ![0, 0, 0, 3, 0] S1x2048x1x1x64.size inb_S1x2048x1x16x64_S1x2048x1x1x64_0_0_0_3_0
abbrev oR3 : Rect S1x256x1024 := Rect.unit (s := S1x256x1024) ![0, 0, 192] S1x256x64.size inb_S1x256x1024_S1x256x64_0_0_192
abbrev qR4 : Rect S1x256x1x16x64 := Rect.unit (s := S1x256x1x16x64) ![0, 0, 0, 4, 0] S1x256x1x1x64.size inb_S1x256x1x16x64_S1x256x1x1x64_0_0_0_4_0
abbrev kR4 : Rect S1x2048x1x16x64 := Rect.unit (s := S1x2048x1x16x64) ![0, 0, 0, 4, 0] S1x2048x1x1x64.size inb_S1x2048x1x16x64_S1x2048x1x1x64_0_0_0_4_0
abbrev oR4 : Rect S1x256x1024 := Rect.unit (s := S1x256x1024) ![0, 0, 256] S1x256x64.size inb_S1x256x1024_S1x256x64_0_0_256
abbrev qR5 : Rect S1x256x1x16x64 := Rect.unit (s := S1x256x1x16x64) ![0, 0, 0, 5, 0] S1x256x1x1x64.size inb_S1x256x1x16x64_S1x256x1x1x64_0_0_0_5_0
abbrev kR5 : Rect S1x2048x1x16x64 := Rect.unit (s := S1x2048x1x16x64) ![0, 0, 0, 5, 0] S1x2048x1x1x64.size inb_S1x2048x1x16x64_S1x2048x1x1x64_0_0_0_5_0
abbrev oR5 : Rect S1x256x1024 := Rect.unit (s := S1x256x1024) ![0, 0, 320] S1x256x64.size inb_S1x256x1024_S1x256x64_0_0_320
abbrev qR6 : Rect S1x256x1x16x64 := Rect.unit (s := S1x256x1x16x64) ![0, 0, 0, 6, 0] S1x256x1x1x64.size inb_S1x256x1x16x64_S1x256x1x1x64_0_0_0_6_0
abbrev kR6 : Rect S1x2048x1x16x64 := Rect.unit (s := S1x2048x1x16x64) ![0, 0, 0, 6, 0] S1x2048x1x1x64.size inb_S1x2048x1x16x64_S1x2048x1x1x64_0_0_0_6_0
abbrev oR6 : Rect S1x256x1024 := Rect.unit (s := S1x256x1024) ![0, 0, 384] S1x256x64.size inb_S1x256x1024_S1x256x64_0_0_384
abbrev qR7 : Rect S1x256x1x16x64 := Rect.unit (s := S1x256x1x16x64) ![0, 0, 0, 7, 0] S1x256x1x1x64.size inb_S1x256x1x16x64_S1x256x1x1x64_0_0_0_7_0
abbrev kR7 : Rect S1x2048x1x16x64 := Rect.unit (s := S1x2048x1x16x64) ![0, 0, 0, 7, 0] S1x2048x1x1x64.size inb_S1x2048x1x16x64_S1x2048x1x1x64_0_0_0_7_0
abbrev oR7 : Rect S1x256x1024 := Rect.unit (s := S1x256x1024) ![0, 0, 448] S1x256x64.size inb_S1x256x1024_S1x256x64_0_0_448
abbrev qR8 : Rect S1x256x1x16x64 := Rect.unit (s := S1x256x1x16x64) ![0, 0, 0, 8, 0] S1x256x1x1x64.size inb_S1x256x1x16x64_S1x256x1x1x64_0_0_0_8_0
abbrev kR8 : Rect S1x2048x1x16x64 := Rect.unit (s := S1x2048x1x16x64) ![0, 0, 0, 8, 0] S1x2048x1x1x64.size inb_S1x2048x1x16x64_S1x2048x1x1x64_0_0_0_8_0
abbrev oR8 : Rect S1x256x1024 := Rect.unit (s := S1x256x1024) ![0, 0, 512] S1x256x64.size inb_S1x256x1024_S1x256x64_0_0_512
abbrev qR9 : Rect S1x256x1x16x64 := Rect.unit (s := S1x256x1x16x64) ![0, 0, 0, 9, 0] S1x256x1x1x64.size inb_S1x256x1x16x64_S1x256x1x1x64_0_0_0_9_0
abbrev kR9 : Rect S1x2048x1x16x64 := Rect.unit (s := S1x2048x1x16x64) ![0, 0, 0, 9, 0] S1x2048x1x1x64.size inb_S1x2048x1x16x64_S1x2048x1x1x64_0_0_0_9_0
abbrev oR9 : Rect S1x256x1024 := Rect.unit (s := S1x256x1024) ![0, 0, 576] S1x256x64.size inb_S1x256x1024_S1x256x64_0_0_576
abbrev qR10 : Rect S1x256x1x16x64 := Rect.unit (s := S1x256x1x16x64) ![0, 0, 0, 10, 0] S1x256x1x1x64.size inb_S1x256x1x16x64_S1x256x1x1x64_0_0_0_10_0
abbrev kR10 : Rect S1x2048x1x16x64 := Rect.unit (s := S1x2048x1x16x64) ![0, 0, 0, 10, 0] S1x2048x1x1x64.size inb_S1x2048x1x16x64_S1x2048x1x1x64_0_0_0_10_0
abbrev oR10 : Rect S1x256x1024 := Rect.unit (s := S1x256x1024) ![0, 0, 640] S1x256x64.size inb_S1x256x1024_S1x256x64_0_0_640
abbrev qR11 : Rect S1x256x1x16x64 := Rect.unit (s := S1x256x1x16x64) ![0, 0, 0, 11, 0] S1x256x1x1x64.size inb_S1x256x1x16x64_S1x256x1x1x64_0_0_0_11_0
abbrev kR11 : Rect S1x2048x1x16x64 := Rect.unit (s := S1x2048x1x16x64) ![0, 0, 0, 11, 0] S1x2048x1x1x64.size inb_S1x2048x1x16x64_S1x2048x1x1x64_0_0_0_11_0
abbrev oR11 : Rect S1x256x1024 := Rect.unit (s := S1x256x1024) ![0, 0, 704] S1x256x64.size inb_S1x256x1024_S1x256x64_0_0_704
abbrev qR12 : Rect S1x256x1x16x64 := Rect.unit (s := S1x256x1x16x64) ![0, 0, 0, 12, 0] S1x256x1x1x64.size inb_S1x256x1x16x64_S1x256x1x1x64_0_0_0_12_0
abbrev kR12 : Rect S1x2048x1x16x64 := Rect.unit (s := S1x2048x1x16x64) ![0, 0, 0, 12, 0] S1x2048x1x1x64.size inb_S1x2048x1x16x64_S1x2048x1x1x64_0_0_0_12_0
abbrev oR12 : Rect S1x256x1024 := Rect.unit (s := S1x256x1024) ![0, 0, 768] S1x256x64.size inb_S1x256x1024_S1x256x64_0_0_768
abbrev qR13 : Rect S1x256x1x16x64 := Rect.unit (s := S1x256x1x16x64) ![0, 0, 0, 13, 0] S1x256x1x1x64.size inb_S1x256x1x16x64_S1x256x1x1x64_0_0_0_13_0
abbrev kR13 : Rect S1x2048x1x16x64 := Rect.unit (s := S1x2048x1x16x64) ![0, 0, 0, 13, 0] S1x2048x1x1x64.size inb_S1x2048x1x16x64_S1x2048x1x1x64_0_0_0_13_0
abbrev oR13 : Rect S1x256x1024 := Rect.unit (s := S1x256x1024) ![0, 0, 832] S1x256x64.size inb_S1x256x1024_S1x256x64_0_0_832
abbrev qR14 : Rect S1x256x1x16x64 := Rect.unit (s := S1x256x1x16x64) ![0, 0, 0, 14, 0] S1x256x1x1x64.size inb_S1x256x1x16x64_S1x256x1x1x64_0_0_0_14_0
abbrev kR14 : Rect S1x2048x1x16x64 := Rect.unit (s := S1x2048x1x16x64) ![0, 0, 0, 14, 0] S1x2048x1x1x64.size inb_S1x2048x1x16x64_S1x2048x1x1x64_0_0_0_14_0
abbrev oR14 : Rect S1x256x1024 := Rect.unit (s := S1x256x1024) ![0, 0, 896] S1x256x64.size inb_S1x256x1024_S1x256x64_0_0_896
abbrev qR15 : Rect S1x256x1x16x64 := Rect.unit (s := S1x256x1x16x64) ![0, 0, 0, 15, 0] S1x256x1x1x64.size inb_S1x256x1x16x64_S1x256x1x1x64_0_0_0_15_0
abbrev kR15 : Rect S1x2048x1x16x64 := Rect.unit (s := S1x2048x1x16x64) ![0, 0, 0, 15, 0] S1x2048x1x1x64.size inb_S1x2048x1x16x64_S1x2048x1x1x64_0_0_0_15_0
abbrev oR15 : Rect S1x256x1024 := Rect.unit (s := S1x256x1024) ![0, 0, 960] S1x256x64.size inb_S1x256x1024_S1x256x64_0_0_960

/-- Head 0's 256 x 64 output piece, as the body composes it from that head's query, key and value slices. -/
def head0 (x0 : Vec F S1x256x1x16x64 .bf16) (x1 x2 : Vec F S1x2048x1x16x64 .bf16) : FVec F S1x256x64 .bf16 :=
  k1_pay2 (View.ld x0 (qR0)) (View.ld x1 (kR0)) (View.ld x2 (kR0))
/-- Head 1's 256 x 64 output piece, as the body composes it from that head's query, key and value slices. -/
def head1 (x0 : Vec F S1x256x1x16x64 .bf16) (x1 x2 : Vec F S1x2048x1x16x64 .bf16) : FVec F S1x256x64 .bf16 :=
  k1_pay4 (k1_pay3 (View.ld x0 (qR1))) (View.ld x1 (kR1)) (View.ld x2 (kR1))
/-- Head 2's 256 x 64 output piece, as the body composes it from that head's query, key and value slices. -/
def head2 (x0 : Vec F S1x256x1x16x64 .bf16) (x1 x2 : Vec F S1x2048x1x16x64 .bf16) : FVec F S1x256x64 .bf16 :=
  k1_pay8 (k1_pay5 (View.ld x0 (qR2))) (k1_pay6 (View.ld x1 (kR2))) (k1_pay7 (View.ld x2 (kR2))) (constant S256x2048 .f32 0x00000000#32)
/-- Head 3's 256 x 64 output piece, as the body composes it from that head's query, key and value slices. -/
def head3 (x0 : Vec F S1x256x1x16x64 .bf16) (x1 x2 : Vec F S1x2048x1x16x64 .bf16) : FVec F S1x256x64 .bf16 :=
  k1_pay12 (k1_pay9 (View.ld x2 (kR3))) (k1_pay10 (View.ld x0 (qR3)) (View.ld x1 (kR3))) (k1_pay11 (View.ld x0 (qR3)) (View.ld x1 (kR3)))
/-- Head 4's 256 x 64 output piece, as the body composes it from that head's query, key and value slices. -/
def head4 (x0 : Vec F S1x256x1x16x64 .bf16) (x1 x2 : Vec F S1x2048x1x16x64 .bf16) : FVec F S1x256x64 .bf16 :=
  k1_pay14 (k1_pay13 (View.ld x0 (qR4)) (View.ld x1 (kR4)) (View.ld x2 (kR4)))
/-- Head 5's 256 x 64 output piece, as the body composes it from that head's query, key and value slices. -/
def head5 (x0 : Vec F S1x256x1x16x64 .bf16) (x1 x2 : Vec F S1x2048x1x16x64 .bf16) : FVec F S1x256x64 .bf16 :=
  k1_pay15 (View.ld x0 (qR5)) (View.ld x1 (kR5)) (View.ld x2 (kR5))
/-- Head 6's 256 x 64 output piece, as the body composes it from that head's query, key and value slices. -/
def head6 (x0 : Vec F S1x256x1x16x64 .bf16) (x1 x2 : Vec F S1x2048x1x16x64 .bf16) : FVec F S1x256x64 .bf16 :=
  k1_pay17 (k1_pay16 (View.ld x0 (qR6))) (View.ld x1 (kR6)) (View.ld x2 (kR6))
/-- Head 7's 256 x 64 output piece, as the body composes it from that head's query, key and value slices. -/
def head7 (x0 : Vec F S1x256x1x16x64 .bf16) (x1 x2 : Vec F S1x2048x1x16x64 .bf16) : FVec F S1x256x64 .bf16 :=
  k1_pay21 (k1_pay18 (View.ld x0 (qR7))) (k1_pay19 (View.ld x1 (kR7))) (k1_pay20 (View.ld x2 (kR7))) (constant S256x2048 .f32 0x00000000#32)
/-- Head 8's 256 x 64 output piece, as the body composes it from that head's query, key and value slices. -/
def head8 (x0 : Vec F S1x256x1x16x64 .bf16) (x1 x2 : Vec F S1x2048x1x16x64 .bf16) : FVec F S1x256x64 .bf16 :=
  k1_pay25 (k1_pay22 (View.ld x2 (kR8))) (k1_pay23 (View.ld x0 (qR8)) (View.ld x1 (kR8))) (k1_pay24 (View.ld x0 (qR8)) (View.ld x1 (kR8)))
/-- Head 9's 256 x 64 output piece, as the body composes it from that head's query, key and value slices. -/
def head9 (x0 : Vec F S1x256x1x16x64 .bf16) (x1 x2 : Vec F S1x2048x1x16x64 .bf16) : FVec F S1x256x64 .bf16 :=
  k1_pay27 (k1_pay26 (View.ld x0 (qR9)) (View.ld x1 (kR9)) (View.ld x2 (kR9)))
/-- Head 10's 256 x 64 output piece, as the body composes it from that head's query, key and value slices. -/
def head10 (x0 : Vec F S1x256x1x16x64 .bf16) (x1 x2 : Vec F S1x2048x1x16x64 .bf16) : FVec F S1x256x64 .bf16 :=
  k1_pay28 (View.ld x0 (qR10)) (View.ld x1 (kR10)) (View.ld x2 (kR10))
/-- Head 11's 256 x 64 output piece, as the body composes it from that head's query, key and value slices. -/
def head11 (x0 : Vec F S1x256x1x16x64 .bf16) (x1 x2 : Vec F S1x2048x1x16x64 .bf16) : FVec F S1x256x64 .bf16 :=
  k1_pay30 (k1_pay29 (View.ld x0 (qR11))) (View.ld x1 (kR11)) (View.ld x2 (kR11))
/-- Head 12's 256 x 64 output piece, as the body composes it from that head's query, key and value slices. -/
def head12 (x0 : Vec F S1x256x1x16x64 .bf16) (x1 x2 : Vec F S1x2048x1x16x64 .bf16) : FVec F S1x256x64 .bf16 :=
  k1_pay34 (k1_pay31 (View.ld x0 (qR12))) (k1_pay32 (View.ld x1 (kR12))) (k1_pay33 (View.ld x2 (kR12))) (constant S256x2048 .f32 0x00000000#32)
/-- Head 13's 256 x 64 output piece, as the body composes it from that head's query, key and value slices. -/
def head13 (x0 : Vec F S1x256x1x16x64 .bf16) (x1 x2 : Vec F S1x2048x1x16x64 .bf16) : FVec F S1x256x64 .bf16 :=
  k1_pay38 (k1_pay35 (View.ld x2 (kR13))) (k1_pay36 (View.ld x0 (qR13)) (View.ld x1 (kR13))) (k1_pay37 (View.ld x0 (qR13)) (View.ld x1 (kR13)))
/-- Head 14's 256 x 64 output piece, as the body composes it from that head's query, key and value slices. -/
def head14 (x0 : Vec F S1x256x1x16x64 .bf16) (x1 x2 : Vec F S1x2048x1x16x64 .bf16) : FVec F S1x256x64 .bf16 :=
  k1_pay40 (k1_pay39 (View.ld x0 (qR14)) (View.ld x1 (kR14)) (View.ld x2 (kR14)))
/-- Head 15's 256 x 64 output piece, as the body composes it from that head's query, key and value slices. -/
def head15 (x0 : Vec F S1x256x1x16x64 .bf16) (x1 x2 : Vec F S1x2048x1x16x64 .bf16) : FVec F S1x256x64 .bf16 :=
  k1_pay1 (k1_pay41 (View.ld x0 (qR15)) (View.ld x1 (kR15)) (View.ld x2 (kR15)))

/-- The output tile after the body: the sixteen stores, last first. -/
def tile (x0 : Vec F S1x256x1x16x64 .bf16) (x1 x2 : Vec F S1x2048x1x16x64 .bf16) : Vec F S1x256x1024 .bf16 :=
  View.canon [⟨oR15, head15 x0 x1 x2⟩, ⟨oR14, head14 x0 x1 x2⟩, ⟨oR13, head13 x0 x1 x2⟩, ⟨oR12, head12 x0 x1 x2⟩, ⟨oR11, head11 x0 x1 x2⟩, ⟨oR10, head10 x0 x1 x2⟩, ⟨oR9, head9 x0 x1 x2⟩, ⟨oR8, head8 x0 x1 x2⟩, ⟨oR7, head7 x0 x1 x2⟩, ⟨oR6, head6 x0 x1 x2⟩, ⟨oR5, head5 x0 x1 x2⟩, ⟨oR4, head4 x0 x1 x2⟩, ⟨oR3, head3 x0 x1 x2⟩, ⟨oR2, head2 x0 x1 x2⟩, ⟨oR1, head1 x0 x1 x2⟩, ⟨oR0, head0 x0 x1 x2⟩]

/-- The sixteen column bands tile the buffer, so they cover it. -/
theorem tile_cover (p0 p1 p2 p3 p4 p5 p6 p7 p8 p9 p10 p11 p12 p13 p14 p15 : Vec F S1x256x64 .bf16) (y : S1x256x1024.Idx) :
    ∃ pc ∈ ([⟨oR15, p15⟩, ⟨oR14, p14⟩, ⟨oR13, p13⟩, ⟨oR12, p12⟩, ⟨oR11, p11⟩, ⟨oR10, p10⟩, ⟨oR9, p9⟩, ⟨oR8, p8⟩, ⟨oR7, p7⟩, ⟨oR6, p6⟩, ⟨oR5, p5⟩, ⟨oR4, p4⟩, ⟨oR3, p3⟩, ⟨oR2, p2⟩, ⟨oR1, p1⟩, ⟨oR0, p0⟩] : List (View.Piece (Elt F) S1x256x1024 .bf16)), y ∈ pc.1.set :=
  View.cover_of_tiled [⟨oR15, p15⟩, ⟨oR14, p14⟩, ⟨oR13, p13⟩, ⟨oR12, p12⟩, ⟨oR11, p11⟩, ⟨oR10, p10⟩, ⟨oR9, p9⟩, ⟨oR8, p8⟩, ⟨oR7, p7⟩, ⟨oR6, p6⟩, ⟨oR5, p5⟩, ⟨oR4, p4⟩, ⟨oR3, p3⟩, ⟨oR2, p2⟩, ⟨oR1, p1⟩, ⟨oR0, p0⟩] S1x256x64.size (by rfl) y

set_option maxHeartbeats 4000000 in
/-- The body on whole staging buffers: the inputs stay, the output ends at `tile` of the inputs. -/
theorem sound_kernel (c : Dev nD) (E : Set ℕ) (i : grid1.Coords)
    (arg2 : Memref sig .tc .vmem S1x256x1x16x64 .bf16) (harg2 : arg2.IsWhole) (arg3 : Memref sig .tc .vmem S1x2048x1x16x64 .bf16) (harg3 : arg3.IsWhole)
    (arg4 : Memref sig .tc .vmem S1x2048x1x16x64 .bf16) (harg4 : arg4.IsWhole) (arg5 : Memref sig .tc .vmem S1x256x1024 .bf16) (harg5 : arg5.IsWhole)
    (x0 : Vec F S1x256x1x16x64 .bf16) (x1 x2 : Vec F S1x2048x1x16x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tile x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _ _ _ _ _ _ _ _ _ _ _ _ _ _ _ _)

/-- The call's proof data on core `c`: the arrays as found; after the body each input's buffer still at its block
    and the output's at `tile` of the three blocks; the invariant is the untouched scoped rest and the generator
    register; nothing owed. The three input windows read one array, so each holds a third-order share of it:
    `sh 0`, `sh 1`, `sh 2` below, which together make the full share. -/
def dat (sh : Fin 3 → PosShare TreeShare) (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => tile (blk V c 0 t) (blk V c 1 t) (blk V c 2 t)
  Φ _ := Pipeline.ΦA spec1 c
  q w := match w with
    | ⟨0, _⟩ => sh 0
    | ⟨1, _⟩ => sh 1
    | ⟨2, _⟩ => sh 2
    | ⟨3, _⟩ => fullShare
  owed _ := 0

variable (sh : Fin 3 → PosShare TreeShare)

theorem A_eq (c : Dev nD) (w : Fin cfg1.W) : (dat V sh c).A w = V c (Pipeline.arrRef spec1 w) := by
  dsimp only [dat]

theorem after_0 (c : Dev nD) (t : Fin cfg1.N) : (dat V sh c).after 0 t = blk V c 0 t := by dsimp only [dat]
theorem after_1 (c : Dev nD) (t : Fin cfg1.N) : (dat V sh c).after 1 t = blk V c 1 t := by dsimp only [dat]
theorem after_2 (c : Dev nD) (t : Fin cfg1.N) : (dat V sh c).after 2 t = blk V c 2 t := by dsimp only [dat]
theorem after_3 (c : Dev nD) (t : Fin cfg1.N) : (dat V sh c).after 3 t = tile (blk V c 0 t) (blk V c 1 t) (blk V c 2 t) := by dsimp only [dat]

theorem before_0 (c : Dev nD) (t : Fin cfg1.N) (d) : (dat V sh c).before 0 t d = blk V c 0 t :=
  before_in0_of V (dat V sh c) (A_eq V sh c 0) (after_0 V sh c) t d
theorem before_1 (c : Dev nD) (t : Fin cfg1.N) (d) : (dat V sh c).before 1 t d = blk V c 1 t :=
  before_in1_of V (dat V sh c) (A_eq V sh c 1) (after_1 V sh c) t d
theorem before_2 (c : Dev nD) (t : Fin cfg1.N) (d) : (dat V sh c).before 2 t d = blk V c 2 t :=
  before_in2_of V (dat V sh c) (A_eq V sh c 2) (after_2 V sh c) t d

/-- What the body is called with at point `t`, the windows one by one, -/
def bodyPre (c : Dev nD) (t : Fin cfg1.N) : sProp 𝕄 :=
  iprop((dat V sh c).Φ t.castSucc ∗ (dat V sh c).owesAt () t.castSucc
    ∗ (∃ d, owns (c : Thread nD τ) (st1_0 t) fullShare ((dat V sh c).before 0 t d))
    ∗ (∃ d, owns (c : Thread nD τ) (st1_1 t) fullShare ((dat V sh c).before 1 t d))
    ∗ (∃ d, owns (c : Thread nD τ) (st1_2 t) fullShare ((dat V sh c).before 2 t d))
    ∗ (∃ d, owns (c : Thread nD τ) (st1_3 t) fullShare ((dat V sh c).before 3 t d)))

/-- and what it returns. -/
def bodyPost (c : Dev nD) (t : Fin cfg1.N) : sProp 𝕄 :=
  iprop((dat V sh c).Φ t.succ ∗ (dat V sh c).owesAt () t.succ
    ∗ owns (c : Thread nD τ) (st1_0 t) fullShare ((dat V sh c).after 0 t)
    ∗ owns (c : Thread nD τ) (st1_1 t) fullShare ((dat V sh c).after 1 t)
    ∗ owns (c : Thread nD τ) (st1_2 t) fullShare ((dat V sh c).after 2 t)
    ∗ owns (c : Thread nD τ) (st1_3 t) fullShare ((dat V sh c).after 3 t))

/-- The body at any point: the inputs' buffers hold their blocks, so the body's triple applies; the invariant and the
    core's dues pass through unread. -/
theorem sound_body (c : Dev nD) (t : Fin cfg1.N) :
    bodyPre V sh c t ⊢ wp frame (wpE (defs₀ (F := F)) Variants.none c none) Set.univ (bodyAt1 t) (fun _ => bodyPost V sh c t) := by
  unfold bodyPre bodyPost bodyAt1
  simp only [before_0, before_1, before_2]
  rw [show (dat V sh c).Φ t.succ = (dat V sh c).Φ t.castSucc from rfl,
    show (dat V sh c).owesAt () t.succ = (dat V sh c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V sh c) (defs₀ (F := F)) Variants.none () Set.univ := fun t => by
  rw [bigSep_W1, bigSep_W1]
  exact sound_body V sh c t

end Cert.KernelIdeal.Attn

end
-- ==== Proof.Ideal.AttnArrays.lean ====
/-
  The attention call's three input windows (query tile, keys, values) read ONE array, the projected activations;
  its output window writes another. So at the call's entry the core's whole hold on the activations is dealt among
  the three windows — a left half, and the two halves of the right half — and at its exit the three parts, still at
  the entry contents (an input array is never written back), are put together again, beside the output array at
  what the sixteen write-backs left.
-/
import proofs.«132017_j67611375174105_2_alg».proof.Proof.Ideal.Attn

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The three input windows' parts of the activations array's full share. -/
def sh : Fin 3 → PosShare TreeShare
  | ⟨0, _⟩ => fullShare.left
  | ⟨1, _⟩ => fullShare.right.left
  | ⟨2, _⟩ => fullShare.right.right

variable (V : (c : Dev nD) → (b : Ref sig .tc) → Buf (Elt F) ((c : Thread nD τ).loc b))

/-- The distinct buffers behind the four windows' arrays are two. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v6) ↦{fullShare} Vc main_v6) ∗ (((c : Thread nD τ).loc main_v7) ↦{fullShare} Vc main_v7)) := by
  unfold Pipeline.arrBufs
  rw [show (Finset.univ.image (Pipeline.arrRef spec1) : Finset (Ref sig .tc)) = insert main_v6 {main_v7} from by decide,
    bigSep_insert (by decide), bigSep_singleton]
  rfl

/-- The call's arrays, window by window: three parts of the activations, the whole output. -/
theorem arrays_eq (c : Dev nD) (Fa : (w : Fin cfg1.W) → Buf (Elt F) ((cfg1.win w).arr.view.loc (c : Thread nD τ))) :
    ((dat V sh c).arrays Fa : sProp 𝕄)
      = iprop((((c : Thread nD τ).loc main_v6) ↦{sh 0} Fa 0) ∗ (((c : Thread nD τ).loc main_v6) ↦{sh 1} Fa 1)
          ∗ (((c : Thread nD τ).loc main_v6) ↦{sh 2} Fa 2) ∗ (((c : Thread nD τ).loc main_v7) ↦{fullShare} Fa 3)) := by
  unfold Pipeline.Dat.arrays
  rw [bigSep_W1, (arr_whole1 0).set_eq_univ, (arr_whole1 3).set_eq_univ]
  rfl

/-- The activations' full hold is the three windows' parts, and back. -/
theorem deal (c : Dev nD) (f : Buf (Elt F) ((c : Thread nD τ).loc main_v6)) :
    ((((c : Thread nD τ).loc main_v6) ↦{fullShare} f) : sProp 𝕄)
      ⊣⊢ iprop((((c : Thread nD τ).loc main_v6) ↦{sh 0} f) ∗ (((c : Thread nD τ).loc main_v6) ↦{sh 1} f) ∗ (((c : Thread nD τ).loc main_v6) ↦{sh 2} f)) := by
  have e1 : ((((c : Thread nD τ).loc main_v6) ↦{fullShare} f) : sProp 𝕄)
      ⊣⊢ iprop((((c : Thread nD τ).loc main_v6) ↦{fullShare.left} f) ∗ (((c : Thread nD τ).loc main_v6) ↦{fullShare.right} f)) :=
    pointsTo_share (PosShare.mem_left_op_right fullShare)
  have e2 : ((((c : Thread nD τ).loc main_v6) ↦{fullShare.right} f) : sProp 𝕄)
      ⊣⊢ iprop((((c : Thread nD τ).loc main_v6) ↦{fullShare.right.left} f) ∗ (((c : Thread nD τ).loc main_v6) ↦{fullShare.right.right} f)) :=
    pointsTo_share (PosShare.mem_left_op_right fullShare.right)
  constructor
  · iintro H
    ihave H' := e1.1 $$ H
    icases H' with ⟨Ha, Hb⟩
    ihave Hb' := e2.1 $$ Hb
    icases Hb' with ⟨Hb, Hc⟩
    isplitl [Ha]; · iexact Ha
    isplitl [Hb]; · iexact Hb
    iexact Hc
  · iintro ⟨Ha, Hb, Hc⟩
    iapply e1.2
    isplitl [Ha]; · iexact Ha
    iapply e2.2
    isplitl [Hb]; · iexact Hb
    iexact Hc

/-- ENTRY: the core's unscoped buffers at contents `V c` are the call's arrays at the entry contents — the
    activations dealt in three — and the buffers no window touches. -/
theorem arrays_in (c : Dev nD) :
    (unscopedBufs c (V c) : sProp 𝕄) ⊢ iprop((dat V sh c).arrays (dat V sh c).A ∗ Pipeline.unscopedRest spec1 c (V c)) := by
  rw [Pipeline.unscopedBufs_split₀ cfgs 1 winFacts₀1.arr_unscoped c (V c)]
  rw [show (Pipeline.arrBufs (cfgs 1).spec c (V c) : sProp 𝕄) = Pipeline.arrBufs spec1 c (V c) from rfl, arrBufs_eq, arrays_eq]
  have hd := (deal c (V c main_v6)).1
  iintro ⟨⟨H6, H7⟩, Hr⟩
  ihave H6' := hd $$ H6
  icases H6' with ⟨Ha, Hb, Hc⟩
  isplitr [Hr]
  swap; · iexact Hr
  isplitl [Ha]; · iexact Ha
  isplitl [Hb]; · iexact Hb
  isplitl [Hc]; · iexact Hc
  iexact H7

/-- EXIT: the call's arrays after its last point — the three parts of the activations still at the entry contents,
    the output at what the write-backs left — and the untouched buffers are the core's unscoped buffers at any
    contents `V'` that has the output array there and agrees with `V c` elsewhere. -/
theorem arrays_out (c : Dev nD) (V' : (b : Ref sig .tc) → Buf (Elt F) ((c : Thread nD τ).loc b))
    (h7 : V' main_v7 = (dat V sh c).arrAt 3 cfg1.N) (hrest : ∀ b, b ≠ main_v7 → V' b = V c b) :
    iprop((dat V sh c).arrays ((dat V sh c).arrAt · cfg1.N) ∗ Pipeline.unscopedRest spec1 c (V c)) ⊢ (unscopedBufs c V' : sProp 𝕄) := by
  rw [Pipeline.unscopedBufs_split₀ cfgs 1 winFacts₀1.arr_unscoped c V']
  rw [show (Pipeline.arrBufs (cfgs 1).spec c V' : sProp 𝕄) = Pipeline.arrBufs spec1 c V' from rfl, arrBufs_eq, arrays_eq,
    (dat V sh c).arrAt_in 0 rfl, (dat V sh c).arrAt_in 1 rfl, (dat V sh c).arrAt_in 2 rfl, h7, hrest main_v6 (by decide)]
  have hr : (Pipeline.unscopedRest (Ix := Unit) (Name := ℕ) (U := UR sig nD τ) (Lvl := ℕ) (cfgs 1).spec c V' : sProp 𝕄)
      = Pipeline.unscopedRest spec1 c (V c) := by
    unfold Pipeline.unscopedRest
    exact bigSep_congr fun b hb => by
      rw [hrest b (fun e => (Finset.mem_sdiff.mp hb).2 (Finset.mem_image.mpr ⟨3, Finset.mem_univ _, e ▸ rfl⟩))]
  rw [hr]
  have hd := (deal c (V c main_v6)).2
  iintro ⟨⟨Ha, Hb, Hc, H7⟩, Hr⟩
  isplitr [Hr]
  swap; · iexact Hr
  isplitr [H7]
  swap; · iexact H7
  iapply hd
  isplitl [Ha]; · iexact Ha
  isplitl [Hb]; · iexact Hb
  iexact Hc

end Cert.KernelIdeal.Attn

end
-- ==== Proof.Ideal.OutProj.lean ====
/-
  The last projection call: each of the four grid points multiplies a 1024-row block of the flattened attention
  output by the whole transposed output weight, adds the bias row, and stores the 1024 x 1024 tile of the result.
  What the tile holds after the body is one payload of the three blocks read; the body's triple, the per-core
  proof data and the per-point body obligation follow, at any entry contents `V`.
-/
import proofs.«132017_j67611375174105_2_alg».proof.Proof.Gen.KernelIdeal.Launch
import proofs.«132017_j67611375174105_2_alg».proof.Proof.Gen.KernelIdeal.Skeleton
import proofs.«132017_j67611375174105_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.OutProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or carried over. -/
theorem before_in0_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or carried over. -/
theorem before_in1_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or carried over. -/
theorem before_in2_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole tile, as a rectangle of the staging buffer. -/
abbrev whole : Rect S1024x1024 := Rect.unit (s := S1024x1024) ![0, 0] S1024x1024.size inb_S1024x1024_S1024x1024_0_0
/-- The whole bias row. -/
abbrev wholeRow : Rect S1x1024 := Rect.unit (s := S1x1024) ![0, 0] S1x1024.size inb_S1x1024_S1x1024_0_0

/-- The output tile after the body: its one store, over the three blocks read. -/
def tile (x0 : Vec F S1024x1024 .bf16) (x1 : Vec F S1024x1024 .bf16) (x2 : Vec F S1x1024 .f32) : Vec F S1024x1024 .f32 :=
  View.canon [⟨whole, k2_pay1 (View.ld x0 whole) (View.ld x1 whole) (View.ld x2 wholeRow)⟩]

/-- The one store covers the tile. -/
theorem tile_cover (p0 : Vec F S1024x1024 .f32) (y : S1024x1024.Idx) :
    ∃ pc ∈ ([⟨whole, p0⟩] : List (View.Piece (Elt F) S1024x1024 .f32)), y ∈ pc.1.set :=
  View.cover_of_tiled [⟨whole, p0⟩] S1024x1024.size (by rfl) y

set_option maxHeartbeats 1000000 in
/-- The body on whole staging buffers: the inputs stay, the output ends at `tile` of the inputs. -/
theorem sound_kernel (c : Dev nD) (E : Set ℕ) (i : grid2.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .f32) (harg5 : arg5.IsWhole)
    (x0 : Vec F S1024x1024 .bf16) (x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tile x0 x1 x2)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _)

/-- The call's proof data on core `c`: the arrays as found; after the body each input's buffer still at its block
    and the output's at `tile` of the three blocks; the invariant is the untouched scoped rest and the generator
    register; full shares; nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => tile (blk V c 0 t) (blk V c 1 t) (blk V c 2 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = tile (blk V c 0 t) (blk V c 1 t) (blk V c 2 t) := by dsimp only [dat]

theorem before_0 (c : Dev nD) (t : Fin cfg2.N) (d) : (dat V c).before 0 t d = blk V c 0 t :=
  before_in0_of V (dat V c) (A_eq V c 0) (after_0 V c) t d
theorem before_1 (c : Dev nD) (t : Fin cfg2.N) (d) : (dat V c).before 1 t d = blk V c 1 t :=
  before_in1_of V (dat V c) (A_eq V c 1) (after_1 V c) t d
theorem before_2 (c : Dev nD) (t : Fin cfg2.N) (d) : (dat V c).before 2 t d = blk V c 2 t :=
  before_in2_of V (dat V c) (A_eq V c 2) (after_2 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' buffers hold their blocks, so the body's triple applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W2, bigSep_W2]
  exact sound_body V c t

end Cert.KernelIdeal.OutProj

end
-- ==== Proof.Ideal.Run.lean ====
/-
  The whole program as a run: @main is a stretch of host operations (flatten the input, transpose and narrow the
  weights, lay the bias out as a row), the first projection call, a reshape of its result into heads, the attention
  call, a second stretch (flatten, transpose, narrow, bias row), the output projection call, and a last reshape. The
  contents of the core's buffers at each of the eight boundaries are a fold from the launch memory; every call is a
  segment entered at one boundary's contents and left at the next; the launch over the segments gives ONE run theorem
  whose post reads every unscoped buffer of the final memory at the last boundary's contents. Both the frame claim and
  the value of the result are read off it.
-/
import proofs.«132017_j67611375174105_2_alg».proof.Proof.Ideal.QkvProj
import proofs.«132017_j67611375174105_2_alg».proof.Proof.Ideal.AttnArrays
import proofs.«132017_j67611375174105_2_alg».proof.Proof.Ideal.OutProj

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the eight boundaries -/

/-- At launch. -/
abbrev W0 : Dev nD → Valuation τ sig (Elt F) := fun c b => (s₀ m ρ).mem ((c : Dev nD), b)
/-- After the first host stretch: the first call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its output array at what the twelve write-backs left, the rest as entered. -/
def W2 (c : Dev nD) : Valuation τ sig (Elt F) :=
  Pipeline.withArrays spec0 c (W1 m ρ c) fun w => (QkvProj.dat (V1 m ρ) c).arrAt w cfg0.N
theorem W2_arr (c : Dev nD) (w : Fin cfg0.W) :
    W2 m ρ c (Proc.devRef .tc (Pipeline.arrRef spec0 w)) = (QkvProj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (QkvProj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape into heads: the attention call's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention call: its output array at what the sixteen write-backs left, the rest as entered. -/
def W4 (c : Dev nD) : Valuation τ sig (Elt F) :=
  Function.update (W3 m ρ c) (Proc.devRef .tc main_v7) ((Attn.dat (V3 m ρ) Attn.sh c).arrAt 3 cfg1.N)
theorem W4_out (c : Dev nD) : W4 m ρ c (Proc.devRef .tc main_v7) = (Attn.dat (V3 m ρ) Attn.sh c).arrAt 3 cfg1.N :=
  Function.update_self ..
theorem W4_of_ne (c : Dev nD) (b : Ref sig .tc) (hb : b ≠ main_v7) :
    W4 m ρ c (Proc.devRef .tc b) = W3 m ρ c (Proc.devRef .tc b) :=
  Function.update_of_ne (StableHlo.devRef_ne_of_ne hb) ..
abbrev V4 : (c : Dev nD) → (b : Ref sig .tc) → Buf (Elt F) ((c : Thread nD τ).loc b) := fun c b => W4 m ρ c b

/-- After the second host stretch: the output projection's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the output projection: its output array at what the four write-backs left, the rest as entered. -/
def W6 (c : Dev nD) : Valuation τ sig (Elt F) :=
  Pipeline.withArrays spec2 c (W5 m ρ c) fun w => (OutProj.dat (V5 m ρ) c).arrAt w cfg2.N
theorem W6_arr (c : Dev nD) (w : Fin cfg2.W) :
    W6 m ρ c (Proc.devRef .tc (Pipeline.arrRef spec2 w)) = (OutProj.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (OutProj.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last reshape: the return. -/
abbrev W7 : Dev nD → Valuation τ sig (Elt F) := fun c => StableHlo.after hostOps3 (W6 m ρ c)

/-! ## The proof data family and what rides beside the buffers -/

abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => QkvProj.dat (V1 m ρ) c
  | ⟨1, _⟩ => fun c => Attn.dat (V3 m ρ) Attn.sh c
  | ⟨2, _⟩ => fun c => OutProj.dat (V5 m ρ) c
abbrev 𝒱₀ : Variants := Variants.none
abbrev L : GSem nD τ sig → Finset Unit := fun _ => ∅
abbrev lv : GSem nD τ sig → Unit → ℕ := fun _ _ => 0
/-- Beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the core's dues apart. -/
abbrev Tₙ (c : Dev nD) : sProp 𝕄 := iprop(StableHlo.held (c : Thread nD τ) (Pipeline.ucRefs τ sig) (W7 m ρ c) ∗ ∃ r, prngReg c r)

/-! ## The calls as segments -/

set_option backward.isDefEq.respectTransparency.types false in
/-- Call 0 as a segment: entered with every unscoped buffer at `W1`, left with them at `W2`. Its arrays are
    split out of the unscoped buffers at entry and put back at the exit contents; the generator register goes into the
    call's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (QkvProj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call as a segment: entered with every unscoped buffer at `W3`, left with them at `W4`. Its three
    input windows read one array, so the entry deals that array's hold in three and the exit joins it again. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Attn.body_obligation (V3 m ρ) Attn.sh c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄) ⊢ iprop((pdats m ρ 1 c).arrays (pdats m ρ 1 c).A ∗ Pipeline.unscopedRest spec1 c (V3 m ρ c)) :=
      Attn.arrays_in (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c)) ⊢ (unscopedBufs c (V4 m ρ c) : sProp 𝕄) :=
      Attn.arrays_out (V3 m ρ) c (V4 m ρ c) (W4_out m ρ c) (fun b hb => W4_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `W5`, left with them at `W6`. Its arrays are
    split out of the unscoped buffers at entry and put back at the exit contents; the generator register goes into the
    call's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (OutProj.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub fresh0 (W0 m ρ)),
    .region (reg0 m ρ),
    .host (hseg hostOps1 hostOps1_sub fresh1 (W2 m ρ)),
    .region (reg1 m ρ),
    .host (hseg hostOps2 hostOps2_sub fresh2 (W4 m ρ)),
    .region (reg2 m ρ),
    .host (hseg hostOps3 hostOps3_sub fresh3 (W6 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitr [HO]
      swap; · iexact HO
      isplitl [Hh]; · iexact Hh
      iexact Hp⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments end as launched -/

/-- Argument 0 ends as launched: no host operation writes it and no call's output array is it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 1 ends as launched: no host operation writes it and no call's output array is it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 2 ends as launched: no host operation writes it and no call's output array is it. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 3 ends as launched: no host operation writes it and no call's output array is it. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 4 ends as launched: no host operation writes it and no call's output array is it. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- THE FRAME: every weakly fair execution of @main terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.KernelIdeal.Run

end
-- ==== Proof.Finite.lean ====
/-
  The precondition says of each argument array that every entry's absolute value is below +∞. Over the extended reals
  that makes every entry a real number: it is neither +∞ nor -∞.
-/
import proofs.«132017_j67611375174105_2_alg».proof.Defs
import proofs.«132017_j67611375174105_2_alg».proof.Proof.Gen.Pre_finite_inputs
import Idealize.ShloMosaic.Lib.ReduceAll
import Idealize.ShloMosaic.Lib.ValueIdx
import Idealize.ShloMosaic.Lib.Affine

noncomputable section

namespace Cert.Finite

open Idealize.ShloMosaic Idealize.ShloMosaic.TcCoe Idealize.ShloMosaic.ValueIdx Idealize.SL.Sem
open Cert.Pre_finite_inputs

/-- An extended real whose absolute value compares below the pattern of +∞ is a real. -/
theorem real_of_abs_lt (x : EReal) (h : Ideal.cmp .olt (max x (-x)) (Ideal.ofBits .f32 0x7F800000#32) = 1#1) : ∃ r : ℝ, x = r := by
  have hinf : Ideal.ofBits .f32 0x7F800000#32 = (⊤ : EReal) := by simp [Ideal.ofBits, Ideal.ieee]
  rw [hinf] at h
  unfold Ideal.cmp at h
  have hlt : max x (-x) < ⊤ := by
    by_contra hc
    simp [hc] at h
  induction x using EReal.rec with
  | bot => simp at hlt
  | coe r => exact ⟨r, rfl⟩
  | top => simp at hlt

instance : Subsingleton S_.Idx := ⟨fun a b => funext fun d => d.elim0⟩

variable [hPre_finite_inputs : Cert.Pre_finite_inputs.Facts]

/-- Under the precondition the input, the fused weight and the fused bias hold real numbers. -/
theorem args_real (a0 : FVec Ideal S2x2048x1024 .f32) (a1 : FVec Ideal S3072x1024 .f32) (a2 : FVec Ideal S3072 .f32)
    (a3 : FVec Ideal S1024x1024 .f32) (a4 : FVec Ideal S1024 .f32)
    (h : Cert.Pre_finite_inputs.fn (F := Ideal) a0 a1 a2 a3 a4 = fun _ => 1#1) :
    (∀ i, ∃ r : ℝ, a0 i = r) ∧ (∀ i, ∃ r : ℝ, a1 i = r) ∧ (∀ i, ∃ r : ℝ, a2 i = r) := by
  have h0 := congrFun h ix0
  dsimp only [Cert.Pre_finite_inputs.fn, Cert.Pre_finite_inputs.fn_part1] at h0
  change IntOp.andi _ _ = 1#1 at h0
  obtain ⟨h18, -⟩ := IntOp.andi_eq_one.mp h0
  change IntOp.andi _ _ = 1#1 at h18
  obtain ⟨h13, -⟩ := IntOp.andi_eq_one.mp h18
  change IntOp.andi _ _ = 1#1 at h13
  obtain ⟨h8, h12⟩ := IntOp.andi_eq_one.mp h13
  change IntOp.andi _ _ = 1#1 at h8
  obtain ⟨h3, h7⟩ := IntOp.andi_eq_one.mp h8
  refine ⟨fun i => real_of_abs_lt _ (Host.reduce_andi_all _ _ _ _ ix0 h3 i),
    fun i => real_of_abs_lt _ (Host.reduce_andi_all _ _ _ _ ix0 h7 i),
    fun i => real_of_abs_lt _ (Host.reduce_andi_all _ _ _ _ ix0 h12 i)⟩

end Cert.Finite

end
-- ==== Proof.Softmax.lean ====
/-
  The mathematics that joins the two programs, free of either.

  * The kernel scales the scores by the literal 0.125; the reference by 1 / sqrt 64. Over the extended reals both are
    the real 1/8.
  * A row of REAL scores has a real maximum m; the exponentials exp (σ s - m) are positive reals, and so is their sum ℓ.
  * Hence dividing the value-weighted sum of the exponentials by ℓ (the kernel's order) is the value-weighted sum of
    the exponentials each divided by ℓ (the reference's order): in ℝ, (∑ p v) / ℓ = ∑ (p / ℓ) v. On the extended
    reals this law fails at infinities, which is where finite inputs are used.
-/
import Idealize.ShloMosaic.PureOps.Ideal
import Mathlib.Data.Finset.Fold
import Mathlib.Data.Finset.Lattice.Fold

noncomputable section

namespace Cert.Softmax

open Idealize.ShloMosaic

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The literals -/

theorem ofBits_eighth : Ideal.ofBits .f32 0x3E000000#32 = ((1 / 8 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_negInf : Ideal.ofBits .f32 0xFF800000#32 = ⊥ := by
  simp [Ideal.ofBits, Ideal.ieee]
theorem ofBits_zero : Ideal.ofBits .f32 0x00000000#32 = 0 := by
  simp [Ideal.ofBits, Ideal.ieee]

/-- The reference's scale 1 / sqrt 64 is the kernel's literal 0.125: 64 is a perfect square. -/
theorem scale_eq :
    Ideal.div (Ideal.ofBits .f32 0x3F800000#32) (Ideal.sqrt (Ideal.ofBits .f32 0x42800000#32)) = Ideal.ofBits .f32 0x3E000000#32 := by
  have h8 : Ideal.sqrt (((64 : ℝ) : EReal)) = ((8 : ℝ) : EReal) := by
    show (if (64 : ℝ) < 0 then (⊥ : EReal) else (Real.sqrt 64 : EReal)) = _
    rw [if_neg (by norm_num)]
    congr 1
    rw [show (64 : ℝ) = 8 ^ 2 by norm_num]
    exact Real.sqrt_sq (by norm_num)
  rw [ofBits_one, ofBits_64, ofBits_eighth, h8, Ideal.div_coe (by norm_num : (8 : ℝ) ≠ 0), ← EReal.coe_mul]
  norm_num

/-! ## A row of real scores -/

/-- The maximum of 2048 reals, taken from -∞, is a real. -/
theorem fold_max_real (f : Fin 2048 → ℝ) :
    ∃ m : ℝ, (Finset.univ : Finset (Fin 2048)).fold max (⊥ : EReal) (fun s => (f s : EReal)) = (m : EReal) := by
  have hle : (Finset.univ : Finset (Fin 2048)).fold max (⊥ : EReal) (fun s => (f s : EReal))
      ≤ ((Finset.univ.sup' ⟨(0 : Fin 2048), Finset.mem_univ _⟩ f : ℝ) : EReal) :=
    (Finset.fold_max_le _).mpr ⟨bot_le, fun x _ => EReal.coe_le_coe_iff.mpr (Finset.le_sup' f (Finset.mem_univ x))⟩
  have hge : ((f 0 : ℝ) : EReal) ≤ (Finset.univ : Finset (Fin 2048)).fold max (⊥ : EReal) (fun s => (f s : EReal)) :=
    (Finset.le_fold_max _).mpr (Or.inr ⟨0, Finset.mem_univ _, le_rfl⟩)
  have hne_top := ne_top_of_le_ne_top (EReal.coe_ne_top _) hle
  have hne_bot := ne_bot_of_le_ne_bot (EReal.coe_ne_bot _) hge
  exact ⟨_, (EReal.coe_toReal hne_top hne_bot).symm⟩

/-- THE LAW: for real scores σ less a real m and real values v, dividing the value-weighted sum of the exponentials by
    their sum is the value-weighted sum of the exponentials each divided by their sum. -/
theorem normalize_comm (σ v : Fin 2048 → ℝ) (m : ℝ) :
    Ideal.div (∑ s : Fin 2048, Ideal.exp ((σ s : EReal) - (m : EReal)) * (v s : EReal)) (∑ s : Fin 2048, Ideal.exp ((σ s : EReal) - (m : EReal)))
      = ∑ s : Fin 2048, Ideal.div (Ideal.exp ((σ s : EReal) - (m : EReal))) (∑ s' : Fin 2048, Ideal.exp ((σ s' : EReal) - (m : EReal))) * (v s : EReal) := by
  have hp : ∀ s, Ideal.exp ((σ s : EReal) - (m : EReal)) = ((Real.exp (σ s - m) : ℝ) : EReal) := fun s => by
    rw [← EReal.coe_sub]; rfl
  simp only [hp]
  rw [← coe_sum]
  have hℓ : (∑ s : Fin 2048, Real.exp (σ s - m)) ≠ 0 :=
    (Finset.sum_pos (fun s _ => Real.exp_pos _) ⟨(0 : Fin 2048), Finset.mem_univ _⟩).ne'
  simp only [Ideal.div_coe hℓ, ← EReal.coe_mul, ← coe_sum]
  congr 1
  rw [Finset.sum_mul]
  exact Finset.sum_congr rfl fun s _ => by ring

end Cert.Softmax

end
-- ==== Proof.Spec.lean ====
/-
  What the two programs compute, index by index, as functions of the five argument arrays over the extended reals.

  proj b t o      the fused projection x · W_qkvᵀ + b_qkv; its 3072 columns are (slot, head, width): slot 0 the queries,
                  1 the keys, 2 the values
  score κ b h t s the scaled score of query position t against key position s in head h
  rmax, pexp, psum each row's maximum (from -∞), the exponentials of the scores less it, and their sum
  attnK           the kernel's order: the value-weighted sum of the exponentials, divided by their sum
  attnR           the reference's order: the value-weighted sum of the exponentials each divided by their sum
  outOf           the output projection · W_outᵀ + b_out of the heads laid side by side
  The two results are `outOf` of `attnK` at the kernel's scale and of `attnR` at the reference's; under real-valued
  x, W_qkv and b_qkv they are one array (`result_eq`).
-/
import proofs.«132017_j67611375174105_2_alg».proof.Proof.Softmax
import Idealize.ShloMosaic.Lib.ValueIdx

noncomputable section

namespace Cert.Spec

open Idealize.ShloMosaic Idealize.ShloMosaic.ValueIdx

abbrev SX : Shape := ⟨3, ![2, 2048, 1024]⟩
abbrev SWq : Shape := ⟨2, ![3072, 1024]⟩
abbrev SBq : Shape := ⟨1, ![3072]⟩
abbrev SWo : Shape := ⟨2, ![1024, 1024]⟩
abbrev SBo : Shape := ⟨1, ![1024]⟩

variable (x : SX.Idx → EReal) (wq : SWq.Idx → EReal) (bq : SBq.Idx → EReal) (wo : SWo.Idx → EReal) (bo : SBo.Idx → EReal)

/-- The fused projection. -/
def proj (b : Fin 2) (t : Fin 2048) (o : Fin 3072) : EReal :=
  (∑ k : Fin 1024, x (ix3 b t k) * wq (ix2 o k)) + bq (ix1 o)

/-- Column of the fused projection holding slot `j`, head `h`, width `e`. -/
def col (j : Fin 3) (h : Fin 16) (e : Fin 64) : Fin 3072 := ⟨1024 * j.val + 64 * h.val + e.val, by omega⟩

def score (κ : EReal) (b : Fin 2) (h : Fin 16) (t s : Fin 2048) : EReal :=
  (∑ e : Fin 64, proj x wq bq b t (col 0 h e) * proj x wq bq b s (col 1 h e)) * κ

def rmax (κ : EReal) (b : Fin 2) (h : Fin 16) (t : Fin 2048) : EReal :=
  (Finset.univ : Finset (Fin 2048)).fold max (⊥ : EReal) (fun s => score x wq bq κ b h t s)

def pexp (κ : EReal) (b : Fin 2) (h : Fin 16) (t s : Fin 2048) : EReal :=
  Ideal.exp (score x wq bq κ b h t s - rmax x wq bq κ b h t)

def psum (κ : EReal) (b : Fin 2) (h : Fin 16) (t : Fin 2048) : EReal := ∑ s : Fin 2048, pexp x wq bq κ b h t s

/-- The kernel's order. -/
def attnK (κ : EReal) (b : Fin 2) (t : Fin 2048) (h : Fin 16) (d : Fin 64) : EReal :=
  Ideal.div (∑ s : Fin 2048, pexp x wq bq κ b h t s * proj x wq bq b s (col 2 h d)) (psum x wq bq κ b h t)

/-- The reference's order. -/
def attnR (κ : EReal) (b : Fin 2) (t : Fin 2048) (h : Fin 16) (d : Fin 64) : EReal :=
  ∑ s : Fin 2048, Ideal.div (pexp x wq bq κ b h t s) (psum x wq bq κ b h t) * proj x wq bq b s (col 2 h d)

/-- The output projection of the heads laid side by side. -/
def outOf (attn : Fin 2 → Fin 2048 → Fin 16 → Fin 64 → EReal) (i : SX.Idx) : EReal :=
  (∑ c : Fin 1024, attn ⟨(i 0).val, (i 0).isLt⟩ ⟨(i 1).val, (i 1).isLt⟩ ⟨c.val / 64, by omega⟩ ⟨c.val % 64, by omega⟩
      * wo (ix2 (⟨(i 2).val, (i 2).isLt⟩ : Fin 1024) c))
    + bo (ix1 (⟨(i 2).val, (i 2).isLt⟩ : Fin 1024))

/-- The kernel program's result. -/
def resultK : SX.Idx → EReal := outOf wo bo (attnK x wq bq (Ideal.ofBits .f32 0x3E000000#32))
/-- The reference's result. -/
def resultR : SX.Idx → EReal :=
  outOf wo bo (attnR x wq bq (Ideal.div (Ideal.ofBits .f32 0x3F800000#32) (Ideal.sqrt (Ideal.ofBits .f32 0x42800000#32))))

/-- Under real-valued x, W_qkv and b_qkv the two results are one array: the scales agree, every score is a real, so
    every row has a real maximum, and the normalization law applies row by row. -/
theorem result_eq (hx : ∀ i, ∃ r : ℝ, x i = r) (hwq : ∀ i, ∃ r : ℝ, wq i = r) (hbq : ∀ i, ∃ r : ℝ, bq i = r) :
    resultK x wq bq wo bo = resultR x wq bq wo bo := by
  unfold resultK resultR
  rw [Softmax.scale_eq]
  choose xr hxr using hx
  choose wr hwr using hwq
  choose br hbr using hbq
  -- the projection is real
  have hproj : ∀ b t o, proj x wq bq b t o = (((∑ k : Fin 1024, xr (ix3 b t k) * wr (ix2 o k)) + br (ix1 o) : ℝ) : EReal) := fun b t o => by
    unfold proj
    simp only [hxr, hwr, hbr, ← EReal.coe_mul, ← Softmax.coe_sum, ← EReal.coe_add]
  -- so is every score at the scale 1/8
  have hscore : ∀ b h t s, ∃ r : ℝ, score x wq bq (Ideal.ofBits .f32 0x3E000000#32) b h t s = r := fun b h t s => by
    unfold score
    simp only [hproj, Softmax.ofBits_eighth, ← EReal.coe_mul, ← Softmax.coe_sum]
    exact ⟨_, rfl⟩
  choose σ hσ using hscore
  have hmax : ∀ b h t, ∃ m : ℝ, rmax x wq bq (Ideal.ofBits .f32 0x3E000000#32) b h t = m := fun b h t => by
    unfold rmax
    simp only [hσ]
    exact Softmax.fold_max_real _
  choose μ hμ using hmax
  refine congrArg (outOf wo bo) ?_
  funext b t h d
  unfold attnK attnR psum pexp
  simp only [hσ, hμ, hproj]
  exact Softmax.normalize_comm _ _ _

end Cert.Spec

end
-- ==== Proof.Ideal.HostReads.lean ====
/-
  What the host stretches between the calls write, read back off the fold of boundary contents: flattening and
  un-flattening reshapes, the two weight transposes, the narrowings to a shorter format, the bias rows.
-/
import proofs.«132017_j67611375174105_2_alg».proof.Proof.Ideal.Run
import Idealize.ShloMosaic.Lib.StableHlo.Run

set_option maxRecDepth 16384

noncomputable section

namespace Cert.KernelIdeal.Run

open Idealize.ShloMosaic Idealize.ShloMosaic.TcCoe Idealize.ShloMosaic.StableHlo Idealize.SL.Sem
open Cert.KernelIdeal Cert.KernelIdeal.Gen

variable {F : FTy → Type} [FloatOps F]
variable (m : (ℓ : Loc nD τ sig) → Buf (Elt F) ℓ) (ρ : Dev nD → PrngReg)

/-- The first call's left operand: the input flattened to rows and narrowed. -/
theorem W1_v2 (c : Dev nD) : W1 m ρ c (Proc.devRef .tc main_v2)
    = truncf .bf16 (shapeCast S4096x1024 (m ((c : Thread nD τ).loc main_arg0)) shapeCasts_S2x2048x1024_S4096x1024) bitsLt_bf16_f32 := by
  show StableHlo.after hostOps0 _ (Proc.devRef .tc main_v2) = _
  after_results
  all_goals rfl
/-- Its right operand: the fused weight transposed and narrowed. -/
theorem W1_v3 (c : Dev nD) : W1 m ρ c (Proc.devRef .tc main_v3)
    = truncf .bf16 (transpose S1024x3072 [1, 0] (m ((c : Thread nD τ).loc main_arg1)) transposes_S3072x1024_S1024x3072_1_0) bitsLt_bf16_f32 := by
  show StableHlo.after hostOps0 _ (Proc.devRef .tc main_v3) = _
  after_results
  all_goals rfl
/-- Its bias row. -/
theorem W1_v4 (c : Dev nD) : W1 m ρ c (Proc.devRef .tc main_v4)
    = shapeCast S1x3072 (m ((c : Thread nD τ).loc main_arg2)) shapeCasts_S3072_S1x3072 := by
  show StableHlo.after hostOps0 _ (Proc.devRef .tc main_v4) = _
  after_results
  all_goals rfl
/-- The attention call's array: the first call's output split into (batch, position, q/k/v, head, width). -/
theorem W3_v6 (c : Dev nD) : W3 m ρ c (Proc.devRef .tc main_v6)
    = shapeCast S2x2048x3x16x64 (W2 m ρ c (Proc.devRef .tc main_v5)) shapeCasts_S4096x3072_S2x2048x3x16x64 := by
  show StableHlo.after hostOps1 _ (Proc.devRef .tc main_v6) = _
  after_results
  all_goals rfl
/-- The last call's left operand: the attention output flattened to rows. -/
theorem W5_v8 (c : Dev nD) : W5 m ρ c (Proc.devRef .tc main_v8)
    = shapeCast S4096x1024 (W4 m ρ c (Proc.devRef .tc main_v7)) shapeCasts_S2x2048x1024_S4096x1024 := by
  show StableHlo.after hostOps2 _ (Proc.devRef .tc main_v8) = _
  after_results
  all_goals rfl
/-- Its right operand: the output weight transposed and narrowed. -/
theorem W5_v10 (c : Dev nD) : W5 m ρ c (Proc.devRef .tc main_v10)
    = truncf .bf16 (transpose S1024x1024 [1, 0] (W4 m ρ c (Proc.devRef .tc main_arg3)) transposes_S1024x1024_S1024x1024_1_0) bitsLt_bf16_f32 := by
  show StableHlo.after hostOps2 _ (Proc.devRef .tc main_v10) = _
  after_results
  all_goals rfl
/-- Its bias row. -/
theorem W5_v11 (c : Dev nD) : W5 m ρ c (Proc.devRef .tc main_v11)
    = shapeCast S1x1024 (W4 m ρ c (Proc.devRef .tc main_arg4)) shapeCasts_S1024_S1x1024 := by
  show StableHlo.after hostOps2 _ (Proc.devRef .tc main_v11) = _
  after_results
  all_goals rfl
/-- The result: the last call's output un-flattened. -/
theorem W7_v13 (c : Dev nD) : W7 m ρ c (Proc.devRef .tc main_v13)
    = shapeCast S2x2048x1024 (W6 m ρ c (Proc.devRef .tc main_v12)) shapeCasts_S4096x1024_S2x2048x1024 := by
  show StableHlo.after hostOps3 _ (Proc.devRef .tc main_v13) = _
  after_results
  all_goals rfl

end Cert.KernelIdeal.Run

end
-- ==== Proof.Ideal.ProjPayload.lean ====
/-
  The projection calls' body at an index: entry (p, q) of the stored tile is the sum over k of the left block's
  (p, k) entry times the right block's (k, q) entry, plus entry q of the bias row — over the extended reals, where the
  narrowing to a shorter float format is the identity.
-/
import proofs.«132017_j67611375174105_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ProjValue

open Idealize.ShloMosaic Idealize.ShloMosaic.ValueIdx Idealize.SL.Sem
open Cert.KernelIdeal Cert.KernelIdeal.Gen

/-- The left operand's row is the entry's row, -/
theorem lhs_row (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- the right operand's column the entry's column. -/
theorem rhs_col (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix unit's product into a zero accumulator, read at entry (p, q): a sum over the shared axis. -/
theorem matmul_entry (x0 x1 : FVec Ideal S1024x1024 .bf16) (p q : Fin 1024) :
    matmul dot_S1024x1024_S1024x1024_S1024x1024_1_0_0_1_n_n none x0 x1 (constant (F := Ideal) S1024x1024 .f32 0x00000000#32) (ix2 p q)
      = ∑ k : Fin 1024, x0 (ix2 p k) * x1 (ix2 k q) := by
  refine (Ideal.matmul_constant_zero_apply dot_S1024x1024_S1024x1024_S1024x1024_1_0_0_1_n_n none x0 x1 (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k :=
    funext fun a => Fin.ext (by
      match a with
      | ⟨0, _⟩ => exact lhs_row _ _
      | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q :=
    funext fun a => Fin.ext (by
      match a with
      | ⟨0, _⟩ => exact (dot_S1024x1024_S1024x1024_S1024x1024_1_0_0_1_n_n.rhsIdx_val_of_single rfl _ _).trans hk
      | ⟨1, _⟩ => exact rhs_col _ _)
  rw [el, er]

/-- The first projection's stored tile at entry (p, q). -/
theorem pay0_entry (x0 x1 : FVec Ideal S1024x1024 .bf16) (x2 : FVec Ideal S1x1024 .f32) (p q : Fin 1024) :
    k0_pay1 (F := Ideal) x0 x1 x2 (ix2 p q) = (∑ k : Fin 1024, x0 (ix2 p k) * x1 (ix2 k q)) + x2 (ix2 (0 : Fin 1) q) := by
  unfold k0_pay1
  rw [shapeCast_self, shapeCast_self, shapeCast_self]
  show (matmul dot_S1024x1024_S1024x1024_S1024x1024_1_0_0_1_n_n none x0 x1 (constant (F := Ideal) S1024x1024 .f32 0x00000000#32) (ix2 p q) : EReal)
      + (broadcastTo S1024x1024 x2 broadcasts_S1x1024_S1024x1024 (ix2 p q) : EReal) = _
  refine congrArg₂ (· + ·) (matmul_entry x0 x1 p q) ?_
  exact broadcastTo_1b_ab_apply x2 _ p q

/-- The last projection's stored tile at entry (p, q). -/
theorem pay2_entry (x0 x1 : FVec Ideal S1024x1024 .bf16) (x2 : FVec Ideal S1x1024 .f32) (p q : Fin 1024) :
    k2_pay1 (F := Ideal) x0 x1 x2 (ix2 p q) = (∑ k : Fin 1024, x0 (ix2 p k) * x1 (ix2 k q)) + x2 (ix2 (0 : Fin 1) q) := by
  unfold k2_pay1
  rw [shapeCast_self, shapeCast_self, shapeCast_self]
  show (matmul dot_S1024x1024_S1024x1024_S1024x1024_1_0_0_1_n_n none x0 x1 (constant (F := Ideal) S1024x1024 .f32 0x00000000#32) (ix2 p q) : EReal)
      + (broadcastTo S1024x1024 x2 broadcasts_S1x1024_S1024x1024 (ix2 p q) : EReal) = _
  refine congrArg₂ (· + ·) (matmul_entry x0 x1 p q) ?_
  exact broadcastTo_1b_ab_apply x2 _ p q

end Cert.KernelIdeal.ProjValue

end
-- ==== Proof.Ideal.QkvValue.lean ====
/-
  The first projection call's output array after its run, as ONE function of the three arrays it reads: entry
  (r, o) is the sum over k of A(r, k) · B(k, o) plus bias(0, o). Each grid point writes back the 1024 x 1024 block of
  that function at its block row and block column, and the blocks tile the array.
-/
import proofs.«132017_j67611375174105_2_alg».proof.Proof.Ideal.QkvProj
import proofs.«132017_j67611375174105_2_alg».proof.Proof.Ideal.ProjPayload

set_option maxRecDepth 16384

noncomputable section

namespace Cert.KernelIdeal.QkvProj

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product-plus-bias array. -/
def prod (A : S4096x1024.Idx → EReal) (B : S1024x3072.Idx → EReal) (bias : S1x3072.Idx → EReal) : S4096x3072.Idx → EReal := fun i =>
  (∑ k : Fin 1024, A (ix2 (⟨(i 0).val, idx2_lt0 i⟩ : Fin 4096) k) * B (ix2 k (⟨(i 1).val, idx2_lt1 i⟩ : Fin 3072)))
    + bias (ix2 (0 : Fin 1) (⟨(i 1).val, idx2_lt1 i⟩ : Fin 3072))

/-- The printed index maps over the grid: the left block follows the output's block row, the right block and the
    bias block its block column. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 3 ∧ win0_3.index t (1 : Fin 2) ≤ 2 :=
  (by decide +kernel : ∀ t : Fin grid0.N, _)

/-- Every block of the output is some point's. -/
theorem idx_onto : ∀ (q0 : Fin 4) (q1 : Fin 3), ∃ t : Fin cfg0.N, win0_3.index t = ![q0.val, q1.val] :=
  (by decide +kernel : ∀ (q0 : Fin 4) (q1 : Fin 3), ∃ t : Fin grid0.N, win0_3.index t = ![q0.val, q1.val])

/-- Block `t` of the product-plus-bias array, read at (p, q), from the three input blocks at `t`: the left block's
    row p, the right block's column q, the bias block's entry q. -/
theorem read_prod (A : S4096x1024.Idx → EReal) (B : S1024x3072.Idx → EReal) (bias : S1x3072.Idx → EReal) (t : Fin cfg0.N) (p q : Fin 1024) :
    (∑ kk : Fin 1024, A (((cfg0.win 0).blk t).view.emb (ix2 p kk)) * B (((cfg0.win 1).blk t).view.emb (ix2 kk q)))
        + bias (((cfg0.win 2).blk t).view.emb (ix2 (0 : Fin 1) q))
      = prod A B bias (((cfg0.win 3).blk t).view.emb (ix2 p q)) := by
  obtain ⟨e0, e1, e2, e3, e4, e5, e6, e7⟩ := idx_facts t
  unfold prod
  have hp : p.val < 1024 := p.isLt
  have hq : q.val < 1024 := q.isLt
  refine congrArg₂ (· + ·) (Finset.sum_congr rfl fun kk _ => congrArg₂ (· * ·) (congrArg A ?_) (congrArg B ?_)) (congrArg bias ?_)
  · have hk : kk.val < 1024 := kk.isLt
    funext a; apply Fin.ext
    match a with
    | ⟨0, _⟩ => show win0_0.index t (0 : Fin 2) * 1024 + 1 * p.val = win0_3.index t (0 : Fin 2) * 1024 + 1 * p.val; omega
    | ⟨1, _⟩ => show win0_0.index t (1 : Fin 2) * 1024 + 1 * kk.val = kk.val; omega
  · have hk : kk.val < 1024 := kk.isLt
    funext a; apply Fin.ext
    match a with
    | ⟨0, _⟩ => show win0_1.index t (0 : Fin 2) * 1024 + 1 * kk.val = kk.val; omega
    | ⟨1, _⟩ => show win0_1.index t (1 : Fin 2) * 1024 + 1 * q.val = win0_3.index t (1 : Fin 2) * 1024 + 1 * q.val; omega
  · funext a; apply Fin.ext
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega

/-- What point `t` writes back is block `t` of the product-plus-bias array of the arrays as the call finds them. -/
theorem flushed_eq (c : Dev nD) (t : Fin cfg0.N) :
    (dat V c).flushed 3 t = ((cfg0.win 3).blk t).view.read (Elt Ideal) (prod (V c main_v2) (V c main_v3) (V c main_v4)) := by
  show (cfg0.win 3).cut (grid0.coords t) ((dat V c).after 3 t) = _
  rw [after_3]
  unfold tile
  rw [View.canon_unit_zero hz]
  simp only [View.ld_unit_zero (S := S1024x1024) hz, View.ld_unit_zero (S := S1x1024) hz]
  funext y
  obtain ⟨p, q, rfl⟩ : ∃ (p q : Fin 1024), y = ix2 p q := ⟨y 0, y 1, eq_ix2 y⟩
  refine (ProjValue.pay0_entry _ _ _ p q).trans ?_
  exact read_prod (V c main_v2) (V c main_v3) (V c main_v4) t p q

/-- An index of the array is in point `t`'s block iff each coordinate is in the block's range on its axis. -/
theorem mem_blk (t : Fin cfg0.N) (i : S4096x3072.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v5).slice (win0_3.rect t)).set ↔ _
  rw [View.set_slice_whole, Rect.mem_set_unit]
  exact Iff.rfl

/-- The blocks tile the array. -/
theorem cover (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE OUTPUT ARRAY after the call: the product-plus-bias of the arrays it read. -/
theorem out_eq (c : Dev nD) : (dat V c).arrAt 3 cfg0.N = prod (V c main_v2) (V c main_v3) (V c main_v4) :=
  (dat V c).arrAt_eq_of_cover 3 _ (fun t _ => flushed_eq V c t) cover

end Cert.KernelIdeal.QkvProj

end
-- ==== Proof.Ideal.OutValue.lean ====
/-
  The last projection call's output array after its run, as ONE function of the three arrays it reads: entry
  (r, o) is the sum over k of A(r, k) · B(k, o) plus bias(0, o). Each grid point writes back the 1024 x 1024 block of
  that function at its block row and block column, and the blocks tile the array.
-/
import proofs.«132017_j67611375174105_2_alg».proof.Proof.Ideal.OutProj
import proofs.«132017_j67611375174105_2_alg».proof.Proof.Ideal.ProjPayload

set_option maxRecDepth 16384

noncomputable section

namespace Cert.KernelIdeal.OutProj

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product-plus-bias array. -/
def prod (A : S4096x1024.Idx → EReal) (B : S1024x1024.Idx → EReal) (bias : S1x1024.Idx → EReal) : S4096x1024.Idx → EReal := fun i =>
  (∑ k : Fin 1024, A (ix2 (⟨(i 0).val, idx2_lt0 i⟩ : Fin 4096) k) * B (ix2 k (⟨(i 1).val, idx2_lt1 i⟩ : Fin 1024)))
    + bias (ix2 (0 : Fin 1) (⟨(i 1).val, idx2_lt1 i⟩ : Fin 1024))

/-- The printed index maps over the grid: the left block follows the output's block row, the right block and the
    bias block its block column. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = win2_3.index t (1 : Fin 2)
    ∧ win2_2.index t (0 : Fin 2) = 0
    ∧ win2_2.index t (1 : Fin 2) = win2_3.index t (1 : Fin 2)
    ∧ win2_3.index t (0 : Fin 2) ≤ 3 ∧ win2_3.index t (1 : Fin 2) ≤ 0 :=
  (by decide +kernel : ∀ t : Fin grid2.N, _)

/-- Every block of the output is some point's. -/
theorem idx_onto : ∀ (q0 : Fin 4) (q1 : Fin 1), ∃ t : Fin cfg2.N, win2_3.index t = ![q0.val, q1.val] :=
  (by decide +kernel : ∀ (q0 : Fin 4) (q1 : Fin 1), ∃ t : Fin grid2.N, win2_3.index t = ![q0.val, q1.val])

/-- Block `t` of the product-plus-bias array, read at (p, q), from the three input blocks at `t`: the left block's
    row p, the right block's column q, the bias block's entry q. -/
theorem read_prod (A : S4096x1024.Idx → EReal) (B : S1024x1024.Idx → EReal) (bias : S1x1024.Idx → EReal) (t : Fin cfg2.N) (p q : Fin 1024) :
    (∑ kk : Fin 1024, A (((cfg2.win 0).blk t).view.emb (ix2 p kk)) * B (((cfg2.win 1).blk t).view.emb (ix2 kk q)))
        + bias (((cfg2.win 2).blk t).view.emb (ix2 (0 : Fin 1) q))
      = prod A B bias (((cfg2.win 3).blk t).view.emb (ix2 p q)) := by
  obtain ⟨e0, e1, e2, e3, e4, e5, e6, e7⟩ := idx_facts t
  unfold prod
  have hp : p.val < 1024 := p.isLt
  have hq : q.val < 1024 := q.isLt
  refine congrArg₂ (· + ·) (Finset.sum_congr rfl fun kk _ => congrArg₂ (· * ·) (congrArg A ?_) (congrArg B ?_)) (congrArg bias ?_)
  · have hk : kk.val < 1024 := kk.isLt
    funext a; apply Fin.ext
    match a with
    | ⟨0, _⟩ => show win2_0.index t (0 : Fin 2) * 1024 + 1 * p.val = win2_3.index t (0 : Fin 2) * 1024 + 1 * p.val; omega
    | ⟨1, _⟩ => show win2_0.index t (1 : Fin 2) * 1024 + 1 * kk.val = kk.val; omega
  · have hk : kk.val < 1024 := kk.isLt
    funext a; apply Fin.ext
    match a with
    | ⟨0, _⟩ => show win2_1.index t (0 : Fin 2) * 1024 + 1 * kk.val = kk.val; omega
    | ⟨1, _⟩ => show win2_1.index t (1 : Fin 2) * 1024 + 1 * q.val = win2_3.index t (1 : Fin 2) * 1024 + 1 * q.val; omega
  · funext a; apply Fin.ext
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega

/-- What point `t` writes back is block `t` of the product-plus-bias array of the arrays as the call finds them. -/
theorem flushed_eq (c : Dev nD) (t : Fin cfg2.N) :
    (dat V c).flushed 3 t = ((cfg2.win 3).blk t).view.read (Elt Ideal) (prod (V c main_v8) (V c main_v10) (V c main_v11)) := by
  show (cfg2.win 3).cut (grid2.coords t) ((dat V c).after 3 t) = _
  rw [after_3]
  unfold tile
  rw [View.canon_unit_zero hz]
  simp only [View.ld_unit_zero (S := S1024x1024) hz, View.ld_unit_zero (S := S1x1024) hz]
  funext y
  obtain ⟨p, q, rfl⟩ : ∃ (p q : Fin 1024), y = ix2 p q := ⟨y 0, y 1, eq_ix2 y⟩
  refine (ProjValue.pay2_entry _ _ _ p q).trans ?_
  exact read_prod (V c main_v8) (V c main_v10) (V c main_v11) t p q

/-- An index of the array is in point `t`'s block iff each coordinate is in the block's range on its axis. -/
theorem mem_blk (t : Fin cfg2.N) (i : S4096x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v12).slice (win2_3.rect t)).set ↔ _
  rw [View.set_slice_whole, Rect.mem_set_unit]
  exact Iff.rfl

/-- The blocks tile the array. -/
theorem cover (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto ⟨(i 0).val / 1024, by omega⟩ ⟨(i 1).val / 1024, by omega⟩
  have q0 : win2_3.index t (0 : Fin 2) = (i 0).val / 1024 := congrFun ht 0
  have q1 : win2_3.index t (1 : Fin 2) = (i 1).val / 1024 := congrFun ht 1
  refine ⟨t, flush2_3 t, ?_⟩
  rw [mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- THE OUTPUT ARRAY after the call: the product-plus-bias of the arrays it read. -/
theorem out_eq (c : Dev nD) : (dat V c).arrAt 3 cfg2.N = prod (V c main_v8) (V c main_v10) (V c main_v11) :=
  (dat V c).arrAt_eq_of_cover 3 _ (fun t _ => flushed_eq V c t) cover

end Cert.KernelIdeal.OutProj

end
-- ==== Proof.Ideal.AttnHead.lean ====
/-
  One attention head as a function of its query tile Q (256 x 64), keys K and values V (2048 x 64): the scores
  Q · Kᵀ / 8, each row's maximum, the exponentials of the scores less their row's maximum, each row's sum of them, and
  the exponentials' product with V divided row by row by that sum. The body writes the sixteen heads with the same
  operations grouped differently from head to head; each grouping is this one function of the head's three slices.
-/
import proofs.«132017_j67611375174105_2_alg».proof.Proof.Ideal.Attn

set_option maxRecDepth 16384

noncomputable section

namespace Cert.KernelIdeal.Attn

open Idealize.ShloMosaic Idealize.SL.Sem
open Cert.KernelIdeal Cert.KernelIdeal.Gen

variable {F : FTy → Type} [FloatOps F]

/-- One head. -/
def headFn (Q : FVec F S256x64 .bf16) (K V : FVec F S2048x64 .bf16) : FVec F S256x64 .bf16 :=
  have cst : FVec F S256x2048 .f32 := constant S256x2048 .f32 0x00000000#32
  have v6 : FVec F S256x2048 .f32 := matmul dot_S256x64_S2048x64_S256x2048_1_1_0_0_n_n none Q K cst
  have cst_14 : F .f32 := Scalar.ofBits .f32 0x3E000000#32
  have v7 : FVec F S256x2048 .f32 := broadcast S256x2048 cst_14
  have v8 : FVec F S256x2048 .f32 := mulf v6 v7
  have v9 : FVec F S256 .f32 := multiReduction .maximumf [1] S256 v8 0xFF800000#32 reduces_S256x2048_S256 (.inl rfl) rfl
  have v10 : FVec F S256x1 .f32 := shapeCast S256x1 v9 shapeCasts_S256_S256x1
  have v11 : FVec F S256x2048 .f32 := broadcastTo S256x2048 v10 broadcasts_S256x1_S256x2048
  have v12 : FVec F S256x2048 .f32 := subf v8 v11
  have v13 : FVec F S256x2048 .f32 := exp v12
  have v14 : FVec F S256 .f32 := multiReduction .add [1] S256 v13 0x00000000#32 reduces_S256x2048_S256 (.inl rfl) rfl
  have v15 : FVec F S256x1 .f32 := shapeCast S256x1 v14 shapeCasts_S256_S256x1
  have v16 : FVec F S256x2048 .bf16 := truncf .bf16 v13 bitsLt_bf16_f32
  have cst_17 : FVec F S256x64 .f32 := constant S256x64 .f32 0x00000000#32
  have v17 : FVec F S256x64 .f32 := matmul dot_S256x2048_S2048x64_S256x64_1_0_0_1_n_n none v16 V cst_17
  have v18 : FVec F S256x64 .f32 := broadcastTo S256x64 v15 broadcasts_S256x1_S256x64
  have v19 : FVec F S256x64 .f32 := divf v17 v18
  truncf .bf16 v19 bitsLt_bf16_f32

/-- A head's stored piece from its three loaded slices: the slices flattened, the head, a leading unit axis. -/
def headOf (q : Vec F S1x256x1x1x64 .bf16) (k v : Vec F S1x2048x1x1x64 .bf16) : FVec F S1x256x64 .bf16 :=
  shapeCast S1x256x64 (headFn (shapeCast S256x64 q shapeCasts_S1x256x1x1x64_S256x64)
    (shapeCast S2048x64 k shapeCasts_S1x2048x1x1x64_S2048x64) (shapeCast S2048x64 v shapeCasts_S1x2048x1x1x64_S2048x64)) shapeCasts_S256x64_S1x256x64

theorem head0_eq (x0 : Vec F S1x256x1x16x64 .bf16) (x1 x2 : Vec F S1x2048x1x16x64 .bf16) :
    head0 x0 x1 x2 = headOf (View.ld x0 qR0) (View.ld x1 kR0) (View.ld x2 kR0) := rfl
theorem head1_eq (x0 : Vec F S1x256x1x16x64 .bf16) (x1 x2 : Vec F S1x2048x1x16x64 .bf16) :
    head1 x0 x1 x2 = headOf (View.ld x0 qR1) (View.ld x1 kR1) (View.ld x2 kR1) := rfl
theorem head2_eq (x0 : Vec F S1x256x1x16x64 .bf16) (x1 x2 : Vec F S1x2048x1x16x64 .bf16) :
    head2 x0 x1 x2 = headOf (View.ld x0 qR2) (View.ld x1 kR2) (View.ld x2 kR2) := rfl
theorem head3_eq (x0 : Vec F S1x256x1x16x64 .bf16) (x1 x2 : Vec F S1x2048x1x16x64 .bf16) :
    head3 x0 x1 x2 = headOf (View.ld x0 qR3) (View.ld x1 kR3) (View.ld x2 kR3) := rfl
theorem head4_eq (x0 : Vec F S1x256x1x16x64 .bf16) (x1 x2 : Vec F S1x2048x1x16x64 .bf16) :
    head4 x0 x1 x2 = headOf (View.ld x0 qR4) (View.ld x1 kR4) (View.ld x2 kR4) := rfl
theorem head5_eq (x0 : Vec F S1x256x1x16x64 .bf16) (x1 x2 : Vec F S1x2048x1x16x64 .bf16) :
    head5 x0 x1 x2 = headOf (View.ld x0 qR5) (View.ld x1 kR5) (View.ld x2 kR5) := rfl
theorem head6_eq (x0 : Vec F S1x256x1x16x64 .bf16) (x1 x2 : Vec F S1x2048x1x16x64 .bf16) :
    head6 x0 x1 x2 = headOf (View.ld x0 qR6) (View.ld x1 kR6) (View.ld x2 kR6) := rfl
theorem head7_eq (x0 : Vec F S1x256x1x16x64 .bf16) (x1 x2 : Vec F S1x2048x1x16x64 .bf16) :
    head7 x0 x1 x2 = headOf (View.ld x0 qR7) (View.ld x1 kR7) (View.ld x2 kR7) := rfl
theorem head8_eq (x0 : Vec F S1x256x1x16x64 .bf16) (x1 x2 : Vec F S1x2048x1x16x64 .bf16) :
    head8 x0 x1 x2 = headOf (View.ld x0 qR8) (View.ld x1 kR8) (View.ld x2 kR8) := rfl
theorem head9_eq (x0 : Vec F S1x256x1x16x64 .bf16) (x1 x2 : Vec F S1x2048x1x16x64 .bf16) :
    head9 x0 x1 x2 = headOf (View.ld x0 qR9) (View.ld x1 kR9) (View.ld x2 kR9) := rfl
theorem head10_eq (x0 : Vec F S1x256x1x16x64 .bf16) (x1 x2 : Vec F S1x2048x1x16x64 .bf16) :
    head10 x0 x1 x2 = headOf (View.ld x0 qR10) (View.ld x1 kR10) (View.ld x2 kR10) := rfl
theorem head11_eq (x0 : Vec F S1x256x1x16x64 .bf16) (x1 x2 : Vec F S1x2048x1x16x64 .bf16) :
    head11 x0 x1 x2 = headOf (View.ld x0 qR11) (View.ld x1 kR11) (View.ld x2 kR11) := rfl
theorem head12_eq (x0 : Vec F S1x256x1x16x64 .bf16) (x1 x2 : Vec F S1x2048x1x16x64 .bf16) :
    head12 x0 x1 x2 = headOf (View.ld x0 qR12) (View.ld x1 kR12) (View.ld x2 kR12) := rfl
theorem head13_eq (x0 : Vec F S1x256x1x16x64 .bf16) (x1 x2 : Vec F S1x2048x1x16x64 .bf16) :
    head13 x0 x1 x2 = headOf (View.ld x0 qR13) (View.ld x1 kR13) (View.ld x2 kR13) := rfl
theorem head14_eq (x0 : Vec F S1x256x1x16x64 .bf16) (x1 x2 : Vec F S1x2048x1x16x64 .bf16) :
    head14 x0 x1 x2 = headOf (View.ld x0 qR14) (View.ld x1 kR14) (View.ld x2 kR14) := rfl
theorem head15_eq (x0 : Vec F S1x256x1x16x64 .bf16) (x1 x2 : Vec F S1x2048x1x16x64 .bf16) :
    head15 x0 x1 x2 = headOf (View.ld x0 qR15) (View.ld x1 kR15) (View.ld x2 kR15) := rfl

end Cert.KernelIdeal.Attn

end
-- ==== Proof.Ideal.AttnHeadValue.lean ====
/-
  One attention head read at an index, over the extended reals: entry (r, d) of the head of Q, K, V is the sum over the
  2048 key positions s of p(r, s) · V(s, d), divided by the sum over s of p(r, s), where p(r, s) is the exponential of
  the score of row r against key s less row r's maximum score, and the score is (∑ₑ Q(r, e) · K(s, e)) times 1/8. It
  depends on Q only through its row r.
-/
import proofs.«132017_j67611375174105_2_alg».proof.Proof.Ideal.AttnHead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Attn

open Idealize.ShloMosaic Idealize.ShloMosaic.ValueIdx Idealize.SL.Sem
open Cert.KernelIdeal Cert.KernelIdeal.Gen

/-! ## The two matrix products at an entry -/

theorem qk_lhs_row (i : S256x2048.Idx) (q : dot_S256x64_S2048x64_S256x2048_1_1_0_0_n_n.contr.Idx) : (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_rhs_row (i : S256x2048.Idx) (q : dot_S256x64_S2048x64_S256x2048_1_1_0_0_n_n.contr.Idx) : (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl

/-- Queries against keys: both operands contracted on their width axis. -/
theorem qk_entry (Q : FVec Ideal S256x64 .bf16) (K : FVec Ideal S2048x64 .bf16) (r : Fin 256) (s : Fin 2048) :
    matmul dot_S256x64_S2048x64_S256x2048_1_1_0_0_n_n none Q K (constant (F := Ideal) S256x2048 .f32 0x00000000#32) (ix2 r s)
      = ∑ e : Fin 64, Q (ix2 r e) * K (ix2 s e) := by
  refine (Ideal.matmul_constant_zero_apply dot_S256x64_S2048x64_S256x2048_1_1_0_0_n_n none Q K (ix2 r s)).trans ?_
  rw [← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 r s) ((contrEquiv1 dot_S256x64_S2048x64_S256x2048_1_1_0_0_n_n 64 rfl rfl).symm k) = ix2 r k :=
    funext fun a => Fin.ext (by
      match a with
      | ⟨0, _⟩ => exact qk_lhs_row _ _
      | ⟨1, _⟩ => exact (dot_S256x64_S2048x64_S256x2048_1_1_0_0_n_n.lhsIdx_val_of_single rfl _ _).trans hk)
  have er : dot_S256x64_S2048x64_S256x2048_1_1_0_0_n_n.rhsIdx (ix2 r s) ((contrEquiv1 dot_S256x64_S2048x64_S256x2048_1_1_0_0_n_n 64 rfl rfl).symm k) = ix2 s k :=
    funext fun a => Fin.ext (by
      match a with
      | ⟨0, _⟩ => exact qk_rhs_row _ _
      | ⟨1, _⟩ => exact (dot_S256x64_S2048x64_S256x2048_1_1_0_0_n_n.rhsIdx_val_of_single rfl _ _).trans hk)
  rw [el, er]

theorem pv_lhs_row (i : S256x64.Idx) (q : dot_S256x2048_S2048x64_S256x64_1_0_0_1_n_n.contr.Idx) : (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem pv_rhs_col (i : S256x64.Idx) (q : dot_S256x2048_S2048x64_S256x64_1_0_0_1_n_n.contr.Idx) : (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Exponentials against values. -/
theorem pv_entry (P : FVec Ideal S256x2048 .bf16) (V : FVec Ideal S2048x64 .bf16) (r : Fin 256) (d : Fin 64) :
    matmul dot_S256x2048_S2048x64_S256x64_1_0_0_1_n_n none P V (constant (F := Ideal) S256x64 .f32 0x00000000#32) (ix2 r d)
      = ∑ s : Fin 2048, P (ix2 r s) * V (ix2 s d) := by
  refine (Ideal.matmul_constant_zero_apply dot_S256x2048_S2048x64_S256x64_1_0_0_1_n_n none P V (ix2 r d)).trans ?_
  rw [← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d) ((contrEquiv1 dot_S256x2048_S2048x64_S256x64_1_0_0_1_n_n 2048 rfl rfl).symm k) = ix2 r k :=
    funext fun a => Fin.ext (by
      match a with
      | ⟨0, _⟩ => exact pv_lhs_row _ _
      | ⟨1, _⟩ => exact (dot_S256x2048_S2048x64_S256x64_1_0_0_1_n_n.lhsIdx_val_of_single rfl _ _).trans hk)
  have er : dot_S256x2048_S2048x64_S256x64_1_0_0_1_n_n.rhsIdx (ix2 r d) ((contrEquiv1 dot_S256x2048_S2048x64_S256x64_1_0_0_1_n_n 2048 rfl rfl).symm k) = ix2 k d :=
    funext fun a => Fin.ext (by
      match a with
      | ⟨0, _⟩ => exact (dot_S256x2048_S2048x64_S256x64_1_0_0_1_n_n.rhsIdx_val_of_single rfl _ _).trans hk
      | ⟨1, _⟩ => exact pv_rhs_col _ _)
  rw [el, er]

/-! ## The row reductions and the column broadcast -/

/-- A row's maximum from -∞. -/
theorem rowmax_entry (src : FVec Ideal S256x2048 .f32) (h : S256x2048.Reduces [1] S256) (hφ : FKind.Formats .f32)
    (hacc : (0xFF800000#32 : BitVec 32) = FKind.maximumf.neutral .f32 hφ) (r : Fin 256) :
    multiReduction .maximumf [1] S256 src 0xFF800000#32 h hφ hacc (ix1 r)
      = (Finset.univ : Finset (Fin 2048)).fold max (Ideal.ofBits .f32 0xFF800000#32) (fun s => src (ix2 r s)) := by
  refine (Ideal.multiReduction_maximumf_single src 0xFF800000#32 h hφ hacc (ix1 r)).trans ?_
  refine Finset.fold_congr fun s _ => ?_
  exact congrArg src (funext fun a => Fin.ext (by match a with | ⟨0, _⟩ => rfl | ⟨1, _⟩ => rfl))

/-- A row's sum. -/
theorem rowsum_entry (src : FVec Ideal S256x2048 .f32) (h : S256x2048.Reduces [1] S256) (hφ : FKind.Formats .f32)
    (hacc : (0x00000000#32 : BitVec 32) = FKind.add.neutral .f32 hφ) (r : Fin 256) :
    multiReduction .add [1] S256 src 0x00000000#32 h hφ hacc (ix1 r) = ∑ s : Fin 2048, src (ix2 r s) := by
  refine (Ideal.multiReduction_add_single src 0x00000000#32 h hφ hacc (ix1 r)).trans ?_
  refine Finset.sum_congr rfl fun s _ => ?_
  exact congrArg src (funext fun a => Fin.ext (by match a with | ⟨0, _⟩ => rfl | ⟨1, _⟩ => rfl))

/-- A per-row value kept as a column and broadcast along the rows reads, at (r, s), the value of row r. -/
theorem col_bcast {n : ℕ} (v : FVec Ideal S256 .f32) (h1 : S256.ShapeCasts S256x1) (h2 : S256x1.Broadcasts ⟨2, ![256, n]⟩)
    (r : Fin 256) (s : Fin n) :
    broadcastTo ⟨2, ![256, n]⟩ (shapeCast S256x1 v h1) h2 (ix2 r s) = v (ix1 r) := by
  refine (broadcastTo_apply _ h2 (ix2 r s) (ix2 r (0 : Fin 1)) fun a => ?_).trans ?_
  · match a with
    | ⟨0, _⟩ => rfl
    | ⟨1, _⟩ => rfl
  · refine shapeCast_apply v h1 _ _ ?_
    rw [Shape.rowMajor_val_two, Shape.rowMajor_val_one]
    show r.val = r.val * 1 + 0
    omega

/-! ## The head -/

variable (Q : FVec Ideal S256x64 .bf16) (K V : FVec Ideal S2048x64 .bf16)

/-- The scaled score of row r against key s. -/
def sc (r : Fin 256) (s : Fin 2048) : EReal := (∑ e : Fin 64, Q (ix2 r e) * K (ix2 s e)) * Ideal.ofBits .f32 0x3E000000#32
/-- Row r's maximum score. -/
def mx (r : Fin 256) : EReal := (Finset.univ : Finset (Fin 2048)).fold max (Ideal.ofBits .f32 0xFF800000#32) (fun s => sc Q K r s)
/-- The exponential of the score less the row's maximum. -/
def pr (r : Fin 256) (s : Fin 2048) : EReal := Ideal.exp (sc Q K r s - mx Q K r)

/-- The scores, the row maxima, the exponentials and the row sums, as the head computes them. -/
def scores : FVec Ideal S256x2048 .f32 :=
  mulf (matmul dot_S256x64_S2048x64_S256x2048_1_1_0_0_n_n none Q K (constant S256x2048 .f32 0x00000000#32)) (broadcast S256x2048 (Scalar.ofBits (F := Ideal) .f32 0x3E000000#32))
def rowMax : FVec Ideal S256 .f32 := multiReduction .maximumf [1] S256 (scores Q K) 0xFF800000#32 reduces_S256x2048_S256 (.inl rfl) rfl
def expo : FVec Ideal S256x2048 .f32 :=
  exp (subf (scores Q K) (broadcastTo S256x2048 (shapeCast S256x1 (rowMax Q K) shapeCasts_S256_S256x1) broadcasts_S256x1_S256x2048))
def rowSum : FVec Ideal S256 .f32 := multiReduction .add [1] S256 (expo Q K) 0x00000000#32 reduces_S256x2048_S256 (.inl rfl) rfl

theorem headFn_eq : headFn (F := Ideal) Q K V
    = truncf .bf16 (divf (matmul dot_S256x2048_S2048x64_S256x64_1_0_0_1_n_n none (truncf .bf16 (expo Q K) bitsLt_bf16_f32) V (constant S256x64 .f32 0x00000000#32))
        (broadcastTo S256x64 (shapeCast S256x1 (rowSum Q K) shapeCasts_S256_S256x1) broadcasts_S256x1_S256x64)) bitsLt_bf16_f32 := rfl

theorem scores_entry (r : Fin 256) (s : Fin 2048) : scores Q K (ix2 r s) = sc Q K r s := by
  unfold scores sc
  show (matmul dot_S256x64_S2048x64_S256x2048_1_1_0_0_n_n none Q K (constant (F := Ideal) S256x2048 .f32 0x00000000#32) (ix2 r s) : EReal) * _ = _
  rw [qk_entry]
  rfl

theorem rowMax_entry (r : Fin 256) : rowMax Q K (ix1 r) = mx Q K r := by
  unfold rowMax mx
  refine (rowmax_entry _ _ _ _ r).trans ?_
  exact Finset.fold_congr fun s _ => scores_entry Q K r s

theorem expo_entry (r : Fin 256) (s : Fin 2048) : expo Q K (ix2 r s) = pr Q K r s := by
  unfold expo pr
  show Ideal.exp ((scores Q K (ix2 r s) : EReal) - (broadcastTo S256x2048 (shapeCast S256x1 (rowMax Q K) shapeCasts_S256_S256x1) broadcasts_S256x1_S256x2048 (ix2 r s) : EReal)) = _
  rw [scores_entry, col_bcast, rowMax_entry]

theorem rowSum_entry (r : Fin 256) : rowSum Q K (ix1 r) = ∑ s : Fin 2048, pr Q K r s := by
  unfold rowSum
  refine (rowsum_entry _ _ _ _ r).trans ?_
  exact Finset.sum_congr rfl fun s _ => expo_entry Q K r s

/-- THE HEAD at entry (r, d). -/
theorem headFn_entry (r : Fin 256) (d : Fin 64) :
    headFn (F := Ideal) Q K V (ix2 r d)
      = Ideal.div (∑ s : Fin 2048, pr Q K r s * V (ix2 s d)) (∑ s : Fin 2048, pr Q K r s) := by
  rw [headFn_eq]
  show Ideal.div (matmul dot_S256x2048_S2048x64_S256x64_1_0_0_1_n_n none (truncf .bf16 (expo Q K) bitsLt_bf16_f32) V (constant (F := Ideal) S256x64 .f32 0x00000000#32) (ix2 r d) : EReal)
      (broadcastTo S256x64 (shapeCast S256x1 (rowSum Q K) shapeCasts_S256_S256x1) broadcasts_S256x1_S256x64 (ix2 r d) : EReal) = _
  rw [pv_entry, col_bcast, rowSum_entry]
  refine congrArg (fun z => Ideal.div z _) (Finset.sum_congr rfl fun s _ => ?_)
  show (expo Q K (ix2 r s) : EReal) * _ = _
  rw [expo_entry]

end Cert.KernelIdeal.Attn

end
-- ==== Proof.Ideal.AttnValue.lean ====
/-
  The attention call's output array after its run, as ONE function of the array it reads (the projected activations
  laid out as batch, position, slot, head, width): entry (b, t, 64h + d) is head h's value-weighted, normalised sum
  for query position t — the scores against every key position of the same batch and head, their maximum, the
  exponentials, and the exponentials' product with the values divided by their sum. Each grid point (b, query tile)
  writes back the 256 x 1024 block of that function at its batch and tile; the blocks tile the array.
-/
import proofs.«132017_j67611375174105_2_alg».proof.Proof.Ideal.AttnHeadValue

set_option maxRecDepth 16384

noncomputable section

namespace Cert.KernelIdeal.Attn

open Idealize.ShloMosaic Idealize.ShloMosaic.TcCoe Idealize.ShloMosaic.ValueIdx Idealize.SL.Sem
open Idealize.ShloMosaic.Pipeline (Dat)
open Idealize.SL.RA
open Cert.KernelIdeal Cert.KernelIdeal.Gen

/-! ## The array -/

section Arr

variable (A6 : S2x2048x3x16x64.Idx → EReal)

def scA (b : Fin 2) (h : Fin 16) (t s : Fin 2048) : EReal :=
  (∑ e : Fin 64, A6 (ix5 b t (0 : Fin 3) h e) * A6 (ix5 b s (1 : Fin 3) h e)) * Ideal.ofBits .f32 0x3E000000#32
def mxA (b : Fin 2) (h : Fin 16) (t : Fin 2048) : EReal :=
  (Finset.univ : Finset (Fin 2048)).fold max (Ideal.ofBits .f32 0xFF800000#32) (fun s => scA A6 b h t s)
def prA (b : Fin 2) (h : Fin 16) (t s : Fin 2048) : EReal := Ideal.exp (scA A6 b h t s - mxA A6 b h t)
/-- Head h of batch b at query position t, width d. -/
def headAt (b : Fin 2) (h : Fin 16) (t : Fin 2048) (d : Fin 64) : EReal :=
  Ideal.div (∑ s : Fin 2048, prA A6 b h t s * A6 (ix5 b s (2 : Fin 3) h d)) (∑ s : Fin 2048, prA A6 b h t s)
/-- The heads side by side. -/
def attnAt (b : Fin 2) (t : Fin 2048) (col : Fin 1024) : EReal := headAt A6 b ⟨col.val / 64, by omega⟩ t ⟨col.val % 64, by omega⟩
def attnArr : S2x2048x1024.Idx → EReal := fun i => attnAt A6 ⟨(i 0).val, (i 0).isLt⟩ ⟨(i 1).val, (i 1).isLt⟩ ⟨(i 2).val, (i 2).isLt⟩

/-- A head of a query tile, keys and values that are slices of the array is the array's head there: the head depends
    on the tile only through the row asked for. -/
theorem headFn_slices (Q : FVec Ideal S256x64 .bf16) (K V : FVec Ideal S2048x64 .bf16) (b : Fin 2) (h : Fin 16) (t : Fin 2048)
    (r : Fin 256) (d : Fin 64)
    (hQ : ∀ e, Q (ix2 r e) = A6 (ix5 b t (0 : Fin 3) h e)) (hK : ∀ s e, K (ix2 s e) = A6 (ix5 b s (1 : Fin 3) h e))
    (hV : ∀ s, V (ix2 s d) = A6 (ix5 b s (2 : Fin 3) h d)) :
    headFn (F := Ideal) Q K V (ix2 r d) = headAt A6 b h t d := by
  rw [headFn_entry]
  unfold headAt prA mxA scA pr mx sc
  simp only [hQ, hK, hV]

end Arr

/-! ## A head's three slices of the loaded blocks -/

/-- The query tile's head-h slice, flattened. -/
def qSlice (x0 : Vec Ideal S1x256x1x16x64 .bf16) (h : Fin 16) : FVec Ideal S256x64 .bf16 :=
  fun j => x0 (ix5 (0 : Fin 1) (⟨(j 0).val, (j 0).isLt⟩ : Fin 256) (0 : Fin 1) h (⟨(j 1).val, (j 1).isLt⟩ : Fin 64))
/-- The keys' (or values') head-h slice, flattened. -/
def kSlice (x : Vec Ideal S1x2048x1x16x64 .bf16) (h : Fin 16) : FVec Ideal S2048x64 .bf16 :=
  fun j => x (ix5 (0 : Fin 1) (⟨(j 0).val, (j 0).isLt⟩ : Fin 2048) (0 : Fin 1) h (⟨(j 1).val, (j 1).isLt⟩ : Fin 64))

theorem q_flat (x0 : Vec Ideal S1x256x1x16x64 .bf16) (h : Fin 16)
    (inb : ∀ a, (![0, 0, 0, h.val, 0] : Fin 5 → Nat) a + S1x256x1x1x64.size a ≤ S1x256x1x16x64.size a)
    (hc : S1x256x1x1x64.ShapeCasts S256x64) :
    shapeCast S256x64 (View.ld x0 (Rect.unit (s := S1x256x1x16x64) ![0, 0, 0, h.val, 0] S1x256x1x1x64.size inb)) hc = qSlice x0 h := by
  funext j
  obtain ⟨r, e, rfl⟩ : ∃ (r : Fin 256) (e : Fin 64), j = ix2 r e := ⟨j 0, j 1, eq_ix2 j⟩
  refine (shapeCast_apply _ hc (ix2 r e) (ix5 (0 : Fin 1) r (0 : Fin 1) (0 : Fin 1) e) ?_).trans ?_
  · rw [Shape.rowMajor_val_five, Shape.rowMajor_val_two]
    show ((((0 * 256 + r.val) * 1 + 0) * 1 + 0) * 64 + e.val) = r.val * 64 + e.val
    omega
  · show x0 _ = x0 _
    refine congrArg x0 (funext fun a => Fin.ext ?_)
    match a with
    | ⟨0, _⟩ => exact show 0 + 1 * 0 = 0 from rfl
    | ⟨1, _⟩ => exact show 0 + 1 * r.val = r.val from by omega
    | ⟨2, _⟩ => exact show 0 + 1 * 0 = 0 from rfl
    | ⟨3, _⟩ => exact show h.val + 1 * 0 = h.val from by omega
    | ⟨4, _⟩ => exact show 0 + 1 * e.val = e.val from by omega

theorem k_flat (x : Vec Ideal S1x2048x1x16x64 .bf16) (h : Fin 16)
    (inb : ∀ a, (![0, 0, 0, h.val, 0] : Fin 5 → Nat) a + S1x2048x1x1x64.size a ≤ S1x2048x1x16x64.size a)
    (hc : S1x2048x1x1x64.ShapeCasts S2048x64) :
    shapeCast S2048x64 (View.ld x (Rect.unit (s := S1x2048x1x16x64) ![0, 0, 0, h.val, 0] S1x2048x1x1x64.size inb)) hc = kSlice x h := by
  funext j
  obtain ⟨r, e, rfl⟩ : ∃ (r : Fin 2048) (e : Fin 64), j = ix2 r e := ⟨j 0, j 1, eq_ix2 j⟩
  refine (shapeCast_apply _ hc (ix2 r e) (ix5 (0 : Fin 1) r (0 : Fin 1) (0 : Fin 1) e) ?_).trans ?_
  · rw [Shape.rowMajor_val_five, Shape.rowMajor_val_two]
    show ((((0 * 2048 + r.val) * 1 + 0) * 1 + 0) * 64 + e.val) = r.val * 64 + e.val
    omega
  · show x _ = x _
    refine congrArg x (funext fun a => Fin.ext ?_)
    match a with
    | ⟨0, _⟩ => exact show 0 + 1 * 0 = 0 from rfl
    | ⟨1, _⟩ => exact show 0 + 1 * r.val = r.val from by omega
    | ⟨2, _⟩ => exact show 0 + 1 * 0 = 0 from rfl
    | ⟨3, _⟩ => exact show h.val + 1 * 0 = h.val from by omega
    | ⟨4, _⟩ => exact show 0 + 1 * e.val = e.val from by omega

/-- A head's stored piece at (r, d) is the head of its three flattened slices at (r, d). -/
theorem headOf_entry (x0 : Vec Ideal S1x256x1x16x64 .bf16) (x1 x2 : Vec Ideal S1x2048x1x16x64 .bf16) (h : Fin 16)
    (inbq : ∀ a, (![0, 0, 0, h.val, 0] : Fin 5 → Nat) a + S1x256x1x1x64.size a ≤ S1x256x1x16x64.size a)
    (inbk : ∀ a, (![0, 0, 0, h.val, 0] : Fin 5 → Nat) a + S1x2048x1x1x64.size a ≤ S1x2048x1x16x64.size a)
    (r : Fin 256) (d : Fin 64) :
    headOf (F := Ideal) (View.ld x0 (Rect.unit (s := S1x256x1x16x64) ![0, 0, 0, h.val, 0] S1x256x1x1x64.size inbq))
        (View.ld x1 (Rect.unit (s := S1x2048x1x16x64) ![0, 0, 0, h.val, 0] S1x2048x1x1x64.size inbk))
        (View.ld x2 (Rect.unit (s := S1x2048x1x16x64) ![0, 0, 0, h.val, 0] S1x2048x1x1x64.size inbk)) (ix3 (0 : Fin 1) r d)
      = headFn (F := Ideal) (qSlice x0 h) (kSlice x1 h) (kSlice x2 h) (ix2 r d) := by
  unfold headOf
  rw [q_flat, k_flat, k_flat]
  exact shapeCast_ab_1ab_apply _ _ (0 : Fin 1) r d

/-! ## The stored tile as one function of the three blocks -/

/-- Column `col` of row `r` of the tile: head col / 64 of the blocks' slices, at (r, col % 64). -/
def tileFn (x0 : Vec Ideal S1x256x1x16x64 .bf16) (x1 x2 : Vec Ideal S1x2048x1x16x64 .bf16) : S1x256x1024.Idx → EReal := fun y =>
  headFn (F := Ideal) (qSlice x0 ⟨(y 2).val / 64, by have h : (y 2).val < 1024 := (y 2).isLt; omega⟩)
    (kSlice x1 ⟨(y 2).val / 64, by have h : (y 2).val < 1024 := (y 2).isLt; omega⟩)
    (kSlice x2 ⟨(y 2).val / 64, by have h : (y 2).val < 1024 := (y 2).isLt; omega⟩)
    (ix2 (⟨(y 1).val, (y 1).isLt⟩ : Fin 256) (⟨(y 2).val % 64, by omega⟩ : Fin 64))

theorem headFn_congr (x0 : Vec Ideal S1x256x1x16x64 .bf16) (x1 x2 : Vec Ideal S1x2048x1x16x64 .bf16)
    (h h' : Fin 16) (r r' : Fin 256) (d d' : Fin 64) (eh : h' = h) (er : r' = r) (ed : d' = d) :
    headFn (F := Ideal) (qSlice x0 h') (kSlice x1 h') (kSlice x2 h') (ix2 r' d')
      = headFn (F := Ideal) (qSlice x0 h) (kSlice x1 h) (kSlice x2 h) (ix2 r d) := by
  subst eh er ed; rfl

/-- Head h's stored piece is the tile function on head h's 64 columns. -/
theorem piece_ok (x0 : Vec Ideal S1x256x1x16x64 .bf16) (x1 x2 : Vec Ideal S1x2048x1x16x64 .bf16) (h : Fin 16)
    (inbq : ∀ a, (![0, 0, 0, h.val, 0] : Fin 5 → Nat) a + S1x256x1x1x64.size a ≤ S1x256x1x16x64.size a)
    (inbk : ∀ a, (![0, 0, 0, h.val, 0] : Fin 5 → Nat) a + S1x2048x1x1x64.size a ≤ S1x2048x1x16x64.size a)
    (inbo : ∀ a, (![0, 0, 64 * h.val] : Fin 3 → Nat) a + S1x256x64.size a ≤ S1x256x1024.size a)
    (x : S1x256x64.Idx) :
    headOf (F := Ideal) (View.ld x0 (Rect.unit (s := S1x256x1x16x64) ![0, 0, 0, h.val, 0] S1x256x1x1x64.size inbq))
        (View.ld x1 (Rect.unit (s := S1x2048x1x16x64) ![0, 0, 0, h.val, 0] S1x2048x1x1x64.size inbk))
        (View.ld x2 (Rect.unit (s := S1x2048x1x16x64) ![0, 0, 0, h.val, 0] S1x2048x1x1x64.size inbk)) x
      = tileFn x0 x1 x2 ((Rect.unit (s := S1x256x1024) ![0, 0, 64 * h.val] S1x256x64.size inbo).emb x) := by
  obtain ⟨u, r, d, rfl⟩ : ∃ (u : Fin 1) (r : Fin 256) (d : Fin 64), x = ix3 u r d := ⟨x 0, x 1, x 2, eq_ix3 x⟩
  have hu : u = 0 := Fin.ext (by omega)
  subst hu
  rw [headOf_entry]
  unfold tileFn
  have hh := h.isLt; have hr := r.isLt; have hd := d.isLt
  refine (headFn_congr x0 x1 x2 h _ r _ d _ (Fin.ext ?_) (Fin.ext ?_) (Fin.ext ?_)).symm
  · exact show (64 * h.val + 1 * d.val) / 64 = h.val from by omega
  · exact show 0 + 1 * r.val = r.val from by omega
  · exact show (64 * h.val + 1 * d.val) % 64 = d.val from by omega

/-- The tile is the tile function: its sixteen stores are the function's sixteen column bands. -/
theorem tile_eq (x0 : Vec Ideal S1x256x1x16x64 .bf16) (x1 x2 : Vec Ideal S1x2048x1x16x64 .bf16) :
    tile (F := Ideal) x0 x1 x2 = tileFn x0 x1 x2 := by
  funext y
  unfold tile
  refine View.canon_apply_of_pieces (Val := Elt Ideal) (tileFn x0 x1 x2 : Vec Ideal S1x256x1024 .bf16) _ ?_ y (tile_cover _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · intro x
    show head15 x0 x1 x2 x = tileFn x0 x1 x2 (oR15.emb x)
    rw [head15_eq]
    exact piece_ok x0 x1 x2 (15 : Fin 16) _ _ _ x
  · intro x
    show head14 x0 x1 x2 x = tileFn x0 x1 x2 (oR14.emb x)
    rw [head14_eq]
    exact piece_ok x0 x1 x2 (14 : Fin 16) _ _ _ x
  · intro x
    show head13 x0 x1 x2 x = tileFn x0 x1 x2 (oR13.emb x)
    rw [head13_eq]
    exact piece_ok x0 x1 x2 (13 : Fin 16) _ _ _ x
  · intro x
    show head12 x0 x1 x2 x = tileFn x0 x1 x2 (oR12.emb x)
    rw [head12_eq]
    exact piece_ok x0 x1 x2 (12 : Fin 16) _ _ _ x
  · intro x
    show head11 x0 x1 x2 x = tileFn x0 x1 x2 (oR11.emb x)
    rw [head11_eq]
    exact piece_ok x0 x1 x2 (11 : Fin 16) _ _ _ x
  · intro x
    show head10 x0 x1 x2 x = tileFn x0 x1 x2 (oR10.emb x)
    rw [head10_eq]
    exact piece_ok x0 x1 x2 (10 : Fin 16) _ _ _ x
  · intro x
    show head9 x0 x1 x2 x = tileFn x0 x1 x2 (oR9.emb x)
    rw [head9_eq]
    exact piece_ok x0 x1 x2 (9 : Fin 16) _ _ _ x
  · intro x
    show head8 x0 x1 x2 x = tileFn x0 x1 x2 (oR8.emb x)
    rw [head8_eq]
    exact piece_ok x0 x1 x2 (8 : Fin 16) _ _ _ x
  · intro x
    show head7 x0 x1 x2 x = tileFn x0 x1 x2 (oR7.emb x)
    rw [head7_eq]
    exact piece_ok x0 x1 x2 (7 : Fin 16) _ _ _ x
  · intro x
    show head6 x0 x1 x2 x = tileFn x0 x1 x2 (oR6.emb x)
    rw [head6_eq]
    exact piece_ok x0 x1 x2 (6 : Fin 16) _ _ _ x
  · intro x
    show head5 x0 x1 x2 x = tileFn x0 x1 x2 (oR5.emb x)
    rw [head5_eq]
    exact piece_ok x0 x1 x2 (5 : Fin 16) _ _ _ x
  · intro x
    show head4 x0 x1 x2 x = tileFn x0 x1 x2 (oR4.emb x)
    rw [head4_eq]
    exact piece_ok x0 x1 x2 (4 : Fin 16) _ _ _ x
  · intro x
    show head3 x0 x1 x2 x = tileFn x0 x1 x2 (oR3.emb x)
    rw [head3_eq]
    exact piece_ok x0 x1 x2 (3 : Fin 16) _ _ _ x
  · intro x
    show head2 x0 x1 x2 x = tileFn x0 x1 x2 (oR2.emb x)
    rw [head2_eq]
    exact piece_ok x0 x1 x2 (2 : Fin 16) _ _ _ x
  · intro x
    show head1 x0 x1 x2 x = tileFn x0 x1 x2 (oR1.emb x)
    rw [head1_eq]
    exact piece_ok x0 x1 x2 (1 : Fin 16) _ _ _ x
  · intro x
    show head0 x0 x1 x2 x = tileFn x0 x1 x2 (oR0.emb x)
    rw [head0_eq]
    exact piece_ok x0 x1 x2 (0 : Fin 16) _ _ _ x

/-! ## From blocks to the array -/

variable (V : (c : Dev nD) → (b : Ref sig .tc) → Buf (Elt Ideal) ((c : Thread nD τ).loc b))

/-- The printed index maps over the grid: the query tile follows the output's batch and tile, the keys and values its
    batch; the three read slots 0, 1 and 2 of the activations. -/
theorem idx_facts : ∀ t : Fin cfg1.N,
    win1_0.index t (0 : Fin 5) = win1_3.index t (0 : Fin 3) ∧ win1_0.index t (1 : Fin 5) = win1_3.index t (1 : Fin 3)
    ∧ win1_0.index t (2 : Fin 5) = 0 ∧ win1_0.index t (3 : Fin 5) = 0 ∧ win1_0.index t (4 : Fin 5) = 0
    ∧ win1_1.index t (0 : Fin 5) = win1_3.index t (0 : Fin 3) ∧ win1_1.index t (1 : Fin 5) = 0
    ∧ win1_1.index t (2 : Fin 5) = 1 ∧ win1_1.index t (3 : Fin 5) = 0 ∧ win1_1.index t (4 : Fin 5) = 0
    ∧ win1_2.index t (0 : Fin 5) = win1_3.index t (0 : Fin 3) ∧ win1_2.index t (1 : Fin 5) = 0
    ∧ win1_2.index t (2 : Fin 5) = 2 ∧ win1_2.index t (3 : Fin 5) = 0 ∧ win1_2.index t (4 : Fin 5) = 0
    ∧ win1_3.index t (2 : Fin 3) = 0 ∧ win1_3.index t (0 : Fin 3) ≤ 1 ∧ win1_3.index t (1 : Fin 3) ≤ 7 :=
  (by decide +kernel : ∀ t : Fin grid1.N, _)

/-- Every block of the output is some point's. -/
theorem idx_onto : ∀ (q0 : Fin 2) (q1 : Fin 8), ∃ t : Fin cfg1.N, win1_3.index t = ![q0.val, q1.val, 0] :=
  (by decide +kernel : ∀ (q0 : Fin 2) (q1 : Fin 8), ∃ t : Fin grid1.N, win1_3.index t = ![q0.val, q1.val, 0])

theorem attnAt_congr (A6 : S2x2048x3x16x64.Idx → EReal) (b b' : Fin 2) (t t' : Fin 2048) (col col' : Fin 1024)
    (eb : b' = b) (et : t' = t) (ec : col' = col) : attnAt A6 b' t' col' = attnAt A6 b t col := by
  subst eb et ec; rfl

/-- Block `t` of the attention array, read at (0, r, col), from the three input blocks at `t`. -/
theorem read_attn (A6 : S2x2048x3x16x64.Idx → EReal) (t : Fin cfg1.N) (r : Fin 256) (col : Fin 1024) :
    tileFn (((cfg1.win 0).blk t).view.read (Elt Ideal) A6) (((cfg1.win 1).blk t).view.read (Elt Ideal) A6)
        (((cfg1.win 2).blk t).view.read (Elt Ideal) A6) (ix3 (0 : Fin 1) r col)
      = attnArr A6 (((cfg1.win 3).blk t).view.emb (ix3 (0 : Fin 1) r col)) := by
  obtain ⟨e00, e01, e02, e03, e04, e10, e11, e12, e13, e14, e20, e21, e22, e23, e24, e32, hb, hq⟩ := idx_facts t
  have hr := r.isLt; have hc := col.isLt
  obtain ⟨b, hbv⟩ : ∃ b : Fin 2, win1_3.index t (0 : Fin 3) = b.val := ⟨⟨win1_3.index t (0 : Fin 3), by omega⟩, rfl⟩
  obtain ⟨tt, htv⟩ : ∃ tt : Fin 2048, win1_3.index t (1 : Fin 3) * 256 + r.val = tt.val := ⟨⟨win1_3.index t (1 : Fin 3) * 256 + r.val, by omega⟩, rfl⟩
  unfold attnArr
  rw [attnAt_congr A6 b _ tt _ col _ (Fin.ext (show win1_3.index t (0 : Fin 3) * 1 + 1 * 0 = b.val from by omega))
    (Fin.ext (show win1_3.index t (1 : Fin 3) * 256 + 1 * r.val = tt.val from by omega))
    (Fin.ext (show win1_3.index t (2 : Fin 3) * 1024 + 1 * col.val = col.val from by omega))]
  unfold tileFn attnAt
  refine headFn_slices A6 _ _ _ b _ tt _ _ (fun e => ?_) (fun s e => ?_) (fun s => ?_)
  · have he := e.isLt
    show A6 _ = A6 _
    refine congrArg A6 (funext fun a => Fin.ext ?_)
    match a with
    | ⟨0, _⟩ => exact show win1_0.index t (0 : Fin 5) * 1 + 1 * 0 = b.val from by omega
    | ⟨1, _⟩ => exact show win1_0.index t (1 : Fin 5) * 256 + 1 * r.val = tt.val from by omega
    | ⟨2, _⟩ => exact show win1_0.index t (2 : Fin 5) * 1 + 1 * 0 = 0 from by omega
    | ⟨3, _⟩ => exact show win1_0.index t (3 : Fin 5) * 16 + 1 * (col.val / 64) = col.val / 64 from by omega
    | ⟨4, _⟩ => exact show win1_0.index t (4 : Fin 5) * 64 + 1 * e.val = e.val from by omega
  · have he := e.isLt; have hs := s.isLt
    show A6 _ = A6 _
    refine congrArg A6 (funext fun a => Fin.ext ?_)
    match a with
    | ⟨0, _⟩ => exact show win1_1.index t (0 : Fin 5) * 1 + 1 * 0 = b.val from by omega
    | ⟨1, _⟩ => exact show win1_1.index t (1 : Fin 5) * 2048 + 1 * s.val = s.val from by omega
    | ⟨2, _⟩ => exact show win1_1.index t (2 : Fin 5) * 1 + 1 * 0 = 1 from by omega
    | ⟨3, _⟩ => exact show win1_1.index t (3 : Fin 5) * 16 + 1 * (col.val / 64) = col.val / 64 from by omega
    | ⟨4, _⟩ => exact show win1_1.index t (4 : Fin 5) * 64 + 1 * e.val = e.val from by omega
  · have hs := s.isLt
    show A6 _ = A6 _
    refine congrArg A6 (funext fun a => Fin.ext ?_)
    match a with
    | ⟨0, _⟩ => exact show win1_2.index t (0 : Fin 5) * 1 + 1 * 0 = b.val from by omega
    | ⟨1, _⟩ => exact show win1_2.index t (1 : Fin 5) * 2048 + 1 * s.val = s.val from by omega
    | ⟨2, _⟩ => exact show win1_2.index t (2 : Fin 5) * 1 + 1 * 0 = 2 from by omega
    | ⟨3, _⟩ => exact show win1_2.index t (3 : Fin 5) * 16 + 1 * (col.val / 64) = col.val / 64 from by omega
    | ⟨4, _⟩ => exact show win1_2.index t (4 : Fin 5) * 64 + 1 * (col.val % 64) = col.val % 64 from by omega

variable (sh : Fin 3 → PosShare TreeShare)

/-- What point `t` writes back is block `t` of the attention array of the activations as the call finds them. -/
theorem flushed_eq (c : Dev nD) (t : Fin cfg1.N) :
    (dat V sh c).flushed 3 t = ((cfg1.win 3).blk t).view.read (Elt Ideal) (attnArr (V c main_v6)) := by
  show (cfg1.win 3).cut (grid1.coords t) ((dat V sh c).after 3 t) = _
  rw [after_3, tile_eq]
  funext y
  obtain ⟨u, r, col, rfl⟩ : ∃ (u : Fin 1) (r : Fin 256) (col : Fin 1024), y = ix3 u r col := ⟨y 0, y 1, y 2, eq_ix3 y⟩
  have hu : u = 0 := Fin.ext (by omega)
  subst hu
  exact read_attn (V c main_v6) t r col

/-- An index of the array is in point `t`'s block iff each coordinate is in the block's range on its axis. -/
theorem mem_blk (t : Fin cfg1.N) (i : S2x2048x1024.Idx) :
    i ∈ ((cfg1.win 3).blk t).view.set ↔ ∀ a : Fin 3, win1_3.index t a * S1x256x1024.size a ≤ (i a).val ∧ (i a).val < win1_3.index t a * S1x256x1024.size a + S1x256x1024.size a := by
  show i ∈ ((View.whole main_v7).slice (win1_3.rect t)).set ↔ _
  rw [View.set_slice_whole, Rect.mem_set_unit]
  exact Iff.rfl

/-- The blocks tile the array. -/
theorem cover (i : S2x2048x1024.Idx) : ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, by omega⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [mem_blk]
  intro a
  match a with
  | ⟨0, _⟩ => exact show win1_3.index t (0 : Fin 3) * 1 ≤ (i 0).val ∧ (i 0).val < win1_3.index t (0 : Fin 3) * 1 + 1 from by omega
  | ⟨1, _⟩ => exact show win1_3.index t (1 : Fin 3) * 256 ≤ (i 1).val ∧ (i 1).val < win1_3.index t (1 : Fin 3) * 256 + 256 from by omega
  | ⟨2, _⟩ => exact show win1_3.index t (2 : Fin 3) * 1024 ≤ (i 2).val ∧ (i 2).val < win1_3.index t (2 : Fin 3) * 1024 + 1024 from by omega

/-- THE OUTPUT ARRAY after the call: the attention array of the activations it read. -/
theorem out_eq (c : Dev nD) : (dat V sh c).arrAt 3 cfg1.N = attnArr (V c main_v6) :=
  (dat V sh c).arrAt_eq_of_cover 3 _ (fun t _ => flushed_eq V sh c t) cover

end Cert.KernelIdeal.Attn

end
-- ==== Proof.Ideal.KernelSide.lean ====
/-
  The kernel program's result buffer after its run, as the specification's function of the five argument arrays: the
  last reshape of the output projection's array, whose left operand is the flattened attention array of the reshaped
  first projection's array, each call's array being the closed form its value theorem gives.
-/
import proofs.«132017_j67611375174105_2_alg».proof.Proof.Spec
import proofs.«132017_j67611375174105_2_alg».proof.Proof.Ideal.HostReads
import proofs.«132017_j67611375174105_2_alg».proof.Proof.Ideal.QkvValue
import proofs.«132017_j67611375174105_2_alg».proof.Proof.Ideal.OutValue
import proofs.«132017_j67611375174105_2_alg».proof.Proof.Ideal.AttnValue
import Idealize.ShloMosaic.Lib.ValueLayout

set_option maxRecDepth 16384

noncomputable section

namespace Cert.KernelIdeal.KernelSide

open Idealize.ShloMosaic Idealize.ShloMosaic.TcCoe Idealize.ShloMosaic.ValueIdx Idealize.SL.Sem
open Cert.KernelIdeal Cert.KernelIdeal.Gen Cert.KernelIdeal.Run

variable (m : (ℓ : Loc nD τ sig) → Buf (Elt Ideal) ℓ) (ρ : Dev nD → PrngReg)

/-! The output weight and bias reach the last call as launched. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The activations the attention call reads: entry (b, t, slot, head, width) is the fused projection's column. -/
theorem act_eq (c : Dev nD) (b : Fin 2) (t : Fin 2048) (j : Fin 3) (h : Fin 16) (e : Fin 64) :
    V3 m ρ c main_v6 (ix5 b t j h e)
      = Cert.Spec.proj (m ((c : Thread nD τ).loc main_arg0)) (m ((c : Thread nD τ).loc main_arg1)) (m ((c : Thread nD τ).loc main_arg2))
          b t (Cert.Spec.col j h e) := by
  have hb := b.isLt; have ht := t.isLt; have hj := j.isLt; have hh := h.isLt; have he := e.isLt
  show W3 m ρ c (Proc.devRef .tc main_v6) (ix5 b t j h e) = _
  rw [W3_v6]
  have h5 : W2 m ρ c (Proc.devRef .tc main_v5) = QkvProj.prod (V1 m ρ c main_v2) (V1 m ρ c main_v3) (V1 m ρ c main_v4) :=
    (W2_arr m ρ c 3).trans (QkvProj.out_eq (V1 m ρ) c)
  rw [h5]
  refine (shapeCast_apply _ _ (ix5 b t j h e) (ix2 (⟨b.val * 2048 + t.val, by omega⟩ : Fin 4096) (Cert.Spec.col j h e)) ?_).trans ?_
  · rw [Shape.rowMajor_val_five, Shape.rowMajor_val_two]
    show (b.val * 2048 + t.val) * 3072 + (1024 * j.val + 64 * h.val + e.val) = (((b.val * 2048 + t.val) * 3 + j.val) * 16 + h.val) * 64 + e.val
    omega
  · unfold QkvProj.prod Cert.Spec.proj
    refine congrArg₂ (· + ·) (Finset.sum_congr rfl fun k _ => congrArg₂ (· * ·) ?_ ?_) ?_
    · show W1 m ρ c (Proc.devRef .tc main_v2) _ = _
      rw [W1_v2]
      refine (shapeCast_apply _ _ _ (ix3 b t k) ?_)
      rw [Shape.rowMajor_val_three, Shape.rowMajor_val_two]
      rfl
    · show W1 m ρ c (Proc.devRef .tc main_v3) _ = _
      rw [W1_v3]
      exact transpose_ix2_apply _ _ _ _
    · show W1 m ρ c (Proc.devRef .tc main_v4) _ = _
      rw [W1_v4]
      exact shapeCast_a_1a_apply _ _ _ _

/-- An array whose entries are the fused projection's columns has the specification's kernel-order attention as its
    attention array. -/
theorem headAt_of_proj (A6 : S2x2048x3x16x64.Idx → EReal) (x : Cert.Spec.SX.Idx → EReal) (wq : Cert.Spec.SWq.Idx → EReal)
    (bq : Cert.Spec.SBq.Idx → EReal)
    (hA : ∀ (b : Fin 2) (t : Fin 2048) (j : Fin 3) (h : Fin 16) (e : Fin 64), A6 (ix5 b t j h e) = Cert.Spec.proj x wq bq b t (Cert.Spec.col j h e))
    (b : Fin 2) (h : Fin 16) (t : Fin 2048) (d : Fin 64) :
    Attn.headAt A6 b h t d = Cert.Spec.attnK x wq bq (Ideal.ofBits .f32 0x3E000000#32) b t h d := by
  unfold Attn.headAt Attn.prA Attn.mxA Attn.scA Cert.Spec.attnK Cert.Spec.psum Cert.Spec.pexp Cert.Spec.rmax Cert.Spec.score
  simp only [hA, Cert.Softmax.ofBits_negInf]

/-- So the attention array of the activations is the specification's kernel-order attention. -/
theorem head_eq (c : Dev nD) (b : Fin 2) (h : Fin 16) (t : Fin 2048) (d : Fin 64) :
    Attn.headAt (V3 m ρ c main_v6) b h t d
      = Cert.Spec.attnK (m ((c : Thread nD τ).loc main_arg0)) (m ((c : Thread nD τ).loc main_arg1)) (m ((c : Thread nD τ).loc main_arg2))
          (Ideal.ofBits .f32 0x3E000000#32) b t h d :=
  headAt_of_proj _ _ _ _ (act_eq m ρ c) b h t d

/-- The result buffer holds the specification's kernel-order result of the arguments. -/
theorem result (c : Dev nD) :
    W7 (F := Ideal) m ρ c (Proc.devRef .tc main_v13)
      = Cert.Spec.resultK (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, t, o, rfl⟩ : ∃ (b : Fin 2) (t : Fin 2048) (o : Fin 1024), i = ix3 b t o := ⟨i 0, i 1, i 2, eq_ix3 i⟩
  have hb := b.isLt; have ht := t.isLt; have ho := o.isLt
  rw [W7_v13]
  have h12 : W6 m ρ c (Proc.devRef .tc main_v12) = OutProj.prod (V5 m ρ c main_v8) (V5 m ρ c main_v10) (V5 m ρ c main_v11) :=
    (W6_arr m ρ c 3).trans (OutProj.out_eq (V5 m ρ) c)
  rw [h12]
  refine (shapeCast_apply _ _ (ix3 b t o) (ix2 (⟨b.val * 2048 + t.val, by omega⟩ : Fin 4096) o) ?_).trans ?_
  · rw [Shape.rowMajor_val_three, Shape.rowMajor_val_two]
    rfl
  · unfold OutProj.prod Cert.Spec.resultK Cert.Spec.outOf
    refine congrArg₂ (· + ·) (Finset.sum_congr rfl fun k _ => congrArg₂ (· * ·) ?_ ?_) ?_
    · show W5 m ρ c (Proc.devRef .tc main_v8) _ = _
      rw [W5_v8]
      have h7 : W4 m ρ c (Proc.devRef .tc main_v7) = Attn.attnArr (V3 m ρ c main_v6) :=
        (W4_out m ρ c).trans (Attn.out_eq (V3 m ρ) Attn.sh c)
      rw [h7]
      refine (shapeCast_apply _ _ _ (ix3 b t k) ?_).trans ?_
      · rw [Shape.rowMajor_val_three, Shape.rowMajor_val_two]
        rfl
      · exact head_eq m ρ c b _ t _
    · show W5 m ρ c (Proc.devRef .tc main_v10) _ = _
      rw [W5_v10, W4_main_arg3]
      exact transpose_ix2_apply _ _ _ _
    · show W5 m ρ c (Proc.devRef .tc main_v11) _ = _
      rw [W5_v11, W4_main_arg4]
      exact shapeCast_a_1a_apply _ _ _ _

end Cert.KernelIdeal.KernelSide

end
-- ==== Proof.RefSide.lean ====
/-
  The reference's result term as the specification's function of the five argument arrays: its operations read one
  at a time at an index (the generated read-at-an-index lemmas), with the composed index maps identified — the
  reshape into (q/k/v, head, width), the transposes and the slices only re-address the fused projection's columns.
-/
import proofs.«132017_j67611375174105_2_alg».proof.Proof.Spec
import proofs.«132017_j67611375174105_2_alg».proof.Proof.Gen.ReferenceIdeal.Read

set_option maxRecDepth 16384

noncomputable section

namespace Cert.RefSide

open Idealize.ShloMosaic Idealize.ShloMosaic.ValueIdx Idealize.SL.Sem
open Cert.ReferenceIdeal Cert.ReferenceIdeal.Gen Cert.ReferenceIdeal.Read

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-- The fused projection, read at (b, t, o). -/
theorem proj_eq (b : Fin 2) (t : Fin 2048) (o : Fin 3072) :
    val_main_v3 (F := Ideal) x0 x1 x2 (ix3 b t o) = Cert.Spec.proj x0 x1 x2 b t o := by
  rw [val_main_v3_apply, val_main_v0_apply, val_main_v2_apply, val_main_v1_apply]
  have el : ∀ k, lidx_main_v0 (ix3 b t o) k = ix3 b t k := fun k => funext fun a => Fin.ext (by
    match a with | ⟨0, _⟩ => rfl | ⟨1, _⟩ => rfl | ⟨2, _⟩ => rfl)
  have er : ∀ k, ridx_main_v0 (ix3 b t o) k = ix2 o k := fun k => funext fun a => Fin.ext (by
    match a with | ⟨0, _⟩ => rfl | ⟨1, _⟩ => rfl)
  have eb : idx_main_v1 (idx_main_v2 (ix3 b t o)) = ix1 o := funext fun a => Fin.ext (by
    match a with | ⟨0, _⟩ => rfl)
  simp only [el, er, eb]
  rfl

/-- The reshape into (batch, position, slot, head, width) re-addresses the fused projection's columns. -/
theorem split_eq (b : Fin 2) (t : Fin 2048) (j : Fin 3) (h : Fin 16) (e : Fin 64) :
    val_main_v4 (F := Ideal) x0 x1 x2 (ix5 b t j h e) = Cert.Spec.proj x0 x1 x2 b t (Cert.Spec.col j h e) := by
  rw [val_main_v4_apply]
  have hb := b.isLt; have ht := t.isLt; have hj := j.isLt; have hh := h.isLt; have he := e.isLt
  have e4 : idx_main_v4 (ix5 b t j h e) = ix3 b t (Cert.Spec.col j h e) := by
    funext a; apply Fin.ext
    match a with
    | ⟨0, _⟩ => exact show ((((b.val * 2048 + t.val) * 3 + j.val) * 16 + h.val) * 64 + e.val) / 6291456 = b.val from by omega
    | ⟨1, _⟩ => exact show ((((b.val * 2048 + t.val) * 3 + j.val) * 16 + h.val) * 64 + e.val) / 3072 % 2048 = t.val from by omega
    | ⟨2, _⟩ => exact show ((((b.val * 2048 + t.val) * 3 + j.val) * 16 + h.val) * 64 + e.val) % 3072 = 1024 * j.val + 64 * h.val + e.val from by omega
  rw [e4, proj_eq]

/-- After the transpose to (slot, batch, head, position, width). -/
theorem transposed_eq (j : Fin 3) (b : Fin 2) (h : Fin 16) (t : Fin 2048) (e : Fin 64) :
    val_main_v5 (F := Ideal) x0 x1 x2 (ix5 j b h t e) = Cert.Spec.proj x0 x1 x2 b t (Cert.Spec.col j h e) := by
  rw [val_main_v5_apply]
  have e5 : idx_main_v5 (ix5 j b h t e) = ix5 b t j h e := funext fun a => Fin.ext (by
    match a with | ⟨0, _⟩ => rfl | ⟨1, _⟩ => rfl | ⟨2, _⟩ => rfl | ⟨3, _⟩ => rfl | ⟨4, _⟩ => rfl)
  rw [e5, split_eq]

/-- The flattening of a one-slot slice back to (batch, head, position, width). -/
theorem unflat (b : Fin 2) (h : Fin 16) (t : Fin 2048) (e : Fin 64) (f : S2x16x2048x64.Idx → S1x2x16x2048x64.Idx)
    (hf : ∀ i : S2x16x2048x64.Idx, ∀ a : Fin 5, (f i a).val = match a with
      | ⟨0, _⟩ => 0
      | ⟨1, _⟩ => ((((i 0).val * 16 + (i 1).val) * 2048 + (i 2).val) * 64 + (i 3).val) / 2097152 % 2
      | ⟨2, _⟩ => ((((i 0).val * 16 + (i 1).val) * 2048 + (i 2).val) * 64 + (i 3).val) / 131072 % 16
      | ⟨3, _⟩ => ((((i 0).val * 16 + (i 1).val) * 2048 + (i 2).val) * 64 + (i 3).val) / 64 % 2048
      | ⟨4, _⟩ => ((((i 0).val * 16 + (i 1).val) * 2048 + (i 2).val) * 64 + (i 3).val) % 64) :
    f (ix4 b h t e) = ix5 (0 : Fin 1) b h t e := by
  have hb := b.isLt; have hh := h.isLt; have ht := t.isLt; have he := e.isLt
  funext a; apply Fin.ext
  rw [hf]
  match a with
  | ⟨0, _⟩ => rfl
  | ⟨1, _⟩ => exact show (((b.val * 16 + h.val) * 2048 + t.val) * 64 + e.val) / 2097152 % 2 = b.val from by omega
  | ⟨2, _⟩ => exact show (((b.val * 16 + h.val) * 2048 + t.val) * 64 + e.val) / 131072 % 16 = h.val from by omega
  | ⟨3, _⟩ => exact show (((b.val * 16 + h.val) * 2048 + t.val) * 64 + e.val) / 64 % 2048 = t.val from by omega
  | ⟨4, _⟩ => exact show (((b.val * 16 + h.val) * 2048 + t.val) * 64 + e.val) % 64 = e.val from by omega

/-- The queries, keys and values are slots 0, 1 and 2 of the fused projection. -/
theorem q_eq (b : Fin 2) (h : Fin 16) (t : Fin 2048) (e : Fin 64) :
    val_main_v7 (F := Ideal) x0 x1 x2 (ix4 b h t e) = Cert.Spec.proj x0 x1 x2 b t (Cert.Spec.col 0 h e) := by
  rw [val_main_v7_apply, unflat b h t e idx_main_v7 (fun i a => by match a with | ⟨0, _⟩ => rfl | ⟨1, _⟩ => rfl | ⟨2, _⟩ => rfl | ⟨3, _⟩ => rfl | ⟨4, _⟩ => rfl),
    val_main_v6_apply]
  have e6 : idx_main_v6 (ix5 (0 : Fin 1) b h t e) = ix5 (0 : Fin 3) b h t e := funext fun a => Fin.ext (by
    match a with | ⟨0, _⟩ => rfl | ⟨1, _⟩ => rfl | ⟨2, _⟩ => rfl | ⟨3, _⟩ => rfl | ⟨4, _⟩ => rfl)
  rw [e6, transposed_eq]
theorem k_eq (b : Fin 2) (h : Fin 16) (t : Fin 2048) (e : Fin 64) :
    val_main_v9 (F := Ideal) x0 x1 x2 (ix4 b h t e) = Cert.Spec.proj x0 x1 x2 b t (Cert.Spec.col 1 h e) := by
  rw [val_main_v9_apply, unflat b h t e idx_main_v9 (fun i a => by match a with | ⟨0, _⟩ => rfl | ⟨1, _⟩ => rfl | ⟨2, _⟩ => rfl | ⟨3, _⟩ => rfl | ⟨4, _⟩ => rfl),
    val_main_v8_apply]
  have e8 : idx_main_v8 (ix5 (0 : Fin 1) b h t e) = ix5 (1 : Fin 3) b h t e := funext fun a => Fin.ext (by
    match a with | ⟨0, _⟩ => rfl | ⟨1, _⟩ => rfl | ⟨2, _⟩ => rfl | ⟨3, _⟩ => rfl | ⟨4, _⟩ => rfl)
  rw [e8, transposed_eq]
theorem v_eq (b : Fin 2) (h : Fin 16) (t : Fin 2048) (e : Fin 64) :
    val_main_v11 (F := Ideal) x0 x1 x2 (ix4 b h t e) = Cert.Spec.proj x0 x1 x2 b t (Cert.Spec.col 2 h e) := by
  rw [val_main_v11_apply, unflat b h t e idx_main_v11 (fun i a => by match a with | ⟨0, _⟩ => rfl | ⟨1, _⟩ => rfl | ⟨2, _⟩ => rfl | ⟨3, _⟩ => rfl | ⟨4, _⟩ => rfl),
    val_main_v10_apply]
  have e10 : idx_main_v10 (ix5 (0 : Fin 1) b h t e) = ix5 (2 : Fin 3) b h t e := funext fun a => Fin.ext (by
    match a with | ⟨0, _⟩ => rfl | ⟨1, _⟩ => rfl | ⟨2, _⟩ => rfl | ⟨3, _⟩ => rfl | ⟨4, _⟩ => rfl)
  rw [e10, transposed_eq]

/-- The reference's scale: one over the square root of sixty-four. -/
abbrev κR : EReal := Ideal.div (Ideal.ofBits .f32 0x3F800000#32) (Ideal.sqrt (Ideal.ofBits .f32 0x42800000#32))

/-- The scaled scores. -/
theorem score_eq (b : Fin 2) (h : Fin 16) (t s : Fin 2048) :
    val_main_v16 (F := Ideal) x0 x1 x2 (ix4 b h t s) = Cert.Spec.score x0 x1 x2 κR b h t s := by
  rw [val_main_v16_apply, val_main_v14_apply]
  have el : ∀ k, lidx_main_v14 (ix4 b h t s) k = ix4 b h t k := fun k => funext fun a => Fin.ext (by
    match a with | ⟨0, _⟩ => rfl | ⟨1, _⟩ => rfl | ⟨2, _⟩ => rfl | ⟨3, _⟩ => rfl)
  have er : ∀ k, ridx_main_v14 (ix4 b h t s) k = ix4 b h s k := fun k => funext fun a => Fin.ext (by
    match a with | ⟨0, _⟩ => rfl | ⟨1, _⟩ => rfl | ⟨2, _⟩ => rfl | ⟨3, _⟩ => rfl)
  simp only [el, er, q_eq, k_eq]
  rfl

/-- The reduced axis' coordinate inserted last. -/
theorem lift_last (hr : S2x16x2048x2048.Reduces [3] S2x16x2048) (b : Fin 2) (h : Fin 16) (t s : Fin 2048) :
    hr.lift (ix3 b h t) s = ix4 b h t s := funext fun a => Fin.ext (by
  match a with | ⟨0, _⟩ => rfl | ⟨1, _⟩ => rfl | ⟨2, _⟩ => rfl | ⟨3, _⟩ => rfl)

/-- Each row's maximum. -/
theorem rmax_eq (b : Fin 2) (h : Fin 16) (t : Fin 2048) :
    val_main_v19 (F := Ideal) x0 x1 x2 (ix3 b h t) = Cert.Spec.rmax x0 x1 x2 κR b h t := by
  rw [val_main_v19_apply]
  unfold val_main_v17
  rw [Host.reduce_eq_fold_single FloatOps.maximumf _ _ reducesTo_S2x16x2048x2048_S2x16x2048_d3
    (by decide : S2x16x2048x2048.Reduces [3] S2x16x2048) h_S_]
  show max (Ideal.ofBits .f32 0xFF800000#32)
    ((Finset.univ : Finset (Fin 2048)).fold max (Ideal.ofBits .f32 0xFF800000#32) _) = _
  rw [Cert.Softmax.ofBits_negInf, max_eq_right bot_le]
  unfold Cert.Spec.rmax
  refine Finset.fold_congr fun s _ => ?_
  show val_main_v16 (F := Ideal) x0 x1 x2 (_) = _
  rw [lift_last, score_eq]

/-- The exponentials of the scores less their row's maximum. -/
theorem pexp_eq (b : Fin 2) (h : Fin 16) (t s : Fin 2048) :
    val_main_v23 (F := Ideal) x0 x1 x2 (ix4 b h t s) = Cert.Spec.pexp x0 x1 x2 κR b h t s := by
  rw [val_main_v23_apply, val_main_v22_apply, val_main_v21_apply, val_main_v20_apply]
  have e21 : idx_main_v20 (idx_main_v21 (ix4 b h t s)) = ix3 b h t := funext fun a => Fin.ext (by
    match a with | ⟨0, _⟩ => rfl | ⟨1, _⟩ => rfl | ⟨2, _⟩ => rfl)
  rw [e21, rmax_eq, score_eq]
  rfl

/-- Each row's sum of exponentials. -/
theorem psum_eq (b : Fin 2) (h : Fin 16) (t : Fin 2048) :
    val_main_v24 (F := Ideal) x0 x1 x2 (ix3 b h t) = Cert.Spec.psum x0 x1 x2 κR b h t := by
  rw [val_main_v24_apply]
  have e24 : ∀ k, idx_main_v24 (ix3 b h t) k = ix4 b h t k := fun k => funext fun a => Fin.ext (by
    match a with | ⟨0, _⟩ => rfl | ⟨1, _⟩ => rfl | ⟨2, _⟩ => rfl | ⟨3, _⟩ => rfl)
  simp only [e24, pexp_eq]
  show Ideal.ofBits .f32 0x00000000#32 + _ = _
  rw [Cert.Softmax.ofBits_zero, zero_add]
  rfl

/-- One head's output at (b, h, t, d), the reference's order. -/
theorem head_eq (b : Fin 2) (h : Fin 16) (t : Fin 2048) (d : Fin 64) :
    val_main_v28 (F := Ideal) x0 x1 x2 (ix4 b h t d) = Cert.Spec.attnR x0 x1 x2 κR b t h d := by
  rw [val_main_v28_apply]
  have el : ∀ k, lidx_main_v28 (ix4 b h t d) k = ix4 b h t k := fun k => funext fun a => Fin.ext (by
    match a with | ⟨0, _⟩ => rfl | ⟨1, _⟩ => rfl | ⟨2, _⟩ => rfl | ⟨3, _⟩ => rfl)
  have er : ∀ k, ridx_main_v28 (ix4 b h t d) k = ix4 b h k d := fun k => funext fun a => Fin.ext (by
    match a with | ⟨0, _⟩ => rfl | ⟨1, _⟩ => rfl | ⟨2, _⟩ => rfl | ⟨3, _⟩ => rfl)
  have e26 : ∀ k, idx_main_v25 (idx_main_v26 (ix4 b h t k)) = ix3 b h t := fun k => funext fun a => Fin.ext (by
    match a with | ⟨0, _⟩ => rfl | ⟨1, _⟩ => rfl | ⟨2, _⟩ => rfl)
  simp only [el, er, val_main_v27_apply, val_main_v26_apply, val_main_v25_apply, e26, psum_eq, pexp_eq, v_eq]
  rfl

/-- The heads laid side by side: column c of (b, t) is head c / 64 at width c % 64. -/
theorem laid_eq (b : Fin 2) (t : Fin 2048) (c : Fin 1024) :
    val_main_v30 (F := Ideal) x0 x1 x2 (ix3 b t c)
      = Cert.Spec.attnR x0 x1 x2 κR b t ⟨c.val / 64, by omega⟩ ⟨c.val % 64, by omega⟩ := by
  rw [val_main_v30_apply, val_main_v29_apply]
  have hb := b.isLt; have ht := t.isLt; have hc := c.isLt
  have e : idx_main_v29 (idx_main_v30 (ix3 b t c)) = ix4 b (⟨c.val / 64, by omega⟩ : Fin 16) t (⟨c.val % 64, by omega⟩ : Fin 64) := by
    funext a; apply Fin.ext
    match a with
    | ⟨0, _⟩ => exact show ((b.val * 2048 + t.val) * 1024 + c.val) / 2097152 = b.val from by omega
    | ⟨1, _⟩ => exact show ((b.val * 2048 + t.val) * 1024 + c.val) / 64 % 16 = c.val / 64 from by omega
    | ⟨2, _⟩ => exact show ((b.val * 2048 + t.val) * 1024 + c.val) / 1024 % 2048 = t.val from by omega
    | ⟨3, _⟩ => exact show ((b.val * 2048 + t.val) * 1024 + c.val) % 64 = c.val % 64 from by omega
  rw [e, head_eq]

/-- The reference's result is the specification's reference-order result of the arguments. -/
theorem result :
    val_main_v34 (F := Ideal) x0 x1 x2 x3 x4 = Cert.Spec.resultR x0 x1 x2 x3 x4 := by
  funext i
  obtain ⟨b, t, o, rfl⟩ : ∃ (b : Fin 2) (t : Fin 2048) (o : Fin 1024), i = ix3 b t o := ⟨i 0, i 1, i 2, eq_ix3 i⟩
  rw [val_main_v34_apply, val_main_v31_apply, val_main_v33_apply, val_main_v32_apply]
  have el : ∀ k, lidx_main_v31 (ix3 b t o) k = ix3 b t k := fun k => funext fun a => Fin.ext (by
    match a with | ⟨0, _⟩ => rfl | ⟨1, _⟩ => rfl | ⟨2, _⟩ => rfl)
  have er : ∀ k, ridx_main_v31 (ix3 b t o) k = ix2 o k := fun k => funext fun a => Fin.ext (by
    match a with | ⟨0, _⟩ => rfl | ⟨1, _⟩ => rfl)
  have eb : idx_main_v32 (idx_main_v33 (ix3 b t o)) = ix1 o := funext fun a => Fin.ext (by
    match a with | ⟨0, _⟩ => rfl)
  simp only [el, er, eb, laid_eq]
  rfl

end Cert.RefSide

end
-- ==== Proof.Bridge.lean ====
/-
  The bridge: under finite inputs, what the kernel program's run leaves in its result buffer — the last boundary's
  contents at the result, a fold through three calls and four host stretches — is the reference's result term of the
  same argument arrays: each side is the specification's function of the arguments (the kernel's order, the
  reference's order), the precondition makes the arguments real, and then the two orders agree.
-/
import proofs.«132017_j67611375174105_2_alg».proof.Defs
import proofs.«132017_j67611375174105_2_alg».proof.Proof.Gen.Pre_finite_inputs
import proofs.«132017_j67611375174105_2_alg».proof.Proof.Gen.ReferenceIdeal.Read
import proofs.«132017_j67611375174105_2_alg».proof.Proof.Ideal.Run
import proofs.«132017_j67611375174105_2_alg».proof.Proof.Finite
import proofs.«132017_j67611375174105_2_alg».proof.Proof.Spec
import proofs.«132017_j67611375174105_2_alg».proof.Proof.Ideal.KernelSide
import proofs.«132017_j67611375174105_2_alg».proof.Proof.RefSide

noncomputable section

namespace Cert.Bridge

open Idealize.ShloMosaic Idealize.ShloMosaic.TcCoe Idealize.SL.Sem

/-- The kernel program's result buffer after its run is the reference's result of the same arguments. -/
theorem result_eq [hPre_finite_inputs : Cert.Pre_finite_inputs.Facts]
    (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Run.W7 (F := Ideal) m ρ c (Proc.devRef .tc Cert.KernelIdeal.main_v13)
      = Cert.ReferenceIdeal.Read.val_main_v34 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  obtain ⟨hx, hw, hb⟩ := Cert.Finite.args_real _ _ _ _ _ (hpre c)
  rw [Cert.KernelIdeal.KernelSide.result m ρ c, Cert.RefSide.result]
  exact Cert.Spec.result_eq _ _ _ _ _ hx hw hb

end Cert.Bridge

end
-- ==== Proof.lean ====
/-
  Multi-head self-attention, one kernel program against one jnp reference, over the extended reals.

  Both programs compute, for x : [2, 2048, 1024], a fused projection qkv = x · W_qkvᵀ + b_qkv, split it into sixteen
  heads of width 64, form for every head the scores s = (q · kᵀ) / 8, the row-wise softmax of s, its product with v,
  lay the heads side by side again and apply the output projection · W_outᵀ + b_out. The kernel program does it in
  three calls (projection, attention, projection) among host reshapes, transposes and format changes — the last
  being the identity on extended reals —; in the attention call it multiplies by the literal 1/8 where the reference
  divides 1 by the square root of 64, and it divides the value-weighted sums by the row sums of the exponentials AFTER
  the product with v where the reference normalises the exponentials BEFORE it. The frames of the two kernel programs
  come from one run of @main's seven segments (Proof/Ideal/Run.lean, Proof/Bits/Run.lean); the reference's from its
  run read back.
-/
import proofs.«132017_j67611375174105_2_alg».proof.Defs
import proofs.«132017_j67611375174105_2_alg».proof.Proof.Gen.Kernel
import proofs.«132017_j67611375174105_2_alg».proof.Proof.Gen.KernelIdeal
import proofs.«132017_j67611375174105_2_alg».proof.Proof.Gen.ReferenceIdeal
import proofs.«132017_j67611375174105_2_alg».proof.Proof.Gen.Pre_finite_inputs
import proofs.«132017_j67611375174105_2_alg».proof.Proof.Gen.ReferenceIdeal.Run
import proofs.«132017_j67611375174105_2_alg».proof.Proof.Gen.ReferenceIdeal.Read
import proofs.«132017_j67611375174105_2_alg».proof.Proof.Bits.Run
import proofs.«132017_j67611375174105_2_alg».proof.Proof.Ideal.Run
import proofs.«132017_j67611375174105_2_alg».proof.Proof.Bridge
import Idealize.ShloMosaic.Adequacy
import Idealize.ShloMosaic.Init

noncomputable section

namespace Cert.Proof

open Idealize.ShloMosaic Idealize.SL.Sem

/-- The word-level kernel program runs to the end with its arguments unchanged. -/
theorem frame_kernel : Cert.frame_Kernel := fun m ρ _ => Cert.Kernel.Run.frame (F := Bits) m ρ

/-- So does its idealization. -/
theorem frame_kernelIdeal : Cert.frame_KernelIdeal := fun m ρ _ => Cert.KernelIdeal.Run.frame (F := Ideal) m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read over the extended reals. -/
theorem preserves : Cert.preserves_Kernel_KernelIdeal := trivial

/-- From memories agreeing on the arguments both idealized programs end with the same result array: the kernel
    program's run leaves the last boundary's contents in its result buffer, the reference's its result term, and under
    finite inputs the two are one array (the bridge). -/
theorem algebraic : Cert.algebraic_KernelIdeal_ReferenceIdeal := by
  intro m ρ m' ρ' hpre hagree
  refine ⟨fun c => Cert.KernelIdeal.Run.W7 (F := Ideal) m ρ c (Proc.devRef .tc Cert.KernelIdeal.main_v13), ?_, ?_⟩
  · refine (θ_run Cert.KernelIdeal.defs _ _).mono (fun r h c => ?_) (Cert.KernelIdeal.Run.run_all (F := Ideal) m ρ)
    exact ⟨h c _ (Cert.KernelIdeal.Run.mem_uc Cert.KernelIdeal.main_v13 (by decide)),
      (h c _ (Cert.KernelIdeal.Run.mem_uc Cert.KernelIdeal.main_arg0 (by decide))).trans (Cert.KernelIdeal.Run.W7_main_arg0 m ρ c),
      (h c _ (Cert.KernelIdeal.Run.mem_uc Cert.KernelIdeal.main_arg1 (by decide))).trans (Cert.KernelIdeal.Run.W7_main_arg1 m ρ c),
      (h c _ (Cert.KernelIdeal.Run.mem_uc Cert.KernelIdeal.main_arg2 (by decide))).trans (Cert.KernelIdeal.Run.W7_main_arg2 m ρ c),
      (h c _ (Cert.KernelIdeal.Run.mem_uc Cert.KernelIdeal.main_arg3 (by decide))).trans (Cert.KernelIdeal.Run.W7_main_arg3 m ρ c),
      (h c _ (Cert.KernelIdeal.Run.mem_uc Cert.KernelIdeal.main_arg4 (by decide))).trans (Cert.KernelIdeal.Run.W7_main_arg4 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, (hagree c).1, (hagree c).2.1, (hagree c).2.2.1, (hagree c).2.2.2.1, (hagree c).2.2.2.2]
    exact (Cert.Bridge.result_eq m ρ hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
